-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41A00000#32 ((268435456 / 13421773 : ℝ) : EReal)
  ∧ IdealRules.named_const.Statement Cert.KernelIdeal.κ "inv_temperature" .f32 0x41A00000#32 ((268435456 / 13421773 : ℝ) : EReal)
  ∧ IdealRules.named_const.Statement Cert.KernelIdeal.κ "inv_temperature" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S8192x1 : Shape := ⟨2, ![8192, 1]⟩
abbrev S1024x256 : Shape := ⟨2, ![1024, 256]⟩
abbrev S2048x256 : Shape := ⟨2, ![2048, 256]⟩
abbrev S1024x1 : Shape := ⟨2, ![1024, 1]⟩
abbrev S1024 : Shape := ⟨1, ![1024]⟩
abbrev S1024x2048 : Shape := ⟨2, ![1024, 2048]⟩
abbrev S1x2048 : Shape := ⟨2, ![1, 2048]⟩

abbrev nBuf : Space → Nat
  | .hbm => 20
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x256, .f32⟩
  | .hbm, ⟨13, _⟩ => ⟨S16384x256, .f32⟩
  | .hbm, ⟨14, _⟩ => ⟨S16384x256, .bf16⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S2048x256, .bf16⟩
  | .local _ .vmem, ⟨3, _⟩ => ⟨S2048x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S8192x256_S8192x256_S16384x256_d0 : Shape.Concatenates [S8192x256, S8192x256] S16384x256 0
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  iota_S1024x1_d0_w32 : S1024x1.Iotas .tc 32 [0]
  iota_S1x2048_d1_w32 : S1x2048.Iotas .tc 32 [1]
  broadcasts_S1024x1_S1024x2048 : S1024x1.Broadcasts S1024x2048
  broadcasts_S1x2048_S1024x2048 : S1x2048.Broadcasts S1024x2048
  reduces_S1024x2048_S1024 : S1024x2048.Reduces [1] S1024
  reducesTo_S8192x1_S_d0_1 : S8192x1.ReducesTo [0, 1] S_
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .bf16 = 32 ∨ (Rect.block (s := S16384x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S256x16384 : Shape := ⟨2, ![256, 16384]⟩
abbrev S8192x16384 : Shape := ⟨2, ![8192, 16384]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S16384x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S16384x256, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x256, .f32⟩
  | .hbm, ⟨23, _⟩ => ⟨S16384x256, .f32⟩
  | .hbm, ⟨24, _⟩ => ⟨S256x16384, .f32⟩
  | .hbm, ⟨25, _⟩ => ⟨S8192x16384, .f32⟩
  | .hbm, ⟨26, _⟩ => ⟨S_, .f32⟩
  | .hbm, ⟨27, _⟩ => ⟨S8192x16384, .f32⟩
  | .hbm, ⟨28, _⟩ => ⟨S8192x16384, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x16384, .f32⟩
  | .hbm, ⟨36, _⟩ => ⟨S8192x16384, .f32⟩
  | .hbm, ⟨37, _⟩ => ⟨S8192x16384, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1, .f32⟩
  | .hbm, ⟨42, _⟩ => ⟨S8192x16384, .f32⟩
  | .hbm, ⟨43, _⟩ => ⟨S8192x16384, .f32⟩
  | .hbm, ⟨44, _⟩ => ⟨S8192, .i32⟩
  | .hbm, ⟨45, _⟩ => ⟨S8192x1, .i32⟩
  | .hbm, ⟨46, _⟩ => ⟨S_, .i32⟩
  | .hbm, ⟨47, _⟩ => ⟨S8192x1, .i32⟩
  | .hbm, ⟨48, _⟩ => ⟨S8192x1, .i1⟩
  | .hbm, ⟨49, _⟩ => ⟨S_, .i32⟩
  | .hbm, ⟨50, _⟩ => ⟨S8192x1, .i32⟩
  | .hbm, ⟨51, _⟩ => ⟨S8192x1, .i32⟩
  | .hbm, ⟨52, _⟩ => ⟨S8192x1, .i32⟩
  | .hbm, ⟨53, _⟩ => ⟨S8192x1x1, .i32⟩
  | .hbm, ⟨54, _⟩ => ⟨S1, .i32⟩
  | .hbm, ⟨55, _⟩ => ⟨S_, .i32⟩
  | .hbm, ⟨56, _⟩ => ⟨S8192x1x1, .i32⟩
  | .hbm, ⟨57, _⟩ => ⟨S8192x1x1, .i1⟩
  | .hbm, ⟨58, _⟩ => ⟨S1x1x1, .i32⟩
  | .hbm, ⟨59, _⟩ => ⟨S8192x1x1, .i32⟩
  | .hbm, ⟨60, _⟩ => ⟨S8192x1x1, .i1⟩
  | .hbm, ⟨61, _⟩ => ⟨S8192x1x1, .i1⟩
  | .hbm, ⟨62, _⟩ => ⟨S_, .i1⟩
  | .hbm, ⟨63, _⟩ => ⟨S8192x1, .i1⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v24 : Ref sig .tc := ⟨.hbm, 67, rfl⟩
abbrev main_cst_4 : Ref sig .tc := ⟨.hbm, 68, rfl⟩
abbrev main_v25 : Ref sig .tc := ⟨.hbm, 69, rfl⟩
abbrev main_cst_5 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]

class Facts₀ : Prop where
  concatenates_S8192x256_S8192x256_S16384x256_d0 : Shape.Concatenates [S8192x256, S8192x256] S16384x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S16384x256_S16384_d1 : S16384x256.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  transposes_S16384x256_S256x16384_1_0 : S16384x256.Transposes [1, 0] S256x16384
  bcast_S_S8192x16384 : S_.BroadcastsInDim S8192x16384 (![] : Fin 0 → Fin S8192x16384.rank)
  reducesTo_S8192x16384_S8192_d1 : S8192x16384.ReducesTo [1] S8192
  bcast_S_S8192 : S_.BroadcastsInDim S8192 (![] : Fin 0 → Fin S8192.rank)
  bcast_S8192x1_S8192x16384_0_1 : S8192x1.BroadcastsInDim S8192x16384 (![0, 1] : Fin 2 → Fin S8192x16384.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x16384_S8192x16384_1_0_0_1_n_n_wf : DotDims.WF S8192x256 S256x16384 S8192x16384 [1] [0] [0] [1] [] []
  gather_S8192x16384_S8192x1x1_S8192x1_n_1_0_0_1_2_11_wf : GatherDims.WF S8192x16384 S8192x1x1 S8192x1 [] [1] [0] [1] [0] 2 ![1, 1]

variable [Facts₀]

def dot_S8192x256_S256x16384_S8192x16384_1_0_0_1_n_n : DotDims S8192x256 S256x16384 S8192x16384 where
  lhsContracting := [1]
  rhsContracting := [0]
  lhsNonContracting := [0]
  rhsNonContracting := [1]
  lhsBatch := []
  rhsBatch := []
  wf := dot_S8192x256_S256x16384_S8192x16384_1_0_0_1_n_n_wf
def gather_S8192x16384_S8192x1x1_S8192x1_n_1_0_0_1_2_11 : GatherDims S8192x16384 S8192x1x1 S8192x1 where
  offsetDims := []
  collapsedSliceDims := [1]
  operandBatchingDims := [0]
  startIndicesBatchingDims := [0]
  startIndexMap := [1]
  indexVectorDim := 2
  sliceSizes := ![1, 1]
  wf := gather_S8192x16384_S8192x1x1_S8192x1_n_1_0_0_1_2_11_wf

class Facts : Prop extends Facts₀ where

variable [Facts]
-- ==== Proof.KRuns.lean ====
import proofs.«144956_j83760452206739_2_alg».proof.Proof.Gen.Kernel.Frame
import proofs.«144956_j83760452206739_2_alg».proof.Proof.Gen.Kernel.Skeleton
import Idealize.ShloMosaic.Lib.Pipeline.Value

set_option maxRecDepth 16384

noncomputable section

/-! # The kernel body, case by case

The body keeps three buffers between the points of one row tile: the running sum of exponentials `l`, the running
diagonal score `dg`, and the normalised anchor rows `a`. At a point it (1) on the first column tile resets `l` and
`dg` to zero and stores the normalised anchor rows; (2) forms the score tile; (3) where the row range meets the column
range adds the masked row sums to `dg`; (4) adds the row sums of the shifted exponentials to `l`; (5) on the last
column tile writes `shift + log l - dg` to the output block. Each conditional is a test on the grid coordinates, so
at a given point the body is one of five straight lines; each is run here once, on arbitrary whole buffers, and its
effect stated as the payloads of the stores that were made. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the column-tile coordinate is zero. -/
abbrev cond1 (i : grid0.Coords) : Prop :=
  (Scalar.cmpi .ne (Scalar.extui (Scalar.cmpi .eq (BitVec.ofNat 32 (i 1).val) 0#32)) 0#32) = 1#1
/-- The second conditional's test: the row range [1024 q, 1024 q + 1024) meets the column range [2048 k, 2048 k + 2048). -/
abbrev cond2 (i : grid0.Coords) : Prop :=
  (Scalar.cmpi .ne (Scalar.extui (Scalar.andi
      (Scalar.cmpi .slt (Scalar.muli (BitVec.ofNat 32 (i 0).val) 1024#32) (Scalar.addi (Scalar.muli (BitVec.ofNat 32 (i 1).val) 2048#32) 2048#32))
      (Scalar.cmpi .slt (Scalar.muli (BitVec.ofNat 32 (i 1).val) 2048#32) (Scalar.addi (Scalar.muli (BitVec.ofNat 32 (i 0).val) 1024#32) 1024#32)))) 0#32) = 1#1
/-- The third conditional's test: the column-tile coordinate is the last one. -/
abbrev cond3 (i : grid0.Coords) : Prop := k0_cond3 i = 1#1

/-- The zero offsets of every access of the body, however they are spelt. -/
theorem hz2 : (![0, 0] : Fin 2 → Nat) = fun _ => 0 := by funext a; fin_cases a <;> rfl

/-- What a buffer reads after a list of stores whose LAST one fills it whole: that store's payload. -/
theorem read_last_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- A middle point off the diagonal band: the exponentials' row sums are added to `l`; nothing else is stored. -/
theorem runD (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : ¬cond1 i) (hc2 : ¬cond2 i) (hc3 : ¬cond3 i)
    (x0 : Vec F S1024x256 .f32) (x1 : Vec F S2048x256 .bf16) (l : Vec F S1024x1 .f32) (a : Vec F S1024x256 .bf16)
    (E : Set ℕ) (K : PUnit → sProp 𝕄) :
    iprop(owns (c : Thread nD τ) arg3 fullShare x1 ∗ owns (c : Thread nD τ) arg5 fullShare l ∗ owns (c : Thread nD τ) arg7 fullShare a
        ∗ (iprop(owns (c : Thread nD τ) arg3 fullShare x1 ∗ owns (c : Thread nD τ) arg5 fullShare (k0_pay6 a x1 l) ∗ owns (c : Thread nD τ) arg7 fullShare a) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f1, %hf1, H1⟩, ⟨%f5, %hf5, H5⟩, ⟨%f7, %hf7, H7⟩, Hk⟩
  obtain rfl := harg3.eq_unread hf1
  obtain rfl := harg5.eq_unread hf5; obtain rfl := harg7.eq_unread hf7
  sl_exec (disch := first | exact hc1 | exact hc2 | exact hc3)
  sl_step
  iapply Hk
  isplitl [H1]
  · iexists _; isplitr; · ipureintro; exact harg3.read_unread _
    iexact H1
  isplitl [H5]
  · iexists _; isplitr
    swap; · iexact H5
    ipureintro
    rw [read_last_whole _ _ hz2]
    simp only [View.readAt_eq_ld, harg3.read_unread, harg5.read_unread, harg7.read_unread,
      View.ld_unit_zero (S := S1024x256) hz2, View.ld_unit_zero (S := S2048x256) hz2, View.ld_unit_zero (S := S1024x1) hz2]
    try rfl
  iexists _; isplitr; · ipureintro; exact harg7.read_unread _
  iexact H7

set_option maxHeartbeats 1000000 in
/-- A middle point on the diagonal band: the masked row sums are added to `dg` and the exponentials' row sums to `l`. -/
theorem runC (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : ¬cond1 i) (hc2 : cond2 i) (hc3 : ¬cond3 i)
    (x1 : Vec F S2048x256 .bf16) (l dg : Vec F S1024x1 .f32) (a : Vec F S1024x256 .bf16)
    (E : Set ℕ) (K : PUnit → sProp 𝕄) :
    iprop(owns (c : Thread nD τ) arg3 fullShare x1 ∗ owns (c : Thread nD τ) arg5 fullShare l ∗ owns (c : Thread nD τ) arg6 fullShare dg ∗ owns (c : Thread nD τ) arg7 fullShare a
        ∗ (iprop(owns (c : Thread nD τ) arg3 fullShare x1 ∗ owns (c : Thread nD τ) arg5 fullShare (k0_pay6 a x1 l) ∗ owns (c : Thread nD τ) arg6 fullShare (k0_pay5 i a x1 dg) ∗ owns (c : Thread nD τ) arg7 fullShare a) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f1, %hf1, H1⟩, ⟨%f5, %hf5, H5⟩, ⟨%f6, %hf6, H6⟩, ⟨%f7, %hf7, H7⟩, Hk⟩
  obtain rfl := harg3.eq_unread hf1
  obtain rfl := harg5.eq_unread hf5; obtain rfl := harg6.eq_unread hf6; obtain rfl := harg7.eq_unread hf7
  sl_exec (disch := first | exact hc1 | exact hc2 | exact hc3)
  sl_step
  iapply Hk
  isplitl [H1]
  · iexists _; isplitr; · ipureintro; exact harg3.read_unread _
    iexact H1
  isplitl [H5]
  · iexists _; isplitr
    swap; · iexact H5
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr
    swap; · iexact H6
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  iexists _; isplitr; · ipureintro; exact harg7.read_unread _
  iexact H7

set_option maxHeartbeats 1000000 in
/-- The last column tile: the exponentials' row sums are added to `l`, and the output block is written from `l` and `dg`. -/
theorem runE (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : ¬cond1 i) (hc2 : ¬cond2 i) (hc3 : cond3 i)
    (x1 : Vec F S2048x256 .bf16) (l dg : Vec F S1024x1 .f32) (a : Vec F S1024x256 .bf16)
    (E : Set ℕ) (K : PUnit → sProp 𝕄) :
    iprop(owns (c : Thread nD τ) arg3 fullShare x1 ∗ (∃ d, owns (c : Thread nD τ) arg4 fullShare d) ∗ owns (c : Thread nD τ) arg5 fullShare l ∗ owns (c : Thread nD τ) arg6 fullShare dg ∗ owns (c : Thread nD τ) arg7 fullShare a
        ∗ (iprop(owns (c : Thread nD τ) arg3 fullShare x1 ∗ owns (c : Thread nD τ) arg4 fullShare (k0_pay7 (k0_pay6 a x1 l) dg) ∗ owns (c : Thread nD τ) arg5 fullShare (k0_pay6 a x1 l) ∗ owns (c : Thread nD τ) arg6 fullShare dg ∗ owns (c : Thread nD τ) arg7 fullShare a) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f1, %hf1, H1⟩, ⟨%d4, %f4, -, H4⟩, ⟨%f5, %hf5, H5⟩, ⟨%f6, %hf6, H6⟩, ⟨%f7, %hf7, H7⟩, Hk⟩
  obtain rfl := harg3.eq_unread hf1
  obtain rfl := harg5.eq_unread hf5; obtain rfl := harg6.eq_unread hf6; obtain rfl := harg7.eq_unread hf7
  sl_exec (disch := first | exact hc1 | exact hc2 | exact hc3)
  sl_step
  iapply Hk
  isplitl [H1]
  · iexists _; isplitr; · ipureintro; exact harg3.read_unread _
    iexact H1
  isplitl [H4]
  · iexists _; isplitr
    swap; · iexact H4
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H5]
  · iexists _; isplitr
    swap; · iexact H5
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr; · ipureintro; exact harg6.read_unread _
    iexact H6
  iexists _; isplitr; · ipureintro; exact harg7.read_unread _
  iexact H7

set_option maxHeartbeats 1000000 in
/-- The first column tile, on the diagonal band: `l` and `dg` restart from zero, the anchor rows are normalised and kept,
    and both sums receive this tile's contribution. -/
theorem runA (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : cond1 i) (hc2 : cond2 i) (hc3 : ¬cond3 i)
    (x0 : Vec F S1024x256 .f32) (x1 : Vec F S2048x256 .bf16)
    (E : Set ℕ) (K : PUnit → sProp 𝕄) :
    iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg5 fullShare (k0_pay6 (k0_pay3 x0) x1 k0_pay1) ∗ owns (c : Thread nD τ) arg6 fullShare (k0_pay5 i (k0_pay3 x0) x1 k0_pay2) ∗ owns (c : Thread nD τ) arg7 fullShare (k0_pay3 x0)) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f0, %hf0, H0⟩, ⟨%f1, %hf1, H1⟩, ⟨%d5, %f5, -, H5⟩, ⟨%d6, %f6, -, H6⟩, ⟨%d7, %f7, -, H7⟩, Hk⟩
  obtain rfl := harg2.eq_unread hf0; obtain rfl := harg3.eq_unread hf1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H5]
  · iexists _; isplitr
    swap; · iexact H5
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr
    swap; · iexact H6
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  · iexists _; isplitr
    swap; · iexact H7
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl

set_option maxHeartbeats 1000000 in
/-- The first column tile, off the diagonal band: as `runA` without the diagonal's contribution. -/
theorem runB (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : cond1 i) (hc2 : ¬cond2 i) (hc3 : ¬cond3 i)
    (x0 : Vec F S1024x256 .f32) (x1 : Vec F S2048x256 .bf16)
    (E : Set ℕ) (K : PUnit → sProp 𝕄) :
    iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg5 fullShare (k0_pay6 (k0_pay3 x0) x1 k0_pay1) ∗ owns (c : Thread nD τ) arg6 fullShare (k0_pay2 (F := F)) ∗ owns (c : Thread nD τ) arg7 fullShare (k0_pay3 x0)) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f0, %hf0, H0⟩, ⟨%f1, %hf1, H1⟩, ⟨%d5, %f5, -, H5⟩, ⟨%d6, %f6, -, H6⟩, ⟨%d7, %f7, -, H7⟩, Hk⟩
  obtain rfl := harg2.eq_unread hf0; obtain rfl := harg3.eq_unread hf1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H5]
  · iexists _; isplitr
    swap; · iexact H5
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr
    swap; · iexact H6
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  · iexists _; isplitr
    swap; · iexact H7
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl

end Cert.Kernel.Body

end
-- ==== Proof.KFrame.lean ====
import proofs.«144956_j83760452206739_2_alg».proof.Proof.KRuns

set_option maxRecDepth 16384

noncomputable section

/-! # The frame of the kernel's program

What the three kept buffers and the output block hold after each grid point is a recurrence over the points in grid
order (`stAt`): the point's straight line applied to what the point before left. With it the region's invariant
names the kept buffers' contents between points, the body obligation is the five runs, and the program's run follows
from the launch theorem for a region followed by host operations. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the 8 × 8 grid (decided point by point) -/

/-- The first point of the grid is on the first column tile. -/
theorem cond1_first : ∀ t : Fin cfg0.N, t.val = 0 → cond1 (grid0.coords t) :=
  (by decide +kernel : ∀ t : Fin grid0.N, t.val = 0 → cond1 (grid0.coords t))
/-- The first column tile is not the last. -/
theorem not_cond3_of_cond1 : ∀ t : Fin cfg0.N, cond1 (grid0.coords t) → ¬cond3 (grid0.coords t) :=
  (by decide +kernel : ∀ t : Fin grid0.N, cond1 (grid0.coords t) → ¬cond3 (grid0.coords t))
/-- The last column tile holds columns 14336 and up, past every row of the 8192: it never meets the diagonal band. -/
theorem not_cond3_of_cond2 : ∀ t : Fin cfg0.N, cond2 (grid0.coords t) → ¬cond3 (grid0.coords t) :=
  (by decide +kernel : ∀ t : Fin grid0.N, cond2 (grid0.coords t) → ¬cond3 (grid0.coords t))
/-- Off the last column tile the output window is idle and is not written back. -/
theorem idle2 : ∀ t : Fin cfg0.N, ¬cond3 (grid0.coords t) → cfg0.idle 2 (grid0.coords t) = true :=
  (by decide +kernel : ∀ t : Fin grid0.N, ¬cond3 (grid0.coords t) → cfg0.idle 2 (grid0.coords t) = true)
theorem noFlush2 : ∀ t : Fin cfg0.N, ¬cond3 (grid0.coords t) → (cfg0.win 2).flush t = false :=
  (by decide +kernel : ∀ t : Fin grid0.N, ¬cond3 (grid0.coords t) → win0_2.flush t = false)
/-- On it the window is live. -/
theorem live2 : ∀ t : Fin cfg0.N, cond3 (grid0.coords t) → cfg0.idle 2 (grid0.coords t) = false :=
  (by decide +kernel : ∀ t : Fin grid0.N, cond3 (grid0.coords t) → cfg0.idle 2 (grid0.coords t) = false)
/-- The input windows are never idle. -/
theorem live0 : ∀ t : Fin cfg0.N, cfg0.idle 0 (grid0.coords t) = false := by decide +kernel
theorem live1 : ∀ t : Fin cfg0.N, cfg0.idle 1 (grid0.coords t) = false := by decide +kernel

/-! ## What is kept between points -/

/-- The output block and the three kept buffers: the running sum `l`, the running diagonal `dg`, the normalised anchor rows `a`. -/
structure St (F : FTy → Type) where
  out : Vec F S1024x1 .f32
  l : Vec F S1024x1 .f32
  dg : Vec F S1024x1 .f32
  a : Vec F S1024x256 .bf16

open Classical in
/-- One point's effect on them, from the point's anchor block `x0` and target block `x1`. -/
def step (i : grid0.Coords) (x0 : Vec F S1024x256 .f32) (x1 : Vec F S2048x256 .bf16) (s : St F) : St F :=
  if cond1 i then
    if cond2 i then ⟨s.out, k0_pay6 (k0_pay3 x0) x1 k0_pay1, k0_pay5 i (k0_pay3 x0) x1 k0_pay2, k0_pay3 x0⟩
    else ⟨s.out, k0_pay6 (k0_pay3 x0) x1 k0_pay1, k0_pay2, k0_pay3 x0⟩
  else if cond2 i then ⟨s.out, k0_pay6 s.a x1 s.l, k0_pay5 i s.a x1 s.dg, s.a⟩
  else if cond3 i then ⟨k0_pay7 (k0_pay6 s.a x1 s.l) s.dg, k0_pay6 s.a x1 s.l, s.dg, s.a⟩
  else ⟨s.out, k0_pay6 s.a x1 s.l, s.dg, s.a⟩

/-- Their contents after the point at position `n` of the grid order. Before the first point nothing is assumed of
    them: the first point is on the first column tile and overwrites all three kept buffers. -/
def stAt (c : Dev nD) : (n : ℕ) → n < cfg0.N → St F
  | 0, hn => step (grid0.coords ⟨0, hn⟩) (iblk m c 0 ⟨0, hn⟩) (iblk m c 1 ⟨0, hn⟩)
      ⟨k0_pay1, k0_pay1, k0_pay1, k0_pay3 (iblk m c 0 ⟨0, hn⟩)⟩
  | n + 1, hn => step (grid0.coords ⟨n + 1, hn⟩) (iblk m c 0 ⟨n + 1, hn⟩) (iblk m c 1 ⟨n + 1, hn⟩) (stAt c n (Nat.lt_of_succ_lt hn))

/-- At a point that is not the first: the step over what the point before left. -/
theorem stAt_pos (c : Dev nD) (t : Fin cfg0.N) (ht : t.val ≠ 0) :
    stAt m c t.val t.isLt = step (grid0.coords t) (iblk m c 0 t) (iblk m c 1 t) (stAt m c (t.val - 1) (Nat.lt_of_le_of_lt (Nat.sub_le _ _) t.isLt)) := by
  obtain ⟨n, hn⟩ := t
  cases n with
  | zero => exact absurd rfl ht
  | succ n => rfl

/-- The step at a point of the first column tile does not read what was kept. -/
theorem step_of_cond1 (i : grid0.Coords) (h1 : cond1 i) (x0 : Vec F S1024x256 .f32) (x1 : Vec F S2048x256 .bf16) (s s' : St F) (ho : s.out = s'.out) :
    step i x0 x1 s = step i x0 x1 s' := by
  unfold step; rw [if_pos h1, if_pos h1, ho]

/-! ## The region's invariant -/

abbrev sc0 : Memref sig .tc .vmem S1024x1 .f32 := Memref.whole cc0_scratch0
abbrev sc1 : Memref sig .tc .vmem S1024x1 .f32 := Memref.whole cc0_scratch1
abbrev sc2 : Memref sig .tc .vmem S1024x256 .bf16 := Memref.whole cc0_scratch2

/-- The class's invariant with the three kept buffers as memrefs at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before position `n`: at the start anything; afterwards the kept buffers at what the point before left. -/
def PhiS (c : Dev nD) : (n : ℕ) → n ≤ cfg0.N → sProp 𝕄
  | 0, _ => Pipeline.ΦA spec0 c
  | n + 1, hn => iprop(iprop(owns (c : Thread nD τ) sc0 fullShare (stAt m c n hn).l ∗ owns (c : Thread nD τ) sc1 fullShare (stAt m c n hn).dg ∗ owns (c : Thread nD τ) sc2 fullShare (stAt m c n hn).a) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (stAt m c n hn).l ∗ owns (c : Thread nD τ) sc1 fullShare (stAt m c n hn).dg ∗ owns (c : Thread nD τ) sc2 fullShare (stAt m c n hn).a) ∗ (∃ r, prngReg c r)) := rfl

theorem PhiS_pos (c : Dev nD) (n : ℕ) (h : n ≤ cfg0.N) (hz : n ≠ 0) :
    PhiS m c n h = iprop(iprop(owns (c : Thread nD τ) sc0 fullShare (stAt m c (n - 1) (by omega)).l ∗ owns (c : Thread nD τ) sc1 fullShare (stAt m c (n - 1) (by omega)).dg ∗ owns (c : Thread nD τ) sc2 fullShare (stAt m c (n - 1) (by omega)).a) ∗ (∃ r, prngReg c r)) := by
  cases n with
  | zero => exact absurd rfl hz
  | succ n => rfl

/-- Named contents may be forgotten. -/
theorem PhiS_weaken (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨H0, H1, H2⟩, Hg⟩
    isplitr [Hg]
    · isplitl [H0]; · iexists _; iexact H0
      isplitl [H1]; · iexists _; iexact H1
      iexists _; iexact H2
    iexact Hg

/-! ## The proof data -/

/-- The arrays as the region finds them; after the body each input's buffer at its block, the output's at `stAt`'s
    component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The step at a point, case by case -/

theorem step_A (i : grid0.Coords) (h1 : cond1 i) (h2 : cond2 i) (x0 : Vec F S1024x256 .f32) (x1 : Vec F S2048x256 .bf16) (s : St F) :
    step i x0 x1 s = ⟨s.out, k0_pay6 (k0_pay3 x0) x1 k0_pay1, k0_pay5 i (k0_pay3 x0) x1 k0_pay2, k0_pay3 x0⟩ := by
  unfold step; rw [if_pos h1, if_pos h2]
theorem step_B (i : grid0.Coords) (h1 : cond1 i) (h2 : ¬cond2 i) (x0 : Vec F S1024x256 .f32) (x1 : Vec F S2048x256 .bf16) (s : St F) :
    step i x0 x1 s = ⟨s.out, k0_pay6 (k0_pay3 x0) x1 k0_pay1, k0_pay2, k0_pay3 x0⟩ := by
  unfold step; rw [if_pos h1, if_neg h2]
theorem step_C (i : grid0.Coords) (h1 : ¬cond1 i) (h2 : cond2 i) (x0 : Vec F S1024x256 .f32) (x1 : Vec F S2048x256 .bf16) (s : St F) :
    step i x0 x1 s = ⟨s.out, k0_pay6 s.a x1 s.l, k0_pay5 i s.a x1 s.dg, s.a⟩ := by
  unfold step; rw [if_neg h1, if_pos h2]
theorem step_E (i : grid0.Coords) (h1 : ¬cond1 i) (h2 : ¬cond2 i) (h3 : cond3 i) (x0 : Vec F S1024x256 .f32) (x1 : Vec F S2048x256 .bf16) (s : St F) :
    step i x0 x1 s = ⟨k0_pay7 (k0_pay6 s.a x1 s.l) s.dg, k0_pay6 s.a x1 s.l, s.dg, s.a⟩ := by
  unfold step; rw [if_neg h1, if_neg h2, if_pos h3]
theorem step_D (i : grid0.Coords) (h1 : ¬cond1 i) (h2 : ¬cond2 i) (h3 : ¬cond3 i) (x0 : Vec F S1024x256 .f32) (x1 : Vec F S2048x256 .bf16) (s : St F) :
    step i x0 x1 s = ⟨s.out, k0_pay6 s.a x1 s.l, s.dg, s.a⟩ := by
  unfold step; rw [if_neg h1, if_neg h2, if_neg h3]

/-- What the point before left (anything definite before the first point). -/
def prevSt (c : Dev nD) (t : Fin cfg0.N) : St F :=
  if h : t.val = 0 then ⟨k0_pay1, k0_pay1, k0_pay1, k0_pay3 (iblk m c 0 t)⟩
  else stAt m c (t.val - 1) (Nat.lt_of_le_of_lt (Nat.sub_le _ _) t.isLt)

theorem stAt_step (c : Dev nD) (t : Fin cfg0.N) :
    stAt m c t.val t.isLt = step (grid0.coords t) (iblk m c 0 t) (iblk m c 1 t) (prevSt m c t) := by
  by_cases h : t.val = 0
  · unfold prevSt; rw [dif_pos h]
    obtain ⟨n, hn⟩ := t
    cases n with
    | zero => rfl
    | succ n => exact absurd h (Nat.succ_ne_zero n)
  · unfold prevSt; rw [dif_neg h]; exact stAt_pos m c t h

theorem prevSt_pos (c : Dev nD) (t : Fin cfg0.N) (h : t.val ≠ 0) :
    prevSt m c t = stAt m c (t.val - 1) (Nat.lt_of_le_of_lt (Nat.sub_le _ _) t.isLt) := by
  unfold prevSt; rw [dif_neg h]

/-! ## The body obligation -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-- Whatever the invariant names, the three kept buffers are held at some contents. -/
theorem PhiS_ex (c : Dev nD) (n : ℕ) (h : n ≤ cfg0.N) :
    PhiS m c n h ⊢ iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  rw [← PhiA0_eq]; exact PhiS_weaken m c n h

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the tests on the coordinates say which straight line the point runs; the invariant hands it
    the kept buffers (named, or at anything on the first column tile, where all three are overwritten) and takes them
    back at the step's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [PhiS_castSucc m c t, stAt_step m c t]
  by_cases h1 : cond1 (grid0.coords t)
  · have h3 := not_cond3_of_cond1 t h1
    rw [Dat.leavesExact_idle (dats m 0 c) 2 t (idle2 t h3) (noFlush2 t h3)]
    by_cases h2 : cond2 (grid0.coords t)
    · rw [step_A _ h1 h2]; dsimp only
      iintro ⟨HP, Ho, ⟨%d0, H0⟩, ⟨%d1, H1⟩, H2⟩
      ihave HP' := (PhiS_ex m c _ _) $$ HP
      icases HP' with ⟨⟨HS0, HS1, HS2⟩, Hg⟩
      iapply (runA c (grid0.coords t) (ms0 t) (hs0 t) (ms1 t) (hs1 t) (ms2 t) (hs2 t) sc0 (Memref.isWhole_whole _) sc1 (Memref.isWhole_whole _) sc2 (Memref.isWhole_whole _) h1 h2 h3 (iblk m c 0 t) (iblk m c 1 t) Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      iexact H2
    · rw [step_B _ h1 h2]; dsimp only
      iintro ⟨HP, Ho, ⟨%d0, H0⟩, ⟨%d1, H1⟩, H2⟩
      ihave HP' := (PhiS_ex m c _ _) $$ HP
      icases HP' with ⟨⟨HS0, HS1, HS2⟩, Hg⟩
      iapply (runB c (grid0.coords t) (ms0 t) (hs0 t) (ms1 t) (hs1 t) (ms2 t) (hs2 t) sc0 (Memref.isWhole_whole _) sc1 (Memref.isWhole_whole _) sc2 (Memref.isWhole_whole _) h1 h2 h3 (iblk m c 0 t) (iblk m c 1 t) Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      iexact H2
  · have hz : t.val ≠ 0 := fun hz => h1 (cond1_first t hz)
    rw [PhiS_pos m c _ _ hz, prevSt_pos m c t hz]
    by_cases h2 : cond2 (grid0.coords t)
    · have h3 := not_cond3_of_cond2 t h2
      rw [Dat.leavesExact_idle (dats m 0 c) 2 t (idle2 t h3) (noFlush2 t h3)]
      rw [step_C _ h1 h2]; dsimp only
      iintro ⟨⟨⟨HS0, HS1, HS2⟩, Hg⟩, Ho, ⟨%d0, H0⟩, ⟨%d1, H1⟩, H2⟩
      iapply (runC c (grid0.coords t) (ms0 t) (hs0 t) (ms1 t) (hs1 t) (ms2 t) (hs2 t) sc0 (Memref.isWhole_whole _) sc1 (Memref.isWhole_whole _) sc2 (Memref.isWhole_whole _) h1 h2 h3 (iblk m c 1 t) _ _ _ Set.univ _)
      isplitl [H1]; · iexact H1
      isplitl [HS0]; · iexact HS0
      isplitl [HS1]; · iexact HS1
      isplitl [HS2]; · iexact HS2
      iintro ⟨H1, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      iexact H2
    · by_cases h3 : cond3 (grid0.coords t)
      · rw [show (dats m 0 c).leavesExact 2 t = owns (c : Thread nD τ) (ms2 t) fullShare ((dats m 0 c).after 2 t) from by
          unfold Dat.leavesExact; rw [live2 t h3], after0_2, stAt_step m c t, prevSt_pos m c t hz]
        rw [step_E _ h1 h2 h3]; dsimp only
        iintro ⟨⟨⟨HS0, HS1, HS2⟩, Hg⟩, Ho, ⟨%d0, H0⟩, ⟨%d1, H1⟩, ⟨%d2, H2⟩⟩
        iapply (runE c (grid0.coords t) (ms0 t) (hs0 t) (ms1 t) (hs1 t) (ms2 t) (hs2 t) sc0 (Memref.isWhole_whole _) sc1 (Memref.isWhole_whole _) sc2 (Memref.isWhole_whole _) h1 h2 h3 (iblk m c 1 t) _ _ _ Set.univ _)
        isplitl [H1]; · iexact H1
        isplitl [H2]; · iexists _; iexact H2
        isplitl [HS0]; · iexact HS0
        isplitl [HS1]; · iexact HS1
        isplitl [HS2]; · iexact HS2
        iintro ⟨H1, H2, HS0, HS1, HS2⟩
        isplitl [HS0 HS1 HS2 Hg]
        · isplitr [Hg]
          · isplitl [HS0]; · iexact HS0
            isplitl [HS1]; · iexact HS1
            iexact HS2
          iexact Hg
        isplitl [Ho]; · iexact Ho
        isplitl [H0]; · iexact H0
        isplitl [H1]; · iexact H1
        iexact H2
      · rw [Dat.leavesExact_idle (dats m 0 c) 2 t (idle2 t h3) (noFlush2 t h3)]
        rw [step_D _ h1 h2 h3]; dsimp only
        iintro ⟨⟨⟨HS0, HS1, HS2⟩, Hg⟩, Ho, ⟨%d0, H0⟩, ⟨%d1, H1⟩, H2⟩
        iapply (runD c (grid0.coords t) (ms0 t) (hs0 t) (ms1 t) (hs1 t) (ms2 t) (hs2 t) sc0 (Memref.isWhole_whole _) sc1 (Memref.isWhole_whole _) sc2 (Memref.isWhole_whole _) h1 h2 h3 (iblk m c 0 t) (iblk m c 1 t) _ _ Set.univ _)
        isplitl [H1]; · iexact H1
        isplitl [HS0]; · iexact HS0
        isplitl [HS2]; · iexact HS2
        iintro ⟨H1, HS0, HS2⟩
        isplitl [HS0 HS1 HS2 Hg]
        · isplitr [Hg]
          · isplitl [HS0]; · iexact HS0
            isplitl [HS1]; · iexact HS1
            iexact HS2
          iexact Hg
        isplitl [Ho]; · iexact Ho
        isplitl [H0]; · iexact H0
        isplitl [H1]; · iexact H1
        iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_weaken m c _ _

/-! ## The run and the frame -/

set_option backward.isDefEq.respectTransparency.types false in
/-- Every weakly fair execution of the program terminates, faulting nowhere, with every array of the pipeline at what
    the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KiRuns.lean ====
import proofs.«144956_j83760452206739_2_alg».proof.Proof.Gen.KernelIdeal.Frame
import proofs.«144956_j83760452206739_2_alg».proof.Proof.Gen.KernelIdeal.Skeleton
import Idealize.ShloMosaic.Lib.Pipeline.Value

set_option maxRecDepth 16384

noncomputable section

/-! # The kernel body, case by case

The body keeps three buffers between the points of one row tile: the running sum of exponentials `l`, the running
diagonal score `dg`, and the normalised anchor rows `a`. At a point it (1) on the first column tile resets `l` and
`dg` to zero and stores the normalised anchor rows; (2) forms the score tile; (3) where the row range meets the column
range adds the masked row sums to `dg`; (4) adds the row sums of the shifted exponentials to `l`; (5) on the last
column tile writes `shift + log l - dg` to the output block. Each conditional is a test on the grid coordinates, so
at a given point the body is one of five straight lines; each is run here once, on arbitrary whole buffers, and its
effect stated as the payloads of the stores that were made. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's test: the column-tile coordinate is zero. -/
abbrev cond1 (i : grid0.Coords) : Prop :=
  (Scalar.cmpi .ne (Scalar.extui (Scalar.cmpi .eq (BitVec.ofNat 32 (i 1).val) 0#32)) 0#32) = 1#1
/-- The second conditional's test: the row range [1024 q, 1024 q + 1024) meets the column range [2048 k, 2048 k + 2048). -/
abbrev cond2 (i : grid0.Coords) : Prop :=
  (Scalar.cmpi .ne (Scalar.extui (Scalar.andi
      (Scalar.cmpi .slt (Scalar.muli (BitVec.ofNat 32 (i 0).val) 1024#32) (Scalar.addi (Scalar.muli (BitVec.ofNat 32 (i 1).val) 2048#32) 2048#32))
      (Scalar.cmpi .slt (Scalar.muli (BitVec.ofNat 32 (i 1).val) 2048#32) (Scalar.addi (Scalar.muli (BitVec.ofNat 32 (i 0).val) 1024#32) 1024#32)))) 0#32) = 1#1
/-- The third conditional's test: the column-tile coordinate is the last one. -/
abbrev cond3 (i : grid0.Coords) : Prop := k0_cond3 i = 1#1

/-- The zero offsets of every access of the body, however they are spelt. -/
theorem hz2 : (![0, 0] : Fin 2 → Nat) = fun _ => 0 := by funext a; fin_cases a <;> rfl

/-- What a buffer reads after a list of stores whose LAST one fills it whole: that store's payload. -/
theorem read_last_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- A middle point off the diagonal band: the exponentials' row sums are added to `l`; nothing else is stored. -/
theorem runD (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : ¬cond1 i) (hc2 : ¬cond2 i) (hc3 : ¬cond3 i)
    (x0 : Vec F S1024x256 .f32) (x1 : Vec F S2048x256 .bf16) (l : Vec F S1024x1 .f32) (a : Vec F S1024x256 .bf16)
    (E : Set ℕ) (K : PUnit → sProp 𝕄) :
    iprop(owns (c : Thread nD τ) arg3 fullShare x1 ∗ owns (c : Thread nD τ) arg5 fullShare l ∗ owns (c : Thread nD τ) arg7 fullShare a
        ∗ (iprop(owns (c : Thread nD τ) arg3 fullShare x1 ∗ owns (c : Thread nD τ) arg5 fullShare (k0_pay6 a x1 l) ∗ owns (c : Thread nD τ) arg7 fullShare a) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f1, %hf1, H1⟩, ⟨%f5, %hf5, H5⟩, ⟨%f7, %hf7, H7⟩, Hk⟩
  obtain rfl := harg3.eq_unread hf1
  obtain rfl := harg5.eq_unread hf5; obtain rfl := harg7.eq_unread hf7
  sl_exec (disch := first | exact hc1 | exact hc2 | exact hc3)
  sl_step
  iapply Hk
  isplitl [H1]
  · iexists _; isplitr; · ipureintro; exact harg3.read_unread _
    iexact H1
  isplitl [H5]
  · iexists _; isplitr
    swap; · iexact H5
    ipureintro
    rw [read_last_whole _ _ hz2]
    simp only [View.readAt_eq_ld, harg3.read_unread, harg5.read_unread, harg7.read_unread,
      View.ld_unit_zero (S := S1024x256) hz2, View.ld_unit_zero (S := S2048x256) hz2, View.ld_unit_zero (S := S1024x1) hz2]
    try rfl
  iexists _; isplitr; · ipureintro; exact harg7.read_unread _
  iexact H7

set_option maxHeartbeats 1000000 in
/-- A middle point on the diagonal band: the masked row sums are added to `dg` and the exponentials' row sums to `l`. -/
theorem runC (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : ¬cond1 i) (hc2 : cond2 i) (hc3 : ¬cond3 i)
    (x1 : Vec F S2048x256 .bf16) (l dg : Vec F S1024x1 .f32) (a : Vec F S1024x256 .bf16)
    (E : Set ℕ) (K : PUnit → sProp 𝕄) :
    iprop(owns (c : Thread nD τ) arg3 fullShare x1 ∗ owns (c : Thread nD τ) arg5 fullShare l ∗ owns (c : Thread nD τ) arg6 fullShare dg ∗ owns (c : Thread nD τ) arg7 fullShare a
        ∗ (iprop(owns (c : Thread nD τ) arg3 fullShare x1 ∗ owns (c : Thread nD τ) arg5 fullShare (k0_pay6 a x1 l) ∗ owns (c : Thread nD τ) arg6 fullShare (k0_pay5 i a x1 dg) ∗ owns (c : Thread nD τ) arg7 fullShare a) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f1, %hf1, H1⟩, ⟨%f5, %hf5, H5⟩, ⟨%f6, %hf6, H6⟩, ⟨%f7, %hf7, H7⟩, Hk⟩
  obtain rfl := harg3.eq_unread hf1
  obtain rfl := harg5.eq_unread hf5; obtain rfl := harg6.eq_unread hf6; obtain rfl := harg7.eq_unread hf7
  sl_exec (disch := first | exact hc1 | exact hc2 | exact hc3)
  sl_step
  iapply Hk
  isplitl [H1]
  · iexists _; isplitr; · ipureintro; exact harg3.read_unread _
    iexact H1
  isplitl [H5]
  · iexists _; isplitr
    swap; · iexact H5
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr
    swap; · iexact H6
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  iexists _; isplitr; · ipureintro; exact harg7.read_unread _
  iexact H7

set_option maxHeartbeats 1000000 in
/-- The last column tile: the exponentials' row sums are added to `l`, and the output block is written from `l` and `dg`. -/
theorem runE (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : ¬cond1 i) (hc2 : ¬cond2 i) (hc3 : cond3 i)
    (x1 : Vec F S2048x256 .bf16) (l dg : Vec F S1024x1 .f32) (a : Vec F S1024x256 .bf16)
    (E : Set ℕ) (K : PUnit → sProp 𝕄) :
    iprop(owns (c : Thread nD τ) arg3 fullShare x1 ∗ (∃ d, owns (c : Thread nD τ) arg4 fullShare d) ∗ owns (c : Thread nD τ) arg5 fullShare l ∗ owns (c : Thread nD τ) arg6 fullShare dg ∗ owns (c : Thread nD τ) arg7 fullShare a
        ∗ (iprop(owns (c : Thread nD τ) arg3 fullShare x1 ∗ owns (c : Thread nD τ) arg4 fullShare (k0_pay7 (k0_pay6 a x1 l) dg) ∗ owns (c : Thread nD τ) arg5 fullShare (k0_pay6 a x1 l) ∗ owns (c : Thread nD τ) arg6 fullShare dg ∗ owns (c : Thread nD τ) arg7 fullShare a) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f1, %hf1, H1⟩, ⟨%d4, %f4, -, H4⟩, ⟨%f5, %hf5, H5⟩, ⟨%f6, %hf6, H6⟩, ⟨%f7, %hf7, H7⟩, Hk⟩
  obtain rfl := harg3.eq_unread hf1
  obtain rfl := harg5.eq_unread hf5; obtain rfl := harg6.eq_unread hf6; obtain rfl := harg7.eq_unread hf7
  sl_exec (disch := first | exact hc1 | exact hc2 | exact hc3)
  sl_step
  iapply Hk
  isplitl [H1]
  · iexists _; isplitr; · ipureintro; exact harg3.read_unread _
    iexact H1
  isplitl [H4]
  · iexists _; isplitr
    swap; · iexact H4
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H5]
  · iexists _; isplitr
    swap; · iexact H5
    ipureintro
    try sl_unfold_run_names
    rw [read_last_whole _ _ hz2]
    try simp only [View.readAt_eq_ld, harg3.read_unread, harg5.read_unread, harg6.read_unread, harg7.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr; · ipureintro; exact harg6.read_unread _
    iexact H6
  iexists _; isplitr; · ipureintro; exact harg7.read_unread _
  iexact H7

set_option maxHeartbeats 1000000 in
/-- The first column tile, on the diagonal band: `l` and `dg` restart from zero, the anchor rows are normalised and kept,
    and both sums receive this tile's contribution. -/
theorem runA (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : cond1 i) (hc2 : cond2 i) (hc3 : ¬cond3 i)
    (x0 : Vec F S1024x256 .f32) (x1 : Vec F S2048x256 .bf16)
    (E : Set ℕ) (K : PUnit → sProp 𝕄) :
    iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg5 fullShare (k0_pay6 (k0_pay3 x0) x1 k0_pay1) ∗ owns (c : Thread nD τ) arg6 fullShare (k0_pay5 i (k0_pay3 x0) x1 k0_pay2) ∗ owns (c : Thread nD τ) arg7 fullShare (k0_pay3 x0)) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f0, %hf0, H0⟩, ⟨%f1, %hf1, H1⟩, ⟨%d5, %f5, -, H5⟩, ⟨%d6, %f6, -, H6⟩, ⟨%d7, %f7, -, H7⟩, Hk⟩
  obtain rfl := harg2.eq_unread hf0; obtain rfl := harg3.eq_unread hf1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H5]
  · iexists _; isplitr
    swap; · iexact H5
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr
    swap; · iexact H6
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  · iexists _; isplitr
    swap; · iexact H7
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl

set_option maxHeartbeats 1000000 in
/-- The first column tile, off the diagonal band: as `runA` without the diagonal's contribution. -/
theorem runB (c : Dev nD) (i : grid0.Coords)
    (arg2 : Memref sig .tc .vmem S1024x256 .f32) (harg2 : arg2.IsWhole) (arg3 : Memref sig .tc .vmem S2048x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x256 .bf16) (harg7 : arg7.IsWhole)
    (hc1 : cond1 i) (hc2 : ¬cond2 i) (hc3 : ¬cond3 i)
    (x0 : Vec F S1024x256 .f32) (x1 : Vec F S2048x256 .bf16)
    (E : Set ℕ) (K : PUnit → sProp 𝕄) :
    iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg5 fullShare (k0_pay6 (k0_pay3 x0) x1 k0_pay1) ∗ owns (c : Thread nD τ) arg6 fullShare (k0_pay2 (F := F)) ∗ owns (c : Thread nD τ) arg7 fullShare (k0_pay3 x0)) -∗ K ⟨⟩))
      ⊢ wp frame (wpE (defs₀ (F := F)) Variants.none c none) E (cc0__flash_lse_kernel i arg2 harg2 arg3 harg3 arg4 harg4 arg5 harg5 arg6 harg6 arg7 harg7) K := by
  simp only [cc0__flash_lse_kernel_eq_skeleton]; unfold cc0__flash_lse_kernel_skel
  unfold owns
  iintro ⟨⟨%f0, %hf0, H0⟩, ⟨%f1, %hf1, H1⟩, ⟨%d5, %f5, -, H5⟩, ⟨%d6, %f6, -, H6⟩, ⟨%d7, %f7, -, H7⟩, Hk⟩
  obtain rfl := harg2.eq_unread hf0; obtain rfl := harg3.eq_unread hf1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H5]
  · iexists _; isplitr
    swap; · iexact H5
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  isplitl [H6]
  · iexists _; isplitr
    swap; · iexact H6
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl
  · iexists _; isplitr
    swap; · iexact H7
    ipureintro
    try sl_unfold_run_names
    rw [read_last_whole _ _ hz2]
    try simp only [View.readAt_eq_ld, harg2.read_unread, harg3.read_unread,
      View.readCov_unit_zero (S := S1024x1) _ hz2, View.readCov_unit_zero (S := S1024x256) _ hz2,
      View.ld_unit_zero (S := S1024x256) hz2, View.ld_unit_zero (S := S2048x256) hz2, View.ld_unit_zero (S := S1024x1) hz2]
    try rfl

end Cert.KernelIdeal.Body

end
-- ==== Proof.KiFrame.lean ====
import proofs.«144956_j83760452206739_2_alg».proof.Proof.KiRuns

set_option maxRecDepth 16384

noncomputable section

/-! # The frame of the kernel's program

What the three kept buffers and the output block hold after each grid point is a recurrence over the points in grid
order (`stAt`): the point's straight line applied to what the point before left. With it the region's invariant
names the kept buffers' contents between points, the body obligation is the five runs, and the program's run follows
from the launch theorem for a region followed by host operations. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions over the 8 × 8 grid (decided point by point) -/

/-- The first point of the grid is on the first column tile. -/
theorem cond1_first : ∀ t : Fin cfg0.N, t.val = 0 → cond1 (grid0.coords t) :=
  (by decide +kernel : ∀ t : Fin grid0.N, t.val = 0 → cond1 (grid0.coords t))
/-- The first column tile is not the last. -/
theorem not_cond3_of_cond1 : ∀ t : Fin cfg0.N, cond1 (grid0.coords t) → ¬cond3 (grid0.coords t) :=
  (by decide +kernel : ∀ t : Fin grid0.N, cond1 (grid0.coords t) → ¬cond3 (grid0.coords t))
/-- The last column tile holds columns 14336 and up, past every row of the 8192: it never meets the diagonal band. -/
theorem not_cond3_of_cond2 : ∀ t : Fin cfg0.N, cond2 (grid0.coords t) → ¬cond3 (grid0.coords t) :=
  (by decide +kernel : ∀ t : Fin grid0.N, cond2 (grid0.coords t) → ¬cond3 (grid0.coords t))
/-- Off the last column tile the output window is idle and is not written back. -/
theorem idle2 : ∀ t : Fin cfg0.N, ¬cond3 (grid0.coords t) → cfg0.idle 2 (grid0.coords t) = true :=
  (by decide +kernel : ∀ t : Fin grid0.N, ¬cond3 (grid0.coords t) → cfg0.idle 2 (grid0.coords t) = true)
theorem noFlush2 : ∀ t : Fin cfg0.N, ¬cond3 (grid0.coords t) → (cfg0.win 2).flush t = false :=
  (by decide +kernel : ∀ t : Fin grid0.N, ¬cond3 (grid0.coords t) → win0_2.flush t = false)
/-- On it the window is live. -/
theorem live2 : ∀ t : Fin cfg0.N, cond3 (grid0.coords t) → cfg0.idle 2 (grid0.coords t) = false :=
  (by decide +kernel : ∀ t : Fin grid0.N, cond3 (grid0.coords t) → cfg0.idle 2 (grid0.coords t) = false)
/-- The input windows are never idle. -/
theorem live0 : ∀ t : Fin cfg0.N, cfg0.idle 0 (grid0.coords t) = false := by decide +kernel
theorem live1 : ∀ t : Fin cfg0.N, cfg0.idle 1 (grid0.coords t) = false := by decide +kernel

/-! ## What is kept between points -/

/-- The output block and the three kept buffers: the running sum `l`, the running diagonal `dg`, the normalised anchor rows `a`. -/
structure St (F : FTy → Type) where
  out : Vec F S1024x1 .f32
  l : Vec F S1024x1 .f32
  dg : Vec F S1024x1 .f32
  a : Vec F S1024x256 .bf16

open Classical in
/-- One point's effect on them, from the point's anchor block `x0` and target block `x1`. -/
def step (i : grid0.Coords) (x0 : Vec F S1024x256 .f32) (x1 : Vec F S2048x256 .bf16) (s : St F) : St F :=
  if cond1 i then
    if cond2 i then ⟨s.out, k0_pay6 (k0_pay3 x0) x1 k0_pay1, k0_pay5 i (k0_pay3 x0) x1 k0_pay2, k0_pay3 x0⟩
    else ⟨s.out, k0_pay6 (k0_pay3 x0) x1 k0_pay1, k0_pay2, k0_pay3 x0⟩
  else if cond2 i then ⟨s.out, k0_pay6 s.a x1 s.l, k0_pay5 i s.a x1 s.dg, s.a⟩
  else if cond3 i then ⟨k0_pay7 (k0_pay6 s.a x1 s.l) s.dg, k0_pay6 s.a x1 s.l, s.dg, s.a⟩
  else ⟨s.out, k0_pay6 s.a x1 s.l, s.dg, s.a⟩

/-- Their contents after the point at position `n` of the grid order. Before the first point nothing is assumed of
    them: the first point is on the first column tile and overwrites all three kept buffers. -/
def stAt (c : Dev nD) : (n : ℕ) → n < cfg0.N → St F
  | 0, hn => step (grid0.coords ⟨0, hn⟩) (iblk m c 0 ⟨0, hn⟩) (iblk m c 1 ⟨0, hn⟩)
      ⟨k0_pay1, k0_pay1, k0_pay1, k0_pay3 (iblk m c 0 ⟨0, hn⟩)⟩
  | n + 1, hn => step (grid0.coords ⟨n + 1, hn⟩) (iblk m c 0 ⟨n + 1, hn⟩) (iblk m c 1 ⟨n + 1, hn⟩) (stAt c n (Nat.lt_of_succ_lt hn))

/-- At a point that is not the first: the step over what the point before left. -/
theorem stAt_pos (c : Dev nD) (t : Fin cfg0.N) (ht : t.val ≠ 0) :
    stAt m c t.val t.isLt = step (grid0.coords t) (iblk m c 0 t) (iblk m c 1 t) (stAt m c (t.val - 1) (Nat.lt_of_le_of_lt (Nat.sub_le _ _) t.isLt)) := by
  obtain ⟨n, hn⟩ := t
  cases n with
  | zero => exact absurd rfl ht
  | succ n => rfl

/-- The step at a point of the first column tile does not read what was kept. -/
theorem step_of_cond1 (i : grid0.Coords) (h1 : cond1 i) (x0 : Vec F S1024x256 .f32) (x1 : Vec F S2048x256 .bf16) (s s' : St F) (ho : s.out = s'.out) :
    step i x0 x1 s = step i x0 x1 s' := by
  unfold step; rw [if_pos h1, if_pos h1, ho]

/-! ## The region's invariant -/

abbrev sc0 : Memref sig .tc .vmem S1024x1 .f32 := Memref.whole cc0_scratch0
abbrev sc1 : Memref sig .tc .vmem S1024x1 .f32 := Memref.whole cc0_scratch1
abbrev sc2 : Memref sig .tc .vmem S1024x256 .bf16 := Memref.whole cc0_scratch2

/-- The class's invariant with the three kept buffers as memrefs at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before position `n`: at the start anything; afterwards the kept buffers at what the point before left. -/
def PhiS (c : Dev nD) : (n : ℕ) → n ≤ cfg0.N → sProp 𝕄
  | 0, _ => Pipeline.ΦA spec0 c
  | n + 1, hn => iprop(iprop(owns (c : Thread nD τ) sc0 fullShare (stAt m c n hn).l ∗ owns (c : Thread nD τ) sc1 fullShare (stAt m c n hn).dg ∗ owns (c : Thread nD τ) sc2 fullShare (stAt m c n hn).a) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (stAt m c n hn).l ∗ owns (c : Thread nD τ) sc1 fullShare (stAt m c n hn).dg ∗ owns (c : Thread nD τ) sc2 fullShare (stAt m c n hn).a) ∗ (∃ r, prngReg c r)) := rfl

theorem PhiS_pos (c : Dev nD) (n : ℕ) (h : n ≤ cfg0.N) (hz : n ≠ 0) :
    PhiS m c n h = iprop(iprop(owns (c : Thread nD τ) sc0 fullShare (stAt m c (n - 1) (by omega)).l ∗ owns (c : Thread nD τ) sc1 fullShare (stAt m c (n - 1) (by omega)).dg ∗ owns (c : Thread nD τ) sc2 fullShare (stAt m c (n - 1) (by omega)).a) ∗ (∃ r, prngReg c r)) := by
  cases n with
  | zero => exact absurd rfl hz
  | succ n => rfl

/-- Named contents may be forgotten. -/
theorem PhiS_weaken (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨H0, H1, H2⟩, Hg⟩
    isplitr [Hg]
    · isplitl [H0]; · iexists _; iexact H0
      isplitl [H1]; · iexists _; iexact H1
      iexists _; iexact H2
    iexact Hg

/-! ## The proof data -/

/-- The arrays as the region finds them; after the body each input's buffer at its block, the output's at `stAt`'s
    component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The step at a point, case by case -/

theorem step_A (i : grid0.Coords) (h1 : cond1 i) (h2 : cond2 i) (x0 : Vec F S1024x256 .f32) (x1 : Vec F S2048x256 .bf16) (s : St F) :
    step i x0 x1 s = ⟨s.out, k0_pay6 (k0_pay3 x0) x1 k0_pay1, k0_pay5 i (k0_pay3 x0) x1 k0_pay2, k0_pay3 x0⟩ := by
  unfold step; rw [if_pos h1, if_pos h2]
theorem step_B (i : grid0.Coords) (h1 : cond1 i) (h2 : ¬cond2 i) (x0 : Vec F S1024x256 .f32) (x1 : Vec F S2048x256 .bf16) (s : St F) :
    step i x0 x1 s = ⟨s.out, k0_pay6 (k0_pay3 x0) x1 k0_pay1, k0_pay2, k0_pay3 x0⟩ := by
  unfold step; rw [if_pos h1, if_neg h2]
theorem step_C (i : grid0.Coords) (h1 : ¬cond1 i) (h2 : cond2 i) (x0 : Vec F S1024x256 .f32) (x1 : Vec F S2048x256 .bf16) (s : St F) :
    step i x0 x1 s = ⟨s.out, k0_pay6 s.a x1 s.l, k0_pay5 i s.a x1 s.dg, s.a⟩ := by
  unfold step; rw [if_neg h1, if_pos h2]
theorem step_E (i : grid0.Coords) (h1 : ¬cond1 i) (h2 : ¬cond2 i) (h3 : cond3 i) (x0 : Vec F S1024x256 .f32) (x1 : Vec F S2048x256 .bf16) (s : St F) :
    step i x0 x1 s = ⟨k0_pay7 (k0_pay6 s.a x1 s.l) s.dg, k0_pay6 s.a x1 s.l, s.dg, s.a⟩ := by
  unfold step; rw [if_neg h1, if_neg h2, if_pos h3]
theorem step_D (i : grid0.Coords) (h1 : ¬cond1 i) (h2 : ¬cond2 i) (h3 : ¬cond3 i) (x0 : Vec F S1024x256 .f32) (x1 : Vec F S2048x256 .bf16) (s : St F) :
    step i x0 x1 s = ⟨s.out, k0_pay6 s.a x1 s.l, s.dg, s.a⟩ := by
  unfold step; rw [if_neg h1, if_neg h2, if_neg h3]

/-- What the point before left (anything definite before the first point). -/
def prevSt (c : Dev nD) (t : Fin cfg0.N) : St F :=
  if h : t.val = 0 then ⟨k0_pay1, k0_pay1, k0_pay1, k0_pay3 (iblk m c 0 t)⟩
  else stAt m c (t.val - 1) (Nat.lt_of_le_of_lt (Nat.sub_le _ _) t.isLt)

theorem stAt_step (c : Dev nD) (t : Fin cfg0.N) :
    stAt m c t.val t.isLt = step (grid0.coords t) (iblk m c 0 t) (iblk m c 1 t) (prevSt m c t) := by
  by_cases h : t.val = 0
  · unfold prevSt; rw [dif_pos h]
    obtain ⟨n, hn⟩ := t
    cases n with
    | zero => rfl
    | succ n => exact absurd h (Nat.succ_ne_zero n)
  · unfold prevSt; rw [dif_neg h]; exact stAt_pos m c t h

theorem prevSt_pos (c : Dev nD) (t : Fin cfg0.N) (h : t.val ≠ 0) :
    prevSt m c t = stAt m c (t.val - 1) (Nat.lt_of_le_of_lt (Nat.sub_le _ _) t.isLt) := by
  unfold prevSt; rw [dif_neg h]

/-! ## The body obligation -/

abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-- Whatever the invariant names, the three kept buffers are held at some contents. -/
theorem PhiS_ex (c : Dev nD) (n : ℕ) (h : n ≤ cfg0.N) :
    PhiS m c n h ⊢ iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  rw [← PhiA0_eq]; exact PhiS_weaken m c n h

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the tests on the coordinates say which straight line the point runs; the invariant hands it
    the kept buffers (named, or at anything on the first column tile, where all three are overwritten) and takes them
    back at the step's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [PhiS_castSucc m c t, stAt_step m c t]
  by_cases h1 : cond1 (grid0.coords t)
  · have h3 := not_cond3_of_cond1 t h1
    rw [Dat.leavesExact_idle (dats m 0 c) 2 t (idle2 t h3) (noFlush2 t h3)]
    by_cases h2 : cond2 (grid0.coords t)
    · rw [step_A _ h1 h2]; dsimp only
      iintro ⟨HP, Ho, ⟨%d0, H0⟩, ⟨%d1, H1⟩, H2⟩
      ihave HP' := (PhiS_ex m c _ _) $$ HP
      icases HP' with ⟨⟨HS0, HS1, HS2⟩, Hg⟩
      iapply (runA c (grid0.coords t) (ms0 t) (hs0 t) (ms1 t) (hs1 t) (ms2 t) (hs2 t) sc0 (Memref.isWhole_whole _) sc1 (Memref.isWhole_whole _) sc2 (Memref.isWhole_whole _) h1 h2 h3 (iblk m c 0 t) (iblk m c 1 t) Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      iexact H2
    · rw [step_B _ h1 h2]; dsimp only
      iintro ⟨HP, Ho, ⟨%d0, H0⟩, ⟨%d1, H1⟩, H2⟩
      ihave HP' := (PhiS_ex m c _ _) $$ HP
      icases HP' with ⟨⟨HS0, HS1, HS2⟩, Hg⟩
      iapply (runB c (grid0.coords t) (ms0 t) (hs0 t) (ms1 t) (hs1 t) (ms2 t) (hs2 t) sc0 (Memref.isWhole_whole _) sc1 (Memref.isWhole_whole _) sc2 (Memref.isWhole_whole _) h1 h2 h3 (iblk m c 0 t) (iblk m c 1 t) Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      iexact H2
  · have hz : t.val ≠ 0 := fun hz => h1 (cond1_first t hz)
    rw [PhiS_pos m c _ _ hz, prevSt_pos m c t hz]
    by_cases h2 : cond2 (grid0.coords t)
    · have h3 := not_cond3_of_cond2 t h2
      rw [Dat.leavesExact_idle (dats m 0 c) 2 t (idle2 t h3) (noFlush2 t h3)]
      rw [step_C _ h1 h2]; dsimp only
      iintro ⟨⟨⟨HS0, HS1, HS2⟩, Hg⟩, Ho, ⟨%d0, H0⟩, ⟨%d1, H1⟩, H2⟩
      iapply (runC c (grid0.coords t) (ms0 t) (hs0 t) (ms1 t) (hs1 t) (ms2 t) (hs2 t) sc0 (Memref.isWhole_whole _) sc1 (Memref.isWhole_whole _) sc2 (Memref.isWhole_whole _) h1 h2 h3 (iblk m c 1 t) _ _ _ Set.univ _)
      isplitl [H1]; · iexact H1
      isplitl [HS0]; · iexact HS0
      isplitl [HS1]; · iexact HS1
      isplitl [HS2]; · iexact HS2
      iintro ⟨H1, HS0, HS1, HS2⟩
      isplitl [HS0 HS1 HS2 Hg]
      · isplitr [Hg]
        · isplitl [HS0]; · iexact HS0
          isplitl [HS1]; · iexact HS1
          iexact HS2
        iexact Hg
      isplitl [Ho]; · iexact Ho
      isplitl [H0]; · iexact H0
      isplitl [H1]; · iexact H1
      iexact H2
    · by_cases h3 : cond3 (grid0.coords t)
      · rw [show (dats m 0 c).leavesExact 2 t = owns (c : Thread nD τ) (ms2 t) fullShare ((dats m 0 c).after 2 t) from by
          unfold Dat.leavesExact; rw [live2 t h3], after0_2, stAt_step m c t, prevSt_pos m c t hz]
        rw [step_E _ h1 h2 h3]; dsimp only
        iintro ⟨⟨⟨HS0, HS1, HS2⟩, Hg⟩, Ho, ⟨%d0, H0⟩, ⟨%d1, H1⟩, ⟨%d2, H2⟩⟩
        iapply (runE c (grid0.coords t) (ms0 t) (hs0 t) (ms1 t) (hs1 t) (ms2 t) (hs2 t) sc0 (Memref.isWhole_whole _) sc1 (Memref.isWhole_whole _) sc2 (Memref.isWhole_whole _) h1 h2 h3 (iblk m c 1 t) _ _ _ Set.univ _)
        isplitl [H1]; · iexact H1
        isplitl [H2]; · iexists _; iexact H2
        isplitl [HS0]; · iexact HS0
        isplitl [HS1]; · iexact HS1
        isplitl [HS2]; · iexact HS2
        iintro ⟨H1, H2, HS0, HS1, HS2⟩
        isplitl [HS0 HS1 HS2 Hg]
        · isplitr [Hg]
          · isplitl [HS0]; · iexact HS0
            isplitl [HS1]; · iexact HS1
            iexact HS2
          iexact Hg
        isplitl [Ho]; · iexact Ho
        isplitl [H0]; · iexact H0
        isplitl [H1]; · iexact H1
        iexact H2
      · rw [Dat.leavesExact_idle (dats m 0 c) 2 t (idle2 t h3) (noFlush2 t h3)]
        rw [step_D _ h1 h2 h3]; dsimp only
        iintro ⟨⟨⟨HS0, HS1, HS2⟩, Hg⟩, Ho, ⟨%d0, H0⟩, ⟨%d1, H1⟩, H2⟩
        iapply (runD c (grid0.coords t) (ms0 t) (hs0 t) (ms1 t) (hs1 t) (ms2 t) (hs2 t) sc0 (Memref.isWhole_whole _) sc1 (Memref.isWhole_whole _) sc2 (Memref.isWhole_whole _) h1 h2 h3 (iblk m c 0 t) (iblk m c 1 t) _ _ Set.univ _)
        isplitl [H1]; · iexact H1
        isplitl [HS0]; · iexact HS0
        isplitl [HS2]; · iexact HS2
        iintro ⟨H1, HS0, HS2⟩
        isplitl [HS0 HS1 HS2 Hg]
        · isplitr [Hg]
          · isplitl [HS0]; · iexact HS0
            isplitl [HS1]; · iexact HS1
            iexact HS2
          iexact Hg
        isplitl [Ho]; · iexact Ho
        isplitl [H0]; · iexact H0
        isplitl [H1]; · iexact H1
        iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_weaken m c _ _

/-! ## The run and the frame -/

set_option backward.isDefEq.respectTransparency.types false in
/-- Every weakly fair execution of the program terminates, faulting nowhere, with every array of the pipeline at what
    the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RefRun.lean ====
/-
  The reference program's run, by hand.

  @main of the reference is a straight line of seventy host operations once its two calls are read as their
  callees' bodies over the calls' own buffers: twenty-six operations that normalise the anchor rows and the
  stacked positive and negative rows by their Euclidean norms (floored at 1e-12), contract them and divide by
  the temperature (the scores); the fifteen of `log_softmax` (row maximum, shifted exponentials, their row
  sum, its logarithm, the subtraction); an iota and its broadcast (the labels); the twenty-two of
  `take_along_axis` (the index normalised, its bounds test, the gather, the select against a not-a-number
  filler); and the five that sum the picked column, divide by the batch size and negate.

  `ops` lists them in order; `main_eq` says @main is `seq ops` (the callees' definitions unfolded at their
  call sites, sequencing re-associated); `run_main` is the library's run of such a line: every weakly fair
  execution terminates and each buffer ends at the fold `after ops` of the operations over the launch
  contents. No operation writes an argument buffer, so the fold read at an argument is the launch contents:
  `frame`.
-/
import proofs.«144956_j83760452206739_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- @main's seventy operations, in order: its own, and at each call the callee's over that call's buffers
    (`main_call0` for `log_softmax` of the scores, `main_call1` for `take_along_axis` of the log-probabilities
    at the labels). -/
abbrev ops : List (HloOp τ sig (Elt F)) :=
  binary main_arg1 main_arg2 main_v0 (fun a b => concatenate S16384x256 0 [⟨S8192x256, a⟩, ⟨S8192x256, b⟩] concatenates_S8192x256_S8192x256_S16384x256_d0) ::
  binary main_arg0 main_arg0 main_v1 mulf ::
  nullary main_cst (constant S_ .f32 0x00000000#32) ::
  binary main_v1 main_cst main_v2 (fun x v => Host.reduceAdd x v reducesTo_S8192x256_S8192_d1 h_S_) ::
  unary main_v2 main_v3 (broadcastInDim S8192x1 ![0] bcast_S8192_S8192x1_0) ::
  unary main_v3 main_v4 Host.sqrt ::
  nullary main_cst_0 (constant S_ .f32 0x2B8CBCCC#32) ::
  unary main_cst_0 main_v5 (broadcastInDim S8192x1 ![] bcast_S_S8192x1) ::
  binary main_v4 main_v5 main_v6 maximumf ::
  unary main_v6 main_v7 (broadcastInDim S8192x256 ![0, 1] bcast_S8192x1_S8192x256_0_1) ::
  binary main_arg0 main_v7 main_v8 Host.divf ::
  binary main_v0 main_v0 main_v9 mulf ::
  nullary main_cst_1 (constant S_ .f32 0x00000000#32) ::
  binary main_v9 main_cst_1 main_v10 (fun x v => Host.reduceAdd x v reducesTo_S16384x256_S16384_d1 h_S_) ::
  unary main_v10 main_v11 (broadcastInDim S16384x1 ![0] bcast_S16384_S16384x1_0) ::
  unary main_v11 main_v12 Host.sqrt ::
  nullary main_cst_2 (constant S_ .f32 0x2B8CBCCC#32) ::
  unary main_cst_2 main_v13 (broadcastInDim S16384x1 ![] bcast_S_S16384x1) ::
  binary main_v12 main_v13 main_v14 maximumf ::
  unary main_v14 main_v15 (broadcastInDim S16384x256 ![0, 1] bcast_S16384x1_S16384x256_0_1) ::
  binary main_v0 main_v15 main_v16 Host.divf ::
  unary main_v16 main_v17 (transpose S256x16384 [1, 0] · transposes_S16384x256_S256x16384_1_0) ::
  binary main_v8 main_v17 main_v18 (fun l r => Host.dotGeneral dot_S8192x256_S256x16384_S8192x16384_1_0_0_1_n_n none l r) ::
  nullary main_cst_3 (constant S_ .f32 0x3D4CCCCD#32) ::
  unary main_cst_3 main_v19 (broadcastInDim S8192x16384 ![] bcast_S_S8192x16384) ::
  binary main_v18 main_v19 main_v20 Host.divf ::
  TRef.nullary main_call0.cst (constant S_ .f32 0xFF800000#32) ::
  TRef.binary (.of (T := ⟨S8192x16384, .f32⟩) main_v20) main_call0.cst main_call0.v0 (fun x v => Host.reduce FloatOps.maximumf x v reducesTo_S8192x16384_S8192_d1 h_S_) ::
  TRef.nullary main_call0.cst_0 (constant S_ .f32 0xFF800000#32) ::
  TRef.unary main_call0.cst_0 main_call0.v1 (broadcastInDim S8192 ![] bcast_S_S8192) ::
  TRef.binary main_call0.v1 main_call0.v0 main_call0.v2 maximumf ::
  TRef.unary main_call0.v2 main_call0.v3 (broadcastInDim S8192x1 ![0] bcast_S8192_S8192x1_0) ::
  TRef.unary main_call0.v3 main_call0.v4 (broadcastInDim S8192x16384 ![0, 1] bcast_S8192x1_S8192x16384_0_1) ::
  TRef.binary (.of (T := ⟨S8192x16384, .f32⟩) main_v20) main_call0.v4 main_call0.v5 subf ::
  TRef.unary main_call0.v5 main_call0.v6 Host.exp ::
  TRef.nullary main_call0.cst_1 (constant S_ .f32 0x00000000#32) ::
  TRef.binary main_call0.v6 main_call0.cst_1 main_call0.v7 (fun x v => Host.reduceAdd x v reducesTo_S8192x16384_S8192_d1 h_S_) ::
  TRef.unary main_call0.v7 main_call0.v8 (broadcastInDim S8192x1 ![0] bcast_S8192_S8192x1_0) ::
  TRef.unary main_call0.v8 main_call0.v9 Host.log ::
  TRef.unary main_call0.v9 main_call0.v10 (broadcastInDim S8192x16384 ![0, 1] bcast_S8192x1_S8192x16384_0_1) ::
  TRef.binary main_call0.v5 main_call0.v10 main_call0.v11 subf ::
  nullary main_v22 (iotaInDim S8192 32 0) ::
  unary main_v22 main_v23 (broadcastInDim S8192x1 ![0] bcast_S8192_S8192x1_0) ::
  TRef.nullary main_call1.c (constantI S_ 32 0#32) ::
  TRef.unary main_call1.c main_call1.v0 (broadcastInDim S8192x1 ![] bcast_S_S8192x1) ::
  TRef.binary (.of (T := ⟨S8192x1, .i32⟩) main_v23) main_call1.v0 main_call1.v1 (cmpi .slt) ::
  TRef.nullary main_call1.c_0 (constantI S_ 32 16384#32) ::
  TRef.unary main_call1.c_0 main_call1.v2 (broadcastInDim S8192x1 ![] bcast_S_S8192x1) ::
  TRef.binary (.of (T := ⟨S8192x1, .i32⟩) main_v23) main_call1.v2 main_call1.v3 addi ::
  TRef.ternary main_call1.v1 main_call1.v3 (.of (T := ⟨S8192x1, .i32⟩) main_v23) main_call1.v4 select ::
  TRef.reshape main_call1.v4 main_call1.v5 rfl shapeCasts_S8192x1_S8192x1x1 ::
  TRef.nullary main_call1.c_1 (constantI S1 32 16383#32) ::
  TRef.nullary main_call1.c_2 (constantI S_ 32 0#32) ::
  TRef.unary main_call1.c_2 main_call1.v6 (broadcastInDim S8192x1x1 ![] bcast_S_S8192x1x1) ::
  TRef.binary main_call1.v5 main_call1.v6 main_call1.v7 (cmpi .sge) ::
  TRef.unary main_call1.c_1 main_call1.v8 (broadcastInDim S1x1x1 ![2] bcast_S1_S1x1x1_2) ::
  TRef.unary main_call1.v8 main_call1.v9 (broadcastInDim S8192x1x1 ![0, 1, 2] bcast_S1x1x1_S8192x1x1_0_1_2) ::
  TRef.binary main_call1.v5 main_call1.v9 main_call1.v10 (cmpi .sle) ::
  TRef.binary main_call1.v7 main_call1.v10 main_call1.v11 andi ::
  TRef.nullary main_call1.c_3 (constantI S_ 1 1#1) ::
  TRef.binary main_call1.v11 main_call1.c_3 main_call1.v12 (fun x v => Host.reduce IntOp.andi x v reducesTo_S8192x1x1_S8192x1_d2 h_S_) ::
  TRef.binary (.of (T := ⟨S8192x16384, .f32⟩) main_v21) main_call1.v5 main_call1.v13 (fun x i => Host.gather gather_S8192x16384_S8192x1x1_S8192x1_n_1_0_0_1_2_11 x i) ::
  TRef.nullary main_call1.cst (constant S_ .f32 0x7FC00000#32) ::
  TRef.unary main_call1.cst main_call1.v14 (broadcastInDim S8192x1 ![] bcast_S_S8192x1) ::
  TRef.ternary main_call1.v12 main_call1.v13 main_call1.v14 main_call1.v15 select ::
  nullary main_cst_4 (constant S_ .f32 0x00000000#32) ::
  binary main_v24 main_cst_4 main_v25 (fun x v => Host.reduceAdd x v reducesTo_S8192x1_S_d0_1 h_S_) ::
  nullary main_cst_5 (constant S_ .f32 0x46000000#32) ::
  binary main_v25 main_cst_5 main_v26 Host.divf ::
  unary main_v26 main_v27 Host.negf ::
  []

/-- @main is that straight line: the callees' definitions unfolded at their calls and the records at their
    fields, both sides are one chain of `hlo` steps once sequencing is re-associated. -/
theorem main_eq (c : Dev nD) : main (F := F) c = seq ops := by
  simp only [main, fn_log_softmax.body, fn_take_along_axis.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., nullary_bufs_sub ..,
    binary_bufs_sub .., nullary_bufs_sub .., binary_bufs_sub .., unary_bufs_sub ..⟩

/-- For any float values, from any memory with zero counters: every weakly fair execution of @main on the
    TensorCore terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the first argument's buffer: the fold there is what was there. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- The reference runs (terminates, nothing faulting) and its three argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_arg0).trans (arg0_eq _), (h c main_arg1).trans (arg1_eq _), (h c main_arg2).trans (arg2_eq _)⟩)
    (run_main m ρ)

end Cert.ReferenceIdeal.HandRun

end
-- ==== Proof.LibLseShift.lean ====
/-
  The log-sum-exp of a row of real scores does not depend on the shift it is taken with.

  For a row of real scores s_j over a nonempty finite index set, a real shift a and A = ∑_j exp s_j > 0,
      log (∑_j exp (s_j − a)) = log A − a,
  so the cross-entropy of the row at its label d,  (a + log ∑_j exp (s_j − a)) − s_d = log A − s_d,  is the same real
  number whether the shift is a fixed constant or the row's maximum; and it is the negative of the log-softmax at the
  label, (s_d − M) − log ∑_j exp (s_j − M). Stated on the extended reals with the ideal exp, log and quotient, for
  entries that are real; a sum over blocks of columns accumulated block by block is the sum over all columns; and
  the mean of the negatives is the negative of the mean.
-/
import Idealize.ShloMosaic.PureOps.Ideal.Laws
import Mathlib.Analysis.SpecialFunctions.Log.Basic
import Mathlib.Algebra.BigOperators.Fin
import Mathlib.Tactic.Ring
import Mathlib.Tactic.NormNum
import Mathlib.Tactic.Linarith

noncomputable section

namespace Cert.LseShift

open Idealize.ShloMosaic
open scoped BigOperators

/-! ## The constants -/

/-- The f32 word 0x3D4CCCCD is exactly 13421773 / 2²⁸ (the float nearest 0.05). -/
theorem ofBits_temperature : Ideal.ofBits .f32 0x3D4CCCCD#32 = ((13421773 / 268435456 : ℝ) : EReal) := by
  simp [Ideal.ofBits, Ideal.ieee, -EReal.coe_mul]; norm_num

/-- The f32 word 0x46000000 is 8192. -/
theorem ofBits_8192 : Ideal.ofBits .f32 0x46000000#32 = ((8192 : ℝ) : EReal) := by
  simp [Ideal.ofBits, Ideal.ieee, -EReal.coe_mul]; norm_num

/-- Dividing by 13421773 / 2²⁸ is multiplying by 2²⁸ / 13421773, at every extended real. -/
theorem div_temperature (x : EReal) :
    Ideal.div x (Ideal.ofBits .f32 0x3D4CCCCD#32) = x * ((268435456 / 13421773 : ℝ) : EReal) := by
  rw [ofBits_temperature, Ideal.div_coe (by norm_num : (13421773 / 268435456 : ℝ) ≠ 0)]
  congr 2
  norm_num

/-! ## Sums and maxima of reals, read on the extended reals -/

/-- The coercion of a finite sum of reals is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum, taken from −∞, of a nonempty finite family of reals is a real: it is above one member, so it is not
    −∞, and +∞ is above −∞ and above every member, so it is not +∞. -/
theorem fold_max_real {J : Type} [Fintype J] [Nonempty J] (s : J → ℝ) :
    ∃ m : ℝ, (Finset.univ : Finset J).fold max (⊥ : EReal) (fun j => (s j : EReal)) = (m : EReal) := by
  obtain ⟨j₀⟩ := ‹Nonempty J›
  have hbot : (Finset.univ : Finset J).fold max (⊥ : EReal) (fun j => (s j : EReal)) ≠ ⊥ := by
    refine ne_of_gt (lt_of_lt_of_le (EReal.bot_lt_coe (s j₀)) ?_)
    exact (Finset.le_fold_max _).2 (Or.inr ⟨j₀, Finset.mem_univ _, le_rfl⟩)
  have htop : (Finset.univ : Finset J).fold max (⊥ : EReal) (fun j => (s j : EReal)) ≠ ⊤ :=
    ne_of_lt ((Finset.fold_max_lt _).2 ⟨bot_lt_top, fun j _ => EReal.coe_lt_top (s j)⟩)
  exact ⟨_, (EReal.coe_toReal htop hbot).symm⟩

/-- The same for the maximum of −∞ and that fold (a reduction's initial value met once more). -/
theorem max_bot_fold_max_real {J : Type} [Fintype J] [Nonempty J] (s : J → ℝ) :
    ∃ m : ℝ, max (⊥ : EReal) ((Finset.univ : Finset J).fold max (⊥ : EReal) (fun j => (s j : EReal))) = (m : EReal) := by
  obtain ⟨m, hm⟩ := fold_max_real s
  exact ⟨m, by rw [hm, max_eq_right bot_le]⟩

/-! ## The row law -/

section Row

variable {J : Type} [Fintype J] [Nonempty J]

/-- The sum of exponentials of real scores is positive. -/
theorem sum_exp_pos (s : J → ℝ) : 0 < ∑ j, Real.exp (s j) :=
  Finset.sum_pos (fun j _ => Real.exp_pos (s j)) Finset.univ_nonempty

/-- Over the reals: log ∑_j exp (s_j − a) = log ∑_j exp s_j − a. -/
theorem real_log_sum_exp_sub (s : J → ℝ) (a : ℝ) :
    Real.log (∑ j, Real.exp (s j - a)) = Real.log (∑ j, Real.exp (s j)) - a := by
  have h : ∑ j, Real.exp (s j - a) = (∑ j, Real.exp (s j)) / Real.exp a := by
    rw [Finset.sum_div]
    exact Finset.sum_congr rfl fun j _ => Real.exp_sub _ _
  rw [h, Real.log_div (ne_of_gt (sum_exp_pos s)) (Real.exp_ne_zero a), Real.log_exp]

/-- The sum, from zero, of the ideal exponentials of the shifted scores is the real ∑_j exp (s_j − a). -/
theorem sum_exp_sub (s : J → ℝ) (a : ℝ) :
    (0 : EReal) + ∑ j, Ideal.exp ((s j : EReal) - (a : EReal)) = ((∑ j, Real.exp (s j - a) : ℝ) : EReal) := by
  rw [zero_add, coe_sum]
  refine Finset.sum_congr rfl fun j _ => ?_
  rw [← EReal.coe_sub, Ideal.exp_coe]

/-- The ideal logarithm of that sum is the real log ∑_j exp s_j − a: the sum is a positive real, where the ideal
    logarithm is the real one. -/
theorem log_sum_exp_sub (s : J → ℝ) (a : ℝ) :
    Ideal.log ((0 : EReal) + ∑ j, Ideal.exp ((s j : EReal) - (a : EReal)))
      = ((Real.log (∑ j, Real.exp (s j)) - a : ℝ) : EReal) := by
  have hpos : 0 < ∑ j, Real.exp (s j - a) := sum_exp_pos fun j => s j - a
  rw [sum_exp_sub, Ideal.log_coe, if_neg (not_le.2 hpos), real_log_sum_exp_sub]

/-- The shifted log-sum-exp less the label's score: (σ + log ∑_j exp (s_j − σ)) − s_d = log ∑_j exp s_j − s_d, a real
    that does not depend on the shift σ. -/
theorem lse_sub_label (s : J → ℝ) (σ : ℝ) (d : J) :
    ((σ : EReal) + Ideal.log ((0 : EReal) + ∑ j, Ideal.exp ((s j : EReal) - (σ : EReal)))) - (s d : EReal)
      = ((Real.log (∑ j, Real.exp (s j)) - s d : ℝ) : EReal) := by
  rw [log_sum_exp_sub, ← EReal.coe_add, ← EReal.coe_sub]
  congr 1
  ring

/-- The log-softmax at the label with a real shift m: (s_d − m) − log ∑_j exp (s_j − m) = s_d − log ∑_j exp s_j. -/
theorem log_softmax_label (s : J → ℝ) (m : ℝ) (d : J) :
    ((s d : EReal) - (m : EReal)) - Ideal.log ((0 : EReal) + ∑ j, Ideal.exp ((s j : EReal) - (m : EReal)))
      = ((s d - Real.log (∑ j, Real.exp (s j)) : ℝ) : EReal) := by
  rw [log_sum_exp_sub, ← EReal.coe_sub, ← EReal.coe_sub]
  congr 1
  ring

/-- The row law with any two real shifts σ and m: the shifted log-sum-exp less the label's score is the negative of
    the log-softmax at the label. -/
theorem row_law_of_real (s : J → ℝ) (σ m : ℝ) (d : J) :
    ((σ : EReal) + Ideal.log ((0 : EReal) + ∑ j, Ideal.exp ((s j : EReal) - (σ : EReal)))) - (s d : EReal)
      = -(((s d : EReal) - (m : EReal))
            - Ideal.log ((0 : EReal) + ∑ j, Ideal.exp ((s j : EReal) - (m : EReal)))) := by
  rw [lse_sub_label, log_softmax_label, ← EReal.coe_neg]
  congr 1
  ring

/-- The row law against the row maximum taken as a fold of max from −∞. -/
theorem row_law_fold (s : J → ℝ) (σ : ℝ) (d : J) :
    ((σ : EReal) + Ideal.log ((0 : EReal) + ∑ j, Ideal.exp ((s j : EReal) - (σ : EReal)))) - (s d : EReal)
      = -(((s d : EReal) - (Finset.univ : Finset J).fold max (⊥ : EReal) (fun j => (s j : EReal)))
            - Ideal.log ((0 : EReal) + ∑ j, Ideal.exp
                ((s j : EReal) - (Finset.univ : Finset J).fold max (⊥ : EReal) (fun j => (s j : EReal))))) := by
  obtain ⟨m, hm⟩ := fold_max_real s
  rw [hm]
  exact row_law_of_real s σ m d

/-- The row law against max (−∞, fold of max from −∞): the reference's row maximum as it is computed. -/
theorem row_law (s : J → ℝ) (σ : ℝ) (d : J) :
    ((σ : EReal) + Ideal.log ((0 : EReal) + ∑ j, Ideal.exp ((s j : EReal) - (σ : EReal)))) - (s d : EReal)
      = -(((s d : EReal) - max (⊥ : EReal) ((Finset.univ : Finset J).fold max (⊥ : EReal) (fun j => (s j : EReal))))
            - Ideal.log ((0 : EReal) + ∑ j, Ideal.exp
                ((s j : EReal)
                  - max (⊥ : EReal) ((Finset.univ : Finset J).fold max (⊥ : EReal) (fun j => (s j : EReal)))))) := by
  rw [max_eq_right (bot_le : (⊥ : EReal) ≤ _)]
  exact row_law_fold s σ d

end Row

/-! ## Blocks of columns -/

section Blocks

variable {K : Type} [Fintype K]

/-- Eight partial sums, each taken from zero over one block's columns and added left to right onto zero, make the sum
    from zero over every (block, column) pair. Addition of extended reals is commutative and associative with unit
    zero, so this holds for every entry, real or not. -/
theorem sum_blocks8 (f : Fin 8 × K → EReal) :
    (((((((((0 : EReal) + ((0 : EReal) + ∑ k, f (0, k))) + ((0 : EReal) + ∑ k, f (1, k)))
        + ((0 : EReal) + ∑ k, f (2, k))) + ((0 : EReal) + ∑ k, f (3, k))) + ((0 : EReal) + ∑ k, f (4, k)))
        + ((0 : EReal) + ∑ k, f (5, k))) + ((0 : EReal) + ∑ k, f (6, k))) + ((0 : EReal) + ∑ k, f (7, k)))
      = (0 : EReal) + ∑ p : Fin 8 × K, f p := by
  rw [Fintype.sum_prod_type, Fin.sum_univ_eight]
  simp only [zero_add]

/-- The same with the eight partial sums given as a family T. -/
theorem sum_acc8 (T : Fin 8 → EReal) :
    (((((((((0 : EReal) + T 0) + T 1) + T 2) + T 3) + T 4) + T 5) + T 6) + T 7) = ∑ b, T b := by
  rw [Fin.sum_univ_eight, zero_add]

/-- So when block b's partial sum is 0 + ∑_k f (b, k), the left-to-right accumulation is the sum over all pairs. -/
theorem sum_acc8_blocks (T : Fin 8 → EReal) (f : Fin 8 × K → EReal) (hT : ∀ b, T b = (0 : EReal) + ∑ k, f (b, k)) :
    (((((((((0 : EReal) + T 0) + T 1) + T 2) + T 3) + T 4) + T 5) + T 6) + T 7) = (0 : EReal) + ∑ p : Fin 8 × K, f p := by
  rw [sum_acc8, Fintype.sum_prod_type, zero_add]
  exact Finset.sum_congr rfl fun b _ => by rw [hT b, zero_add]

/-- A sum masked to a condition that exactly one index k₀ meets is the entry at k₀. -/
theorem sum_ite_unique (p : K → Prop) [DecidablePred p] (g : K → EReal) (k₀ : K) (h₀ : p k₀)
    (huniq : ∀ k, p k → k = k₀) : ∑ k, (if p k then g k else 0) = g k₀ := by
  rw [Finset.sum_eq_single k₀ (fun k _ hk => if_neg fun hp => hk (huniq k hp))
    (fun h => absurd (Finset.mem_univ k₀) h), if_pos h₀]

/-- With the two zeros the accumulation carries: 0 + (0 + masked sum) is the entry at k₀. -/
theorem zero_add_zero_add_sum_ite_unique (p : K → Prop) [DecidablePred p] (g : K → EReal) (k₀ : K) (h₀ : p k₀)
    (huniq : ∀ k, p k → k = k₀) : (0 : EReal) + ((0 : EReal) + ∑ k, (if p k then g k else 0)) = g k₀ := by
  rw [zero_add, zero_add, sum_ite_unique p g k₀ h₀ huniq]

/-- An accumulator that starts at zero, is passed through eight steps, and is changed in exactly one of them, b₀,
    where T is added to it, ends as T. -/
theorem acc8_one_step (D : Fin 8 → EReal → EReal) (b₀ : Fin 8) (T : EReal)
    (hD : ∀ b acc, D b acc = if b = b₀ then acc + T else acc) :
    D 7 (D 6 (D 5 (D 4 (D 3 (D 2 (D 1 (D 0 0))))))) = T := by
  simp only [hD]
  fin_cases b₀ <;> simp

/-- The diagonal entry gathered block by block: the accumulator starts at zero; in block b₀ it gains 0 + the sum over
    that block's columns masked to the one column k₀ whose position is the label; in the other blocks it is
    unchanged. It ends as the entry at (b₀, k₀). -/
theorem diag_acc8 (D : Fin 8 → EReal → EReal) (b₀ : Fin 8) (p : K → Prop) [DecidablePred p] (g : K → EReal) (k₀ : K)
    (h₀ : p k₀) (huniq : ∀ k, p k → k = k₀)
    (hD : ∀ b acc, D b acc = if b = b₀ then acc + ((0 : EReal) + ∑ k, (if p k then g k else 0)) else acc) :
    D 7 (D 6 (D 5 (D 4 (D 3 (D 2 (D 1 (D 0 0))))))) = g k₀ := by
  rw [acc8_one_step D b₀ _ hD, zero_add, sum_ite_unique p g k₀ h₀ huniq]

end Blocks

/-! ## The mean -/

section Mean

variable {ι : Type} [Fintype ι]

/-- For real terms, the mean of the negatives is the negative of the mean (both sums taken from zero, both divided by
    the word 8192). On the extended reals negation does not distribute over a sum that meets both infinities, hence the
    hypothesis that the terms are real. -/
theorem mean_neg (x : ι → ℝ) :
    Ideal.div ((0 : EReal) + ∑ i, -(x i : EReal)) (Ideal.ofBits .f32 0x46000000#32)
      = -(Ideal.div ((0 : EReal) + ∑ i, (x i : EReal)) (Ideal.ofBits .f32 0x46000000#32)) := by
  rw [ofBits_8192, Ideal.div_coe (by norm_num : (8192 : ℝ) ≠ 0), Ideal.div_coe (by norm_num : (8192 : ℝ) ≠ 0)]
  simp only [← EReal.coe_neg, ← coe_sum, zero_add, ← EReal.coe_mul]
  congr 1
  rw [Finset.sum_neg_distrib]
  ring

/-- The same read the other way: the mean of real terms is the negative of the mean of their negatives. -/
theorem mean_eq_neg_mean_neg (x : ι → ℝ) :
    Ideal.div ((0 : EReal) + ∑ i, (x i : EReal)) (Ideal.ofBits .f32 0x46000000#32)
      = -(Ideal.div ((0 : EReal) + ∑ i, -(x i : EReal)) (Ideal.ofBits .f32 0x46000000#32)) := by
  rw [mean_neg, neg_neg]

/-- The two sides joined. For real scores s i j over a nonempty set of columns, a real shift σ and a label column d i in
    each row, the mean over the rows of (σ + log ∑_j exp (s_ij − σ)) − s_{i,d i} is the negative of the mean of the
    log-softmax at the label, (s_{i,d i} − M_i) − log ∑_j exp (s_ij − M_i), M_i the row maximum computed as
    max (−∞, fold of max from −∞). -/
theorem loss_law {J : Type} [Fintype J] [Nonempty J] (s : ι → J → ℝ) (σ : ℝ) (d : ι → J) :
    Ideal.div ((0 : EReal) + ∑ i,
        (((σ : EReal) + Ideal.log ((0 : EReal) + ∑ j, Ideal.exp ((s i j : EReal) - (σ : EReal)))) - (s i (d i) : EReal)))
      (Ideal.ofBits .f32 0x46000000#32)
    = -(Ideal.div ((0 : EReal) + ∑ i,
        (((s i (d i) : EReal)
            - max (⊥ : EReal) ((Finset.univ : Finset J).fold max (⊥ : EReal) (fun j => (s i j : EReal))))
          - Ideal.log ((0 : EReal) + ∑ j, Ideal.exp ((s i j : EReal)
            - max (⊥ : EReal) ((Finset.univ : Finset J).fold max (⊥ : EReal) (fun j => (s i j : EReal)))))))
      (Ideal.ofBits .f32 0x46000000#32)) := by
  have hL : ∀ i, (((s i (d i) : EReal)
            - max (⊥ : EReal) ((Finset.univ : Finset J).fold max (⊥ : EReal) (fun j => (s i j : EReal))))
          - Ideal.log ((0 : EReal) + ∑ j, Ideal.exp ((s i j : EReal)
            - max (⊥ : EReal) ((Finset.univ : Finset J).fold max (⊥ : EReal) (fun j => (s i j : EReal))))))
        = ((s i (d i) - Real.log (∑ j, Real.exp (s i j)) : ℝ) : EReal) := fun i => by
    obtain ⟨m, hm⟩ := max_bot_fold_max_real (s i)
    rw [hm]
    exact log_softmax_label (s i) m (d i)
  have hK : ∀ i, (((σ : EReal) + Ideal.log ((0 : EReal) + ∑ j, Ideal.exp ((s i j : EReal) - (σ : EReal))))
        - (s i (d i) : EReal)) = -((s i (d i) - Real.log (∑ j, Real.exp (s i j)) : ℝ) : EReal) := fun i => by
    rw [lse_sub_label, ← EReal.coe_neg]
    congr 1
    ring
  simp only [hL, hK]
  exact mean_neg _

end Mean

/-! ## The same laws for entries given as extended reals known to be real -/

section OfReal

variable {J : Type} [Fintype J] [Nonempty J]

/-- The row law for a row of extended reals each of which is a real (scores written as products or quotients of
    coerced reals): choose the reals and apply the law for them. -/
theorem row_law_of_isReal (S : J → EReal) (hS : ∀ j, ∃ r : ℝ, S j = (r : EReal)) (σ : ℝ) (d : J) :
    ((σ : EReal) + Ideal.log ((0 : EReal) + ∑ j, Ideal.exp (S j - (σ : EReal)))) - S d
      = -((S d - max (⊥ : EReal) ((Finset.univ : Finset J).fold max (⊥ : EReal) S))
            - Ideal.log ((0 : EReal) + ∑ j, Ideal.exp
                (S j - max (⊥ : EReal) ((Finset.univ : Finset J).fold max (⊥ : EReal) S)))) := by
  choose s hs using hS
  obtain rfl : S = fun j => (s j : EReal) := funext hs
  exact row_law s σ d

/-- The joined law for such entries. -/
theorem loss_law_of_isReal {ι : Type} [Fintype ι] (S : ι → J → EReal) (hS : ∀ i j, ∃ r : ℝ, S i j = (r : EReal))
    (σ : ℝ) (d : ι → J) :
    Ideal.div ((0 : EReal) + ∑ i,
        (((σ : EReal) + Ideal.log ((0 : EReal) + ∑ j, Ideal.exp (S i j - (σ : EReal)))) - S i (d i)))
      (Ideal.ofBits .f32 0x46000000#32)
    = -(Ideal.div ((0 : EReal) + ∑ i,
        ((S i (d i) - max (⊥ : EReal) ((Finset.univ : Finset J).fold max (⊥ : EReal) (S i)))
          - Ideal.log ((0 : EReal) + ∑ j, Ideal.exp (S i j
            - max (⊥ : EReal) ((Finset.univ : Finset J).fold max (⊥ : EReal) (S i))))))
      (Ideal.ofBits .f32 0x46000000#32)) := by
  choose s hs using hS
  obtain rfl : S = fun i j => (s i j : EReal) := funext fun i => funext (hs i)
  exact loss_law s σ d

end OfReal

/-! ## The kernel's row, blocks and diagonal together -/

section KernelRow

variable {K : Type} [Fintype K] [Nonempty K]

/-- The logarithm of the eight block sums of shifted exponentials, accumulated left to right, is log ∑ exp s − a over
    all (block, column) pairs. -/
theorem log_acc8_exp_sub (s : Fin 8 × K → ℝ) (a : ℝ) :
    Ideal.log
      (((((((((0 : EReal) + ((0 : EReal) + ∑ k, Ideal.exp ((s (0, k) : EReal) - (a : EReal))))
        + ((0 : EReal) + ∑ k, Ideal.exp ((s (1, k) : EReal) - (a : EReal))))
        + ((0 : EReal) + ∑ k, Ideal.exp ((s (2, k) : EReal) - (a : EReal))))
        + ((0 : EReal) + ∑ k, Ideal.exp ((s (3, k) : EReal) - (a : EReal))))
        + ((0 : EReal) + ∑ k, Ideal.exp ((s (4, k) : EReal) - (a : EReal))))
        + ((0 : EReal) + ∑ k, Ideal.exp ((s (5, k) : EReal) - (a : EReal))))
        + ((0 : EReal) + ∑ k, Ideal.exp ((s (6, k) : EReal) - (a : EReal))))
        + ((0 : EReal) + ∑ k, Ideal.exp ((s (7, k) : EReal) - (a : EReal))))
      = ((Real.log (∑ p : Fin 8 × K, Real.exp (s p)) - a : ℝ) : EReal) := by
  rw [sum_blocks8 fun p => Ideal.exp ((s p : EReal) - (a : EReal))]
  exact log_sum_exp_sub s a

end KernelRow

end Cert.LseShift

end
-- ==== Proof.LibNormReal.lean ====
/-
  A row of reals divided by its clamped Euclidean norm is a row of reals, and a dot product of two rows of reals is a
  real.

  For a row x of reals over a finite index set, the sum of squares is a nonnegative real, its ideal square root the
  real square root, the maximum of that and a positive real floor e a positive real, and the quotient of an entry by it
  the real x_k / max (√(∑ x²), e). The floor here is the f32 word 0x2B8CBCCC, exactly 9223372 / 2⁶³ (the float nearest
  10⁻¹²).
-/
import proofs.«144956_j83760452206739_2_alg».proof.Proof.LibLseShift

noncomputable section

namespace Cert.NormReal

open Idealize.ShloMosaic
open scoped BigOperators

/-- The f32 word 0x2B8CBCCC is exactly 9223372 / 2⁶³. -/
theorem ofBits_eps : Ideal.ofBits .f32 0x2B8CBCCC#32 = ((9223372 / 9223372036854775808 : ℝ) : EReal) := by
  simp [Ideal.ofBits, Ideal.ieee, -EReal.coe_mul]; norm_num

/-- It is positive. -/
theorem eps_pos : (0 : ℝ) < 9223372 / 9223372036854775808 := by norm_num

variable {K : Type} [Fintype K]

/-- The clamped Euclidean norm of a row of reals: max (√(∑ x²), 9223372 / 2⁶³). -/
def cnorm (x : K → ℝ) : ℝ := max (Real.sqrt (∑ k, x k * x k)) (9223372 / 9223372036854775808)

/-- The clamped norm is positive: it is at least the floor. -/
theorem cnorm_pos (x : K → ℝ) : 0 < cnorm x := lt_of_lt_of_le eps_pos (le_max_right _ _)

/-- The normalised entry of a row of reals: x_k / max (√(∑ x²), 9223372 / 2⁶³). -/
def nrm (x : K → ℝ) (k : K) : ℝ := x k / cnorm x

/-- The sum of the squares of a row of reals, read on the extended reals, is the real sum of squares. -/
theorem sum_sq (x : K → ℝ) : ∑ k, (x k : EReal) * (x k : EReal) = ((∑ k, x k * x k : ℝ) : EReal) := by
  rw [Cert.LseShift.coe_sum]
  exact Finset.sum_congr rfl fun k _ => (EReal.coe_mul _ _).symm

/-- A dot product of two rows of reals, read on the extended reals, is the real dot product. -/
theorem dot_real (a b : K → ℝ) : ∑ k, (a k : EReal) * (b k : EReal) = ((∑ k, a k * b k : ℝ) : EReal) := by
  rw [Cert.LseShift.coe_sum]
  exact Finset.sum_congr rfl fun k _ => (EReal.coe_mul _ _).symm

/-- The clamped norm as the programs compute it: the maximum of the ideal square root of the sum of squares and the
    floor word is the real clamped norm. -/
theorem max_sqrt_eps (x : K → ℝ) :
    max (Ideal.sqrt (∑ k, (x k : EReal) * (x k : EReal))) (Ideal.ofBits .f32 0x2B8CBCCC#32) = (cnorm x : EReal) := by
  have h0 : ¬ (∑ k, x k * x k) < 0 := not_lt.2 (Finset.sum_nonneg fun k _ => mul_self_nonneg (x k))
  rw [sum_sq, Ideal.sqrt_coe, if_neg h0, ofBits_eps, cnorm]
  exact (EReal.coe_strictMono.monotone.map_max).symm

/-- The normalised entry as the programs compute it is the real normalised entry. -/
theorem div_norm (x : K → ℝ) (k : K) :
    Ideal.div (x k : EReal) (max (Ideal.sqrt (∑ k', (x k' : EReal) * (x k' : EReal))) (Ideal.ofBits .f32 0x2B8CBCCC#32))
      = (nrm x k : EReal) := by
  rw [max_sqrt_eps, Ideal.div_coe (ne_of_gt (cnorm_pos x)), ← EReal.coe_mul, nrm]
  congr 1
  ring

/-- The same with the sum of squares taken from zero (a reduction that starts at its initial value). -/
theorem div_norm_zero_add (x : K → ℝ) (k : K) :
    Ideal.div (x k : EReal)
        (max (Ideal.sqrt ((0 : EReal) + ∑ k', (x k' : EReal) * (x k' : EReal))) (Ideal.ofBits .f32 0x2B8CBCCC#32))
      = (nrm x k : EReal) := by
  rw [zero_add, div_norm]

/-- The dot product of two normalised rows is a real. -/
theorem dot_nrm (a b : K → ℝ) :
    ∑ k, (nrm a k : EReal) * (nrm b k : EReal) = ((∑ k, nrm a k * nrm b k : ℝ) : EReal) :=
  dot_real _ _

end Cert.NormReal

end
-- ==== Proof.Spec.lean ====
import proofs.«144956_j83760452206739_2_alg».proof.Proof.LibLseShift
import proofs.«144956_j83760452206739_2_alg».proof.Proof.LibNormReal
import Idealize.ShloMosaic.Lib.ValueIdx

noncomputable section

/-! # The loss both programs compute

For real anchor rows `a i` (8192 of them, 256 long) and real target rows `t j` (16384 of them), normalise every row by
its Euclidean norm clamped below at the float epsilon, take all dot products and scale them by the reciprocal of the
temperature: the score `S i j`. The loss is the mean over `i` of `log Σ_j exp (S i j) − S i i`. The kernel reaches it as
`shift + log Σ_j exp (S i j − shift) − S i i` (a fixed shift), the reference as the negated mean of
`(S i i − M_i) − log Σ_j exp (S i j − M_i)` (`M_i` the row maximum); `Cert.LseShift.loss_law` joins the two. -/

namespace Cert.Spec

open Idealize.ShloMosaic

/-- The reciprocal of the temperature as the reference's own float word gives it: 1 / (13421773 / 268435456). -/
abbrev κr : ℝ := 268435456 / 13421773

/-- The shape of the per-row losses: 8192 rows, one column. -/
abbrev Rows : Shape := ⟨2, ![8192, 1]⟩

/-- A real read off an extended real known to be one. -/
def realOf {α : Type} (x : α → EReal) (_h : ∀ i, ∃ r : ℝ, x i = (r : EReal)) (i : α) : ℝ := (x i).toReal
theorem realOf_spec {α : Type} (x : α → EReal) (h : ∀ i, ∃ r : ℝ, x i = (r : EReal)) (i : α) : x i = (realOf x h i : EReal) := by
  obtain ⟨r, hr⟩ := h i
  unfold realOf; rw [hr, EReal.toReal_coe]

/-- The shape of an argument array: 8192 rows of 256. -/
abbrev In : Shape := ⟨2, ![8192, 256]⟩

/-- The anchor rows as reals, read off an argument array whose entries are reals. -/
def anchR (x0 : In.Idx → EReal) (h0 : ∀ i, ∃ r : ℝ, x0 i = (r : EReal)) (i : Fin 8192) (d : Fin 256) : ℝ :=
  realOf x0 h0 (ValueIdx.ix2 i d)

/-- The target rows as reals: the second argument array's rows, then the third's. -/
def targR (x1 x2 : In.Idx → EReal) (h1 : ∀ i, ∃ r : ℝ, x1 i = (r : EReal)) (h2 : ∀ i, ∃ r : ℝ, x2 i = (r : EReal))
    (j : Fin 16384) (d : Fin 256) : ℝ :=
  if h : j.val < 8192 then realOf x1 h1 (ValueIdx.ix2 (⟨j.val, h⟩ : Fin 8192) d)
  else realOf x2 h2 (ValueIdx.ix2 (⟨j.val - 8192, by have := j.isLt; omega⟩ : Fin 8192) d)

/-- The score of anchor row `i` against target row `j`. -/
def S (a : Fin 8192 → Fin 256 → ℝ) (t : Fin 16384 → Fin 256 → ℝ) (i : Fin 8192) (j : Fin 16384) : ℝ :=
  (∑ d, NormReal.nrm (a i) d * NormReal.nrm (t j) d) * κr

/-- Row `i`'s label is column `i`. -/
def dcol (i : Fin 8192) : Fin 16384 := ⟨i.val, by have := i.isLt; omega⟩

/-- The loss as the kernel's program reaches it. -/
def kernelLoss (a : Fin 8192 → Fin 256 → ℝ) (t : Fin 16384 → Fin 256 → ℝ) : EReal :=
  Ideal.div ((0 : EReal) + ∑ y : Rows.Idx,
      ((((κr : ℝ) : EReal) + Ideal.log ((0 : EReal) + ∑ j : Fin 16384, Ideal.exp ((S a t (y 0) j : EReal) - ((κr : ℝ) : EReal))))
        - (S a t (y 0) (dcol (y 0)) : EReal)))
    (Ideal.ofBits .f32 0x46000000#32)

/-- The loss as the reference's program reaches it. -/
def refLoss (a : Fin 8192 → Fin 256 → ℝ) (t : Fin 16384 → Fin 256 → ℝ) : EReal :=
  -(Ideal.div ((0 : EReal) + ∑ y : Rows.Idx,
      (((S a t (y 0) (dcol (y 0)) : EReal) - max (⊥ : EReal) ((Finset.univ : Finset (Fin 16384)).fold max (⊥ : EReal) (fun j => (S a t (y 0) j : EReal))))
        - Ideal.log ((0 : EReal) + ∑ j : Fin 16384, Ideal.exp ((S a t (y 0) j : EReal)
            - max (⊥ : EReal) ((Finset.univ : Finset (Fin 16384)).fold max (⊥ : EReal) (fun j => (S a t (y 0) j : EReal)))))))
    (Ideal.ofBits .f32 0x46000000#32))

/-- The two are one number: the shift and the row maximum both cancel inside `log Σ exp`. -/
theorem kernelLoss_eq_refLoss (a : Fin 8192 → Fin 256 → ℝ) (t : Fin 16384 → Fin 256 → ℝ) : kernelLoss a t = refLoss a t :=
  LseShift.loss_law (ι := Rows.Idx) (J := Fin 16384) (fun y j => S a t (y 0) j) κr (fun y => dcol (y 0))

end Cert.Spec

end
-- ==== Proof.KiTile.lean ====
import proofs.«144956_j83760452206739_2_alg».proof.Proof.KiFrame

set_option maxRecDepth 16384

noncomputable section

/-! # One row tile's eight points

Along a row tile `q` the column-tile coordinate `k` runs 0..7 at the points `8 q + k`. The tests on the coordinates
have closed forms there: the reset happens at `k = 0`, the diagonal band is met at `k = q / 2` (rows
`1024 q .. 1024 q + 1023` lie in columns `2048 (q/2) ..`), and the output is written at `k = 7`. So the kept
buffers after point `8 q + k` are two plain recurrences in `k` over the tile's normalised anchor rows. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = t.val / 8 / 2 :=
  (by decide +kernel : ∀ t : Fin grid0.N, cond2 (grid0.coords t) ↔ t.val % 8 = t.val / 8 / 2)
theorem hcond3 : ∀ t : Fin cfg0.N, cond3 (grid0.coords t) ↔ t.val % 8 = 7 :=
  (by decide +kernel : ∀ t : Fin grid0.N, cond3 (grid0.coords t) ↔ t.val % 8 = 7)

theorem N_eq : cfg0.N = 64 := N_0
theorem N_pos : 0 < cfg0.N := by rw [N_eq]; norm_num

/-- The anchor block, the target block and the coordinates at position `n` (position 0's beyond the grid). -/
def blk0 (c : Dev nD) (n : ℕ) : Vec F S1024x256 .f32 := if h : n < cfg0.N then iblk m c 0 ⟨n, h⟩ else iblk m c 0 ⟨0, N_pos⟩
def blk1 (c : Dev nD) (n : ℕ) : Vec F S2048x256 .bf16 := if h : n < cfg0.N then iblk m c 1 ⟨n, h⟩ else iblk m c 1 ⟨0, N_pos⟩
def crd (n : ℕ) : grid0.Coords := if h : n < cfg0.N then grid0.coords ⟨n, h⟩ else grid0.coords ⟨0, N_pos⟩

theorem blk0_of_lt (c : Dev nD) (n : ℕ) (h : n < cfg0.N) : blk0 m c n = iblk m c 0 ⟨n, h⟩ := by unfold blk0; rw [dif_pos h]
theorem blk1_of_lt (c : Dev nD) (n : ℕ) (h : n < cfg0.N) : blk1 m c n = iblk m c 1 ⟨n, h⟩ := by unfold blk1; rw [dif_pos h]
theorem crd_of_lt (n : ℕ) (h : n < cfg0.N) : crd n = grid0.coords ⟨n, h⟩ := by unfold crd; rw [dif_pos h]

/-- The running sum of exponentials after `k + 1` column tiles: restarted from zero at the first. -/
def accL (a : Vec F S1024x256 .bf16) (xs : ℕ → Vec F S2048x256 .bf16) : ℕ → Vec F S1024x1 .f32
  | 0 => k0_pay6 a (xs 0) k0_pay1
  | k + 1 => k0_pay6 a (xs (k + 1)) (accL a xs k)

/-- The running diagonal after `k + 1` column tiles: restarted from zero at the first, touched only at tile `b0`. -/
def accD (is : ℕ → grid0.Coords) (b0 : ℕ) (a : Vec F S1024x256 .bf16) (xs : ℕ → Vec F S2048x256 .bf16) : ℕ → Vec F S1024x1 .f32
  | 0 => if 0 = b0 then k0_pay5 (is 0) a (xs 0) k0_pay2 else k0_pay2
  | k + 1 => if k + 1 = b0 then k0_pay5 (is (k + 1)) a (xs (k + 1)) (accD is b0 a xs k) else accD is b0 a xs k

theorem accL_succ (a : Vec F S1024x256 .bf16) (xs : ℕ → Vec F S2048x256 .bf16) (k : ℕ) :
    accL a xs (k + 1) = k0_pay6 a (xs (k + 1)) (accL a xs k) := rfl
theorem accD_succ_ne (is : ℕ → grid0.Coords) (b0 : ℕ) (a : Vec F S1024x256 .bf16) (xs : ℕ → Vec F S2048x256 .bf16) (k : ℕ) (h : ¬ k + 1 = b0) :
    accD is b0 a xs (k + 1) = accD is b0 a xs k := by
  show (if k + 1 = b0 then _ else _) = _; rw [if_neg h]
theorem accD_succ_eq (is : ℕ → grid0.Coords) (b0 : ℕ) (a : Vec F S1024x256 .bf16) (xs : ℕ → Vec F S2048x256 .bf16) (k : ℕ) (h : k + 1 = b0) :
    accD is b0 a xs (k + 1) = k0_pay5 (is (k + 1)) a (xs (k + 1)) (accD is b0 a xs k) := by
  show (if k + 1 = b0 then _ else _) = _; rw [if_pos h]
theorem accD_zero_ne (is : ℕ → grid0.Coords) (b0 : ℕ) (a : Vec F S1024x256 .bf16) (xs : ℕ → Vec F S2048x256 .bf16) (h : ¬ 0 = b0) :
    accD is b0 a xs 0 = k0_pay2 := by
  show (if 0 = b0 then _ else _) = _; rw [if_neg h]
theorem accD_zero_eq (is : ℕ → grid0.Coords) (b0 : ℕ) (a : Vec F S1024x256 .bf16) (xs : ℕ → Vec F S2048x256 .bf16) (h : 0 = b0) :
    accD is b0 a xs 0 = k0_pay5 (is 0) a (xs 0) k0_pay2 := by
  show (if 0 = b0 then _ else _) = _; rw [if_pos h]

/-- The kept buffers after point `8 q + k`. -/
theorem stAt_tile (c : Dev nD) (q : ℕ) (hq : q < 8) : ∀ (k : ℕ) (hk : k < 8) (hn : 8 * q + k < cfg0.N),
    (stAt m c (8 * q + k) hn).l = accL (k0_pay3 (blk0 m c (8 * q))) (fun k' => blk1 m c (8 * q + k')) k
    ∧ (stAt m c (8 * q + k) hn).dg = accD (fun k' => crd (8 * q + k')) (q / 2) (k0_pay3 (blk0 m c (8 * q))) (fun k' => blk1 m c (8 * q + k')) k
    ∧ (stAt m c (8 * q + k) hn).a = k0_pay3 (blk0 m c (8 * q)) := by
  intro k
  induction k with
  | zero =>
    intro hk hn
    have e := stAt_step m c ⟨8 * q + 0, hn⟩
    have h1 : cond1 (grid0.coords ⟨8 * q + 0, hn⟩) := (hcond1 ⟨8 * q + 0, hn⟩).mpr (by show (8 * q + 0) % 8 = 0; omega)
    have hb0 : blk0 m c (8 * q) = iblk m c 0 ⟨8 * q + 0, hn⟩ := blk0_of_lt m c (8 * q) hn
    have hb1 : blk1 m c (8 * q + 0) = iblk m c 1 ⟨8 * q + 0, hn⟩ := blk1_of_lt m c (8 * q + 0) hn
    have hcr : crd (8 * q + 0) = grid0.coords ⟨8 * q + 0, hn⟩ := crd_of_lt (8 * q + 0) hn
    by_cases h2 : cond2 (grid0.coords ⟨8 * q + 0, hn⟩)
    · have hb : 0 = q / 2 := by
        have h : (8 * q + 0) % 8 = (8 * q + 0) / 8 / 2 := (hcond2 ⟨8 * q + 0, hn⟩).mp h2
        have e1 : (8 * q + 0) % 8 = 0 := by omega
        have e2 : (8 * q + 0) / 8 = q := by omega
        rw [e1, e2] at h; exact h
      rw [show stAt m c (8 * q + 0) hn = _ from e, step_A _ h1 h2]
      refine ⟨?_, ?_, ?_⟩
      · dsimp only [accL]; rw [hb0, hb1]
      · dsimp only [accD]; rw [if_pos hb, hb0, hb1, hcr]
      · dsimp only; rw [hb0]
    · have hb : ¬ 0 = q / 2 := fun hb => h2 ((hcond2 ⟨8 * q + 0, hn⟩).mpr (by
        show (8 * q + 0) % 8 = (8 * q + 0) / 8 / 2
        have e1 : (8 * q + 0) % 8 = 0 := by omega
        have e2 : (8 * q + 0) / 8 = q := by omega
        rw [e1, e2]; exact hb))
      rw [show stAt m c (8 * q + 0) hn = _ from e, step_B _ h1 h2]
      refine ⟨?_, ?_, ?_⟩
      · dsimp only [accL]; rw [hb0, hb1]
      · dsimp only [accD]; rw [if_neg hb]
      · dsimp only; rw [hb0]
  | succ k ih =>
    intro hk hn
    obtain ⟨ihl, ihd, iha⟩ := ih (by omega) (by omega)
    have e : stAt m c (8 * q + (k + 1)) hn
        = step (grid0.coords ⟨8 * q + (k + 1), hn⟩) (iblk m c 0 ⟨8 * q + (k + 1), hn⟩) (iblk m c 1 ⟨8 * q + (k + 1), hn⟩) (stAt m c (8 * q + k) (by omega)) := rfl
    have e1 : (8 * q + (k + 1)) % 8 = k + 1 := by omega
    have e2 : (8 * q + (k + 1)) / 8 = q := by omega
    have h1 : ¬cond1 (grid0.coords ⟨8 * q + (k + 1), hn⟩) := fun h => by
      have h' : (8 * q + (k + 1)) % 8 = 0 := (hcond1 ⟨8 * q + (k + 1), hn⟩).mp h
      rw [e1] at h'; omega
    have hb1 : blk1 m c (8 * q + (k + 1)) = iblk m c 1 ⟨8 * q + (k + 1), hn⟩ := blk1_of_lt m c _ hn
    have hcr : crd (8 * q + (k + 1)) = grid0.coords ⟨8 * q + (k + 1), hn⟩ := crd_of_lt _ hn
    by_cases h2 : cond2 (grid0.coords ⟨8 * q + (k + 1), hn⟩)
    · have hb : k + 1 = q / 2 := by
        have h : (8 * q + (k + 1)) % 8 = (8 * q + (k + 1)) / 8 / 2 := (hcond2 ⟨8 * q + (k + 1), hn⟩).mp h2
        rw [e1, e2] at h; exact h
      rw [e, step_C _ h1 h2]
      refine ⟨?_, ?_, ?_⟩
      · dsimp only [accL]; rw [iha, ihl, hb1]
      · dsimp only [accD]; rw [if_pos hb, iha, ihd, hb1, hcr]
      · exact iha
    · have hb : ¬ k + 1 = q / 2 := fun hb => h2 ((hcond2 ⟨8 * q + (k + 1), hn⟩).mpr (by
        show (8 * q + (k + 1)) % 8 = (8 * q + (k + 1)) / 8 / 2
        rw [e1, e2]; exact hb))
      by_cases h3 : cond3 (grid0.coords ⟨8 * q + (k + 1), hn⟩)
      · rw [e, step_E _ h1 h2 h3]
        refine ⟨?_, ?_, ?_⟩
        · dsimp only [accL]; rw [iha, ihl, hb1]
        · dsimp only [accD]; rw [if_neg hb]; exact ihd
        · exact iha
      · rw [e, step_D _ h1 h2 h3]
        refine ⟨?_, ?_, ?_⟩
        · dsimp only [accL]; rw [iha, ihl, hb1]
        · dsimp only [accD]; rw [if_neg hb]; exact ihd
        · exact iha

/-- The output block written at the tile's last point: the shift plus the logarithm of the tile's whole sum, less its diagonal. -/
theorem out_tile (c : Dev nD) (q : ℕ) (hq : q < 8) (hn : 8 * q + 7 < cfg0.N) :
    (stAt m c (8 * q + 7) hn).out
      = k0_pay7 (accL (k0_pay3 (blk0 m c (8 * q))) (fun k' => blk1 m c (8 * q + k')) 7)
          (accD (fun k' => crd (8 * q + k')) (q / 2) (k0_pay3 (blk0 m c (8 * q))) (fun k' => blk1 m c (8 * q + k')) 7) := by
  obtain ⟨ihl, ihd, iha⟩ := stAt_tile m c q hq 6 (by omega) (by omega)
  have e : stAt m c (8 * q + (6 + 1)) hn
      = step (grid0.coords ⟨8 * q + (6 + 1), hn⟩) (iblk m c 0 ⟨8 * q + (6 + 1), hn⟩) (iblk m c 1 ⟨8 * q + (6 + 1), hn⟩) (stAt m c (8 * q + 6) (by omega)) := rfl
  have e1 : (8 * q + (6 + 1)) % 8 = 7 := by omega
  have e2 : (8 * q + (6 + 1)) / 8 = q := by omega
  have h1 : ¬cond1 (grid0.coords ⟨8 * q + (6 + 1), hn⟩) := fun h => by
    have h' : (8 * q + (6 + 1)) % 8 = 0 := (hcond1 ⟨8 * q + (6 + 1), hn⟩).mp h
    rw [e1] at h'; omega
  have h2 : ¬cond2 (grid0.coords ⟨8 * q + (6 + 1), hn⟩) := fun h => by
    have h' : (8 * q + (6 + 1)) % 8 = (8 * q + (6 + 1)) / 8 / 2 := (hcond2 ⟨8 * q + (6 + 1), hn⟩).mp h
    rw [e1, e2] at h'; omega
  have h3 : cond3 (grid0.coords ⟨8 * q + (6 + 1), hn⟩) := (hcond3 ⟨8 * q + (6 + 1), hn⟩).mpr e1
  have hb1 : blk1 m c (8 * q + (6 + 1)) = iblk m c 1 ⟨8 * q + (6 + 1), hn⟩ := blk1_of_lt m c _ hn
  have hb : ¬ 6 + 1 = q / 2 := by omega
  show (stAt m c (8 * q + (6 + 1)) hn).out
      = k0_pay7 (accL (k0_pay3 (blk0 m c (8 * q))) (fun k' => blk1 m c (8 * q + k')) (6 + 1))
          (accD (fun k' => crd (8 * q + k')) (q / 2) (k0_pay3 (blk0 m c (8 * q))) (fun k' => blk1 m c (8 * q + k')) (6 + 1))
  rw [accL_succ, accD_succ_ne _ _ _ _ _ hb, e, step_E _ h1 h2 h3]
  dsimp only
  rw [iha, ihl, ihd, hb1]

end Cert.KernelIdeal.Body

end
-- ==== Proof.KiFinal.lean ====
import proofs.«144956_j83760452206739_2_alg».proof.Proof.KiTile
import Idealize.ShloMosaic.Lib.Pipeline.Value
import Idealize.ShloMosaic.Lib.ValueIdx

set_option maxRecDepth 16384

noncomputable section

/-! # The array of row losses after the region

The output window's block `q` (rows `1024 q .. 1024 q + 1023`) is written back once, at the row tile's last point
`8 q + 7`, with what that point's straight line left in the staging buffer. The eight blocks tile the array, so after
the region the array holds, at row `i`, entry `i mod 1024` of what point `8 (i / 1024) + 7` wrote. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]

variable (m : (ℓ : Loc nD τ sig) → Buf (Elt F) ℓ)

/-- The output block after position `n` (beyond the grid: zeros). -/
def outN (c : Dev nD) (n : ℕ) : Vec F S1024x1 .f32 := if h : n < cfg0.N then (stAt m c n h).out else k0_pay1

theorem outN_of_lt (c : Dev nD) (n : ℕ) (h : n < cfg0.N) : outN m c n = (stAt m c n h).out := by unfold outN; rw [dif_pos h]

/-- Entry `n mod 1024` of a block of 1024 row losses. -/
def rowIdx (n : ℕ) : S1024x1.Idx := ix2 (⟨n % 1024, Nat.mod_lt _ (by norm_num)⟩ : Fin 1024) (0 : Fin 1)

theorem rowIdx_eq (j : S1024x1.Idx) : rowIdx (j 0).val = j := by
  funext a
  apply Fin.ext
  match a with
  | ⟨0, _⟩ => show (j 0).val % 1024 = (j 0).val; exact Nat.mod_eq_of_lt (j 0).isLt
  | ⟨1, _⟩ => show 0 = (j 1).val; have : (j 1).val < 1 := (j 1).isLt; omega

/-- The array of row losses the region leaves. -/
def outG (c : Dev nD) : S8192x1.Idx → Elt F .f32 := fun i => outN m c (8 * ((i 0).val / 1024) + 7) (rowIdx ((i 0).val % 1024))

/-- The output window's index map: block row `t / 8`, block column 0. -/
theorem idx2_facts : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a writing point writes back is its block of `outG`. -/
theorem flushed_eq (c : Dev nD) (t : Fin cfg0.N) (hf : (cfg0.win 2).flush t = true) :
    (dats m 0 c).flushed 2 t = ((cfg0.win 2).blk t).view.read (Elt F) (outG m c) := by
  have h7 : t.val % 8 = 7 := (flush0_2 t).mp hf
  show (cfg0.win 2).cut (grid0.coords t) ((dats m 0 c).after 2 t) = _
  rw [after0_2]
  funext j
  show (stAt m c t.val t.isLt).out j = outG m c (((cfg0.win 2).blk t).view.emb j)
  obtain ⟨e0, e1⟩ := idx2_facts t
  have hj0 : (j 0).val < 1024 := (j 0).isLt
  have hemb0 : ((((cfg0.win 2).blk t).view.emb j) 0).val = 1024 * (t.val / 8) + (j 0).val := by
    show win0_2.index t (0 : Fin 2) * 1024 + 1 * (j 0).val = _
    rw [e0]; omega
  have key : ∀ n : ℕ, n = 1024 * (t.val / 8) + (j 0).val →
      outN m c (8 * (n / 1024) + 7) (rowIdx (n % 1024)) = (stAt m c t.val t.isLt).out j := by
    intro n hn
    have a1 : n / 1024 = t.val / 8 := by omega
    have a2 : n % 1024 = (j 0).val := by omega
    have a3 : 8 * (t.val / 8) + 7 = t.val := by omega
    rw [a1, a2, a3, outN_of_lt m c t.val t.isLt, rowIdx_eq]
  exact (key _ hemb0).symm

/-- Every row lies in the block its row tile's last point writes back. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_eq
  have hlt : 8 * ((i 0).val / 1024) + 7 < cfg0.N := by rw [hN]; omega
  refine ⟨⟨8 * ((i 0).val / 1024) + 7, hlt⟩, (flush0_2 _).mpr (by show (8 * ((i 0).val / 1024) + 7) % 8 = 7; omega), ?_⟩
  obtain ⟨e0, e1⟩ := idx2_facts ⟨8 * ((i 0).val / 1024) + 7, hlt⟩
  show i ∈ ((View.whole main_v10).slice (win0_2.rect ⟨8 * ((i 0).val / 1024) + 7, hlt⟩)).set
  rw [View.set_slice_whole, Rect.mem_set_unit]
  intro a
  match a with
  | ⟨0, _⟩ =>
    show win0_2.index ⟨8 * ((i 0).val / 1024) + 7, hlt⟩ (0 : Fin 2) * 1024 ≤ (i 0).val ∧ (i 0).val < win0_2.index ⟨8 * ((i 0).val / 1024) + 7, hlt⟩ (0 : Fin 2) * 1024 + 1024
    rw [e0]; show (8 * ((i 0).val / 1024) + 7) / 8 * 1024 ≤ (i 0).val ∧ (i 0).val < (8 * ((i 0).val / 1024) + 7) / 8 * 1024 + 1024
    have : (8 * ((i 0).val / 1024) + 7) / 8 = (i 0).val / 1024 := by omega
    rw [this]; omega
  | ⟨1, _⟩ =>
    show win0_2.index ⟨8 * ((i 0).val / 1024) + 7, hlt⟩ (1 : Fin 2) * 1 ≤ (i 1).val ∧ (i 1).val < win0_2.index ⟨8 * ((i 0).val / 1024) + 7, hlt⟩ (1 : Fin 2) * 1 + 1
    rw [e1]; omega

/-- After the region the array of row losses is `outG`. -/
theorem final (c : Dev nD) : (dats m 0 c).arrAt 2 cfg0.N = outG m c :=
  (dats m 0 c).arrAt_eq_of_cover 2 (outG m c) (flushed_eq m c) (cover)

end Cert.KernelIdeal.Body

end
-- ==== Proof.KiBlocks.lean ====
import proofs.«144956_j83760452206739_2_alg».proof.Proof.KiFinal
import Idealize.ShloMosaic.Lib.StableHlo.Run

set_option maxRecDepth 16384

noncomputable section

/-! # The blocks the points read, and the operations after the region

The anchor window's block at point `n` is rows `1024 (n / 8) ..` of the first argument; the target window's block is
rows `2048 (n mod 8) ..` of the normalised targets; the point's coordinates are `(n / 8, n mod 8)`. After the region the
program sums the array of row losses and divides by their number. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F] [Named F]
variable (m : (ℓ : Loc nD τ sig) → Buf (Elt F) ℓ)

theorem idx0_facts : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1_facts : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem coords_facts : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The anchor block at point `t`, entry `(r, d)`: the first argument at row `1024 (t / 8) + r`. -/
theorem iblk0_apply (c : Dev nD) (t : Fin cfg0.N) (x : S1024x256.Idx) (k : S8192x256.Idx)
    (hk0 : (k 0).val = 1024 * (t.val / 8) + (x 0).val) (hk1 : (k 1).val = (x 1).val) :
    (iblk m c 0 t : Vec F S1024x256 .f32) x = (V m c main_arg0 : S8192x256.Idx → Elt F .f32) k := by
  obtain ⟨e0, e1⟩ := idx0_facts t
  unfold iblk
  rw [View.read_apply]
  show V m c main_arg0 _ = V m c main_arg0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- The target block at point `t`, entry `(j, d)`: the normalised targets at row `2048 (t mod 8) + j`. -/
theorem iblk1_apply (c : Dev nD) (t : Fin cfg0.N) (x : S2048x256.Idx) (k : S16384x256.Idx)
    (hk0 : (k 0).val = 2048 * (t.val % 8) + (x 0).val) (hk1 : (k 1).val = (x 1).val) :
    (iblk m c 1 t : Vec F S2048x256 .bf16) x = (V m c main_v9 : S16384x256.Idx → Elt F .bf16) k := by
  obtain ⟨e0, e1⟩ := idx1_facts t
  unfold iblk
  rw [View.read_apply]
  show V m c main_v9 _ = V m c main_v9 _
  congr 1
  funext a
  apply Fin.ext
  match a with
  | ⟨0, _⟩ => show win0_1.index t (0 : Fin 2) * 2048 + 1 * (x 0).val = (k 0).val; rw [e0, hk0]; omega
  | ⟨1, _⟩ => show win0_1.index t (1 : Fin 2) * 256 + 1 * (x 1).val = (k 1).val; rw [e1, hk1]; omega

/-- The host operations after the region: the sum of all row losses divided by their number. -/
def tailK (o : (⟨S8192x1, .f32⟩ : BufTy).Contents (Elt F)) : (⟨S_, .f32⟩ : BufTy).Contents (Elt F) :=
  Host.divf (Host.reduceAdd o (constant (F := F) S_ .f32 0x00000000#32) reducesTo_S8192x1_S_d0_1 h_S_) (constant (F := F) S_ .f32 0x46000000#32)

/-- The program's result after the region and the operations that follow it. -/
theorem tail_eq (c : Dev nD) :
    Pipeline.afterTail₀ cfgs (dats m) 0 (V0 m) [hostOps1] c main_v12 = tailK (outG m c) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v10) = outG m c :=
    (Pipeline.withArrays_arr spec0 launch0.win.arr_inj c _ _ 2).trans (final m c)
  rw [e]
  rfl

/-- The program's run with its result named: the operations after the region applied to the array of row losses. -/
theorem run_value (ρ : Dev nD → PrngReg) :
    θ_run defs (onTc (τ := τ) (main (F := F))) ⟨m, fun _ => 0, ρ⟩ (fun r => ∀ c : Dev nD,
      r.2.mem ((c.tc : Thread nD τ).loc main_v12) = tailK (outG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Body

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibMatmulRead.lean ====
/-
  A matrix product into a zero accumulator, read at an index on the extended reals.

  When the dimension numbers contract ONE axis of extent `n`, the product at an output index `j` is the sum over
  `k : Fin n` of the left operand at `L k` times the right operand at `R k`, where `L k`, `R k` are the operand indices
  the dimension numbers assign to `j` and the contraction coordinate `k` (hypotheses `hl`, `hr'`: whatever batch and free
  axes there are, the caller names the two index families once).
-/
import Idealize.ShloMosaic.PureOps.Ideal.Laws
import Idealize.ShloMosaic.Lib.ValueIdx

noncomputable section

namespace Cert.MatmulRead

open Idealize.ShloMosaic Idealize.ShloMosaic.ValueIdx

/-- A product into the zero splat, one contracted axis of extent `n`: `∑ k : Fin n, lhs (L k) * rhs (R k)`. -/
theorem matmul_zero_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl k, hr' k]

end Cert.MatmulRead

end
-- ==== Proof.KiPayloads.lean ====
/-
  The seven payloads of the kernel body, each read at one index on the extended reals.

  A block of the kernel is 1024 anchor rows against 2048 target rows, both of width 256. Written with
  κ for the inverse temperature 268435456 / 13421773:

  * the two accumulators start at 0;
  * the normalised anchors are x (r, k) / max (sqrt (∑ k', x (r, k')²)) ε, ε the 1e-12 word;
  * the scores are s (r, j) = (∑ k, a (r, k) · t (j, k)) · κ;
  * the running sum of exponentials gains ∑ j, exp (s (r, j) − κ);
  * the running label term gains the scores on the diagonal of the global index, row block i₀ against column block i₁;
  * the result is (κ + log l) − d.
-/
import proofs.«144956_j83760452206739_2_alg».proof.Proof.Gen.KernelIdeal.Skeleton
import proofs.«144956_j83760452206739_2_alg».proof.Proof.LibColumns
import proofs.«144956_j83760452206739_2_alg».proof.Proof.LibMatmulRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.Proof.Columns

/-- The inverse temperature the certificate's table gives: 268435456 / 13421773. -/
theorem named_inv_temperature :
    Named.named (F := Ideal) κ "inv_temperature" (φ := .f32) 0x41A00000#32 = ((268435456 / 13421773 : ℝ) : EReal) :=
  IdealRules.named_const.ideal_named_scalar _ _ _ _ rfl

/-! ## The accumulators' first values -/

/-- The running sum of exponentials starts at 0. -/
theorem pay1_apply (r : Fin 1024) : k0_pay1 (F := Ideal) (ix2 r (0 : Fin 1)) = 0 := by
  unfold k0_pay1
  rw [shapeCast_self]
  exact Ideal.ofBits_zero_f32

/-- The running label term starts at 0. -/
theorem pay2_apply (r : Fin 1024) : k0_pay2 (F := Ideal) (ix2 r (0 : Fin 1)) = 0 := by
  unfold k0_pay2
  rw [shapeCast_self]
  exact Ideal.ofBits_zero_f32

/-! ## The normalised anchors -/

/-- The anchor row r divided by its norm, the norm kept above the 1e-12 word: the lane sum of squares, its square
    root spread back over the 256 lanes; the change of format and the casts to the same shape change no value. -/
theorem pay3_apply (x0 : Vec Ideal S1024x256 .f32) (r : Fin 1024) (k : Fin 256) :
    k0_pay3 (F := Ideal) x0 (ix2 r k)
      = Ideal.div (x0 (ix2 r k))
          (max (Ideal.sqrt (∑ k' : Fin 256, x0 (ix2 r k') * x0 (ix2 r k'))) (Ideal.ofBits .f32 0x2B8CBCCC#32)) := by
  unfold k0_pay3
  refine (congrFun (shapeCast_self _ _) (ix2 r k)).trans ?_
  refine congrArg (Ideal.div (x0 (ix2 r k))) ?_
  refine (broadcastTo_a1_ab_apply _ _ r k).trans ?_
  refine congrArg (fun t => max (Ideal.sqrt t) (Ideal.ofBits .f32 0x2B8CBCCC#32)) ?_
  refine (shapeCast_a_a1_apply _ _ r (0 : Fin 1)).trans ?_
  exact multiReduction_add_rows _ _ _ _ _ r

/-! ## The scores -/

/-- The product's left operand index keeps the output's row on its free axis … -/
theorem lhs_free (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl

/-- … and reads the contraction coordinate on its lane axis. -/
theorem lhs_contr (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q

/-- The right operand index keeps the output's COLUMN on its free axis (its rows are the targets) … -/
theorem rhs_free (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl

/-- … and reads the contraction coordinate on its lane axis too: both operands are contracted along their width. -/
theorem rhs_contr (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The score of anchor row r against target row j: their inner product over the 256 lanes, times κ. -/
theorem pay4_apply (a : Vec Ideal S1024x256 .bf16) (x1 : Vec Ideal S2048x256 .bf16) (r : Fin 1024) (j : Fin 2048) :
    k0_pay4 (F := Ideal) a x1 (ix2 r j)
      = (∑ k : Fin 256, a (ix2 r k) * x1 (ix2 j k)) * ((268435456 / 13421773 : ℝ) : EReal) := by
  unfold k0_pay4
  refine (mulf_apply _ _ (ix2 r j)).trans ?_
  refine congrArg₂ (· * ·) ?_ named_inv_temperature
  refine (congrArg (fun v => matmul dot_S1024x256_S2048x256_S1024x2048_1_1_0_0_n_n none a v
    (constant (F := Ideal) S1024x2048 .f32 0x00000000#32) (ix2 r j)) (shapeCast_self x1 _)).trans ?_
  refine Cert.MatmulRead.matmul_zero_read dot_S1024x256_S2048x256_S1024x2048_1_1_0_0_n_n none 256 rfl rfl a x1 (ix2 r j)
    (fun k => ix2 r k) (fun k => ix2 j k) (fun k => ?_) (fun k => ?_)
  · refine funext fun ax => Fin.ext ?_
    match ax with
    | ⟨0, _⟩ => exact lhs_free _ _
    | ⟨1, _⟩ => exact (lhs_contr _ _).trans (contrEquiv1_symm_val dot_S1024x256_S2048x256_S1024x2048_1_1_0_0_n_n 256 rfl rfl k)
  · refine funext fun ax => Fin.ext ?_
    match ax with
    | ⟨0, _⟩ => exact rhs_free _ _
    | ⟨1, _⟩ => exact (rhs_contr _ _).trans (contrEquiv1_symm_val dot_S1024x256_S2048x256_S1024x2048_1_1_0_0_n_n 256 rfl rfl k)

/-! ## The running sum of exponentials -/

/-- The sum of exponentials of row r gains, over the block's 2048 targets, exp (score − κ). -/
theorem pay6_apply (a : Vec Ideal S1024x256 .bf16) (x1 : Vec Ideal S2048x256 .bf16) (l : Vec Ideal S1024x1 .f32)
    (r : Fin 1024) :
    k0_pay6 (F := Ideal) a x1 l (ix2 r (0 : Fin 1))
      = l (ix2 r (0 : Fin 1))
        + ∑ j : Fin 2048, Ideal.exp (k0_pay4 (F := Ideal) a x1 (ix2 r j) - ((268435456 / 13421773 : ℝ) : EReal)) := by
  unfold k0_pay6
  refine (congrFun (shapeCast_self _ _) (ix2 r (0 : Fin 1))).trans ?_
  refine (addf_apply _ _ _).trans ?_
  refine congrArg (l (ix2 r (0 : Fin 1)) + ·) ?_
  refine (shapeCast_a_a1_apply _ _ r (0 : Fin 1)).trans ?_
  refine (multiReduction_add_rows _ _ _ _ _ r).trans ?_
  refine Finset.sum_congr rfl fun j _ => ?_
  exact congrArg (fun c => Ideal.exp (k0_pay4 (F := Ideal) a x1 (ix2 r j) - c)) named_inv_temperature

/-! ## The running label term -/

/-- A comparison of two 32-bit words for equality gives the bit 1 exactly when the words are equal. -/
theorem ofBool_beq_eq_one (x y : BitVec 32) : (BitVec.ofBool (x == y) = 1#1) ↔ x = y := by
  rw [← beq_iff_eq (a := x) (b := y)]
  generalize (x == y) = b
  cases b <;> decide

/-- The comparison word of block i at (r, j): the global row i₀ · 1024 + r against the global column i₁ · 2048 + j,
    both computed as 32-bit words. -/
def diagBit (i : grid0.Coords) (r : Fin 1024) (j : Fin 2048) : BitVec 1 :=
  IntOp.cmpi .eq (IntOp.addi (Scalar.muli (BitVec.ofNat 32 (i 0).val) 1024#32) (BitVec.ofNat 32 r.val))
    (IntOp.addi (Scalar.muli (BitVec.ofNat 32 (i 1).val) 2048#32) (BitVec.ofNat 32 j.val))

/-- With both block coordinates below 8 nothing wraps: the word is 1 exactly when the two global indices are equal
    as natural numbers. -/
theorem diagBit_eq_one_iff (i : grid0.Coords) (r : Fin 1024) (j : Fin 2048) (h0 : (i 0).val < 8) (h1 : (i 1).val < 8) :
    diagBit i r j = 1#1 ↔ (i 0).val * 1024 + r.val = (i 1).val * 2048 + j.val := by
  have hr := r.isLt
  have hj := j.isLt
  unfold diagBit
  simp only [IntOp.cmpi, IntOp.addi, Scalar.muli, IntOp.muli]
  rw [ofBool_beq_eq_one, ← BitVec.toNat_inj]
  simp only [BitVec.toNat_add, BitVec.toNat_mul, BitVec.toNat_ofNat]
  omega

/-- The label term of row r gains the block's scores where the comparison word is 1, and 0 elsewhere. -/
theorem pay5_apply (i : grid0.Coords) (a : Vec Ideal S1024x256 .bf16) (x1 : Vec Ideal S2048x256 .bf16)
    (dg : Vec Ideal S1024x1 .f32) (r : Fin 1024) :
    k0_pay5 (F := Ideal) i a x1 dg (ix2 r (0 : Fin 1))
      = dg (ix2 r (0 : Fin 1))
        + ∑ j : Fin 2048, Scalar.select (diagBit i r j) (k0_pay4 (F := Ideal) a x1 (ix2 r j)) (0 : EReal) := by
  unfold k0_pay5
  refine (congrFun (shapeCast_self _ _) (ix2 r (0 : Fin 1))).trans ?_
  refine (addf_apply _ _ _).trans ?_
  refine congrArg (dg (ix2 r (0 : Fin 1)) + ·) ?_
  refine (shapeCast_a_a1_apply _ _ r (0 : Fin 1)).trans ?_
  refine (multiReduction_add_rows _ _ _ _ _ r).trans ?_
  refine Finset.sum_congr rfl fun j _ => ?_
  refine (select_apply _ _ _ (ix2 r j)).trans ?_
  refine congrArg₂ (fun c z => Scalar.select c (k0_pay4 (F := Ideal) a x1 (ix2 r j)) z) ?_ Ideal.ofBits_zero_f32
  refine congrArg₂ (IntOp.cmpi .eq) ?_ ?_
  · refine (broadcastTo_a1_ab_apply _ _ r j).trans ?_
    exact congrArg (IntOp.addi _) (iota_single_apply .tc S1024x1 32 0 iota_S1024x1_d0_w32 (ix2 r (0 : Fin 1)))
  · refine (broadcastTo_1b_ab_apply _ _ r j).trans ?_
    exact congrArg (IntOp.addi _) (iota_single_apply .tc S1x2048 32 1 iota_S1x2048_d1_w32 (ix2 (0 : Fin 1) j))

/-- The same over the naturals: the scores on the diagonal of the global index. -/
theorem pay5_apply_nat (i : grid0.Coords) (a : Vec Ideal S1024x256 .bf16) (x1 : Vec Ideal S2048x256 .bf16)
    (dg : Vec Ideal S1024x1 .f32) (r : Fin 1024) (h0 : (i 0).val < 8) (h1 : (i 1).val < 8) :
    k0_pay5 (F := Ideal) i a x1 dg (ix2 r (0 : Fin 1))
      = dg (ix2 r (0 : Fin 1))
        + ∑ j : Fin 2048, if (i 0).val * 1024 + r.val = (i 1).val * 2048 + j.val
            then k0_pay4 (F := Ideal) a x1 (ix2 r j) else (0 : EReal) := by
  refine (pay5_apply i a x1 dg r).trans ?_
  refine congrArg (dg (ix2 r (0 : Fin 1)) + ·) (Finset.sum_congr rfl fun j _ => ?_)
  unfold Scalar.select
  exact if_congr (diagBit_eq_one_iff i r j h0 h1) rfl rfl

/-! ## The result -/

/-- The result at row r: (κ + log l) − d. -/
theorem pay7_apply (l dg : Vec Ideal S1024x1 .f32) (r : Fin 1024) :
    k0_pay7 (F := Ideal) l dg (ix2 r (0 : Fin 1))
      = (((268435456 / 13421773 : ℝ) : EReal) + Ideal.log (l (ix2 r (0 : Fin 1)))) - dg (ix2 r (0 : Fin 1)) := by
  unfold k0_pay7
  rw [subf_apply, addf_apply, broadcast_apply, named_inv_temperature]
  rfl

end Cert.KernelIdeal.Payloads

end
-- ==== Proof.KiHostPre.lean ====
/-
  The host operations before the region, read on the extended reals: the second operand of the kernel's matrix
  product is the concatenation of the two target arrays with every row divided by its clamped Euclidean norm.
-/
import proofs.«144956_j83760452206739_2_alg».proof.Proof.Gen.KernelIdeal.Frame
import proofs.«144956_j83760452206739_2_alg».proof.Proof.LibNormReal
import Idealize.ShloMosaic.PureOps.Ideal.Laws
import Idealize.ShloMosaic.Lib.Pipeline.Value
import Idealize.ShloMosaic.Lib.ValueIdx
import Idealize.ShloMosaic.Lib.StableHlo.Run

set_option maxRecDepth 16384

noncomputable section

namespace Cert.KernelIdeal.HostPre

open Idealize.ShloMosaic Idealize.ShloMosaic.TcCoe Idealize.ShloMosaic.ValueIdx
open Cert.KernelIdeal
open Cert.KernelIdeal.Gen (V V0 hostOps0)
open Cert.KernelIdeal.Facts₀ Cert.KernelIdeal.Facts
open scoped BigOperators

/-- The twelve host operations composed: concatenate the two arrays along the rows; square; sum each row from zero;
    take the square root; clamp below by the floor; divide each entry by its row's clamped norm; change the format. -/
def normT (x1 x2 : (⟨S8192x256, .f32⟩ : BufTy).Contents (Elt Ideal)) : (⟨S16384x256, .bf16⟩ : BufTy).Contents (Elt Ideal) :=
  (truncf .bf16 · bitsLt_bf16_f32)
    (Host.divf
      (concatenate S16384x256 0 [⟨S8192x256, x1⟩, ⟨S8192x256, x2⟩] concatenates_S8192x256_S8192x256_S16384x256_d0)
      (broadcastInDim S16384x256 ![0, 1] bcast_S16384x1_S16384x256_0_1
        (maximumf
          (Host.sqrt
            (broadcastInDim S16384x1 ![0] bcast_S16384_S16384x1_0
              ((fun x v => Host.reduceAdd x v reducesTo_S16384x256_S16384_d1 h_S_)
                (mulf
                  (concatenate S16384x256 0 [⟨S8192x256, x1⟩, ⟨S8192x256, x2⟩] concatenates_S8192x256_S8192x256_S16384x256_d0)
                  (concatenate S16384x256 0 [⟨S8192x256, x1⟩, ⟨S8192x256, x2⟩] concatenates_S8192x256_S8192x256_S16384x256_d0))
                (constant (F := Ideal) S_ .f32 0x00000000#32))))
          (broadcastInDim S16384x1 ![] bcast_S_S16384x1 (constant (F := Ideal) S_ .f32 0x2B8CBCCC#32)))))

variable (m : (ℓ : Loc nD τ sig) → Buf (Elt Ideal) ℓ)

/-- When the region is entered, the array the second window reads holds the normalised concatenation of the two
    target arrays as launched. -/
theorem V_main_v9 (c : Dev nD) :
    V m c main_v9 = normT (m ((c : Thread nD τ).loc main_arg1)) (m ((c : Thread nD τ).loc main_arg2)) := by
  show StableHlo.after hostOps0 (fun b => m (c, b)) (Proc.devRef .tc main_v9) = _
  after_results
  rfl

/-! ## The composed term read at an index -/

/-- Row j, column d of the concatenation of two 8192-row arrays: the first array's row j for j < 8192, the second's row
    j − 8192 otherwise. -/
def cat (x1 x2 : FVec Ideal S8192x256 .f32) (j : Fin 16384) (d : Fin 256) : EReal :=
  if h : j.val < 8192 then x1 (ix2 ⟨j.val, h⟩ d) else x2 (ix2 ⟨j.val - 8192, by omega⟩ d)

/-- The concatenation read at (j, d). -/
theorem concatenate_apply (x1 x2 : FVec Ideal S8192x256 .f32)
    (h : Shape.Concatenates [S8192x256, S8192x256] S16384x256 0) (j : Fin 16384) (d : Fin 256) :
    concatenate S16384x256 0 [⟨S8192x256, x1⟩, ⟨S8192x256, x2⟩] h (ix2 j d) = cat x1 x2 j d := by
  unfold cat
  by_cases hj : j.val < 8192
  · rw [dif_pos hj]
    refine concatenate_pair_apply_left (0 : Fin 2) x1 x2 h (ix2 j d) rfl (ix2 ⟨j.val, hj⟩ d) ?_
    intro b
    fin_cases b <;> rfl
  · rw [dif_neg hj]
    refine concatenate_pair_apply_right (0 : Fin 2) x1 x2 h (ix2 j d) rfl rfl (ix2 ⟨j.val - 8192, by omega⟩ d) ?_ ?_
    · intro b hb
      fin_cases b
      · exact absurd rfl hb
      · rfl
    · show j.val - 8192 + 8192 = j.val
      omega

/-- The sum over the columns, from zero, of a 16384 × 256 array, read at row j. -/
theorem reduceAdd_rows_apply (v : FVec Ideal S16384x256 .f32) (h' : S16384x256.ReducesTo [1] S16384)
    (hu : 0 < S_.numel) (j : Fin 16384) :
    Host.reduceAdd v (constant (F := Ideal) S_ .f32 0x00000000#32) h' hu (ix1 j)
      = (0 : EReal) + ∑ d' : Fin 256, v (ix2 j d') := by
  have h : S16384x256.Reduces [1] S16384 := by decide
  show Ideal.hostReduceAdd h' v (Ideal.ofBits .f32 0x00000000#32) (ix1 j) = _
  rw [Ideal.hostReduceAdd_single h' h, Ideal.ofBits_zero_f32]
  refine congrArg ((0 : EReal) + ·) (Finset.sum_congr rfl fun k _ => congrArg v ?_)
  funext a
  fin_cases a <;> rfl

/-- A column of 16384 entries read as a 16384 × 1 array. -/
theorem bcast_col_apply (u : FVec Ideal S16384 .f32) (h : S16384.BroadcastsInDim S16384x1 ![0]) (j : Fin 16384) (z : Fin 1) :
    broadcastInDim S16384x1 ![0] h u (ix2 j z) = u (ix1 j) := by
  refine broadcastInDim_apply ![0] h u (ix2 j z) (ix1 j) ?_
  intro a
  fin_cases a
  show j.val = if (16384 : ℕ) = 1 then 0 else j.val
  rw [if_neg (by decide)]

/-- A 16384 × 1 array broadcast along the columns. -/
theorem bcast_rows_apply (u : FVec Ideal S16384x1 .f32) (h : S16384x1.BroadcastsInDim S16384x256 ![0, 1]) (j : Fin 16384)
    (d : Fin 256) : broadcastInDim S16384x256 ![0, 1] h u (ix2 j d) = u (ix2 j (0 : Fin 1)) := by
  refine broadcastInDim_apply ![0, 1] h u (ix2 j d) (ix2 j (0 : Fin 1)) ?_
  intro a
  fin_cases a
  · show j.val = if (16384 : ℕ) = 1 then 0 else j.val
    rw [if_neg (by decide)]
  · show (0 : ℕ) = if (1 : ℕ) = 1 then 0 else d.val
    rw [if_pos rfl]

/-- A scalar constant broadcast to a column reads the constant's value everywhere. -/
theorem bcast_const_apply (h : S_.BroadcastsInDim S16384x1 ![]) (b : BitVec 32) (i : S16384x1.Idx) :
    broadcastInDim S16384x1 ![] h (constant (F := Ideal) S_ .f32 b) i = Ideal.ofBits .f32 b := rfl

/-- The normalised concatenation read at (j, d): the entry of the concatenation divided by the maximum of the square
    root of its row's sum of squares (taken from zero) and the floor word. -/
theorem normT_apply (x1 x2 : (⟨S8192x256, .f32⟩ : BufTy).Contents (Elt Ideal)) (j : Fin 16384) (d : Fin 256) :
    normT x1 x2 (ix2 j d)
      = Ideal.div (cat x1 x2 j d)
          (max (Ideal.sqrt ((0 : EReal) + ∑ d' : Fin 256, cat x1 x2 j d' * cat x1 x2 j d'))
            (Ideal.ofBits .f32 0x2B8CBCCC#32)) := by
  unfold normT
  simp only [truncf, Host.divf, Ideal.truncf_def, Ideal.hostDivf_def]
  rw [concatenate_apply, bcast_rows_apply]
  simp only [maximumf, Host.sqrt, Ideal.maximumf_def, Ideal.hostUnary_sqrt_def]
  rw [bcast_col_apply, reduceAdd_rows_apply, bcast_const_apply]
  simp only [mulf, Ideal.mulf_def, concatenate_apply]

/-! ## On real arrays: every entry is the real normalised entry -/

/-- Row j, column d of the concatenation of two real arrays. -/
def catR (r1 r2 : S8192x256.Idx → ℝ) (j : Fin 16384) (d : Fin 256) : ℝ :=
  if h : j.val < 8192 then r1 (ix2 ⟨j.val, h⟩ d) else r2 (ix2 ⟨j.val - 8192, by omega⟩ d)

/-- The concatenation of two arrays of coerced reals is the coerced real concatenation. -/
theorem cat_coe (r1 r2 : S8192x256.Idx → ℝ) (j : Fin 16384) (d : Fin 256) :
    cat (fun i => (r1 i : EReal)) (fun i => (r2 i : EReal)) j d = (catR r1 r2 j d : EReal) := by
  unfold cat catR
  split <;> rfl

/-- On arrays of coerced reals the normalised concatenation at (j, d) is the real normalised entry of row j of the real
    concatenation: x_d / max (√(∑ x²), floor). -/
theorem normT_coe (r1 r2 : S8192x256.Idx → ℝ) (j : Fin 16384) (d : Fin 256) :
    normT (fun i => (r1 i : EReal)) (fun i => (r2 i : EReal)) (ix2 j d)
      = (Cert.NormReal.nrm (catR r1 r2 j) d : EReal) := by
  rw [normT_apply]
  simp only [cat_coe]
  exact Cert.NormReal.div_norm_zero_add (catR r1 r2 j) d

/-- An array each of whose entries is a real is the coercion of its real parts. -/
theorem eq_coe_toReal {s : Shape} (x : s.Idx → EReal) (h : ∀ i, ∃ r : ℝ, x i = (r : EReal)) :
    x = fun i => ((x i).toReal : EReal) :=
  funext fun i => by
    obtain ⟨r, hr⟩ := h i
    rw [hr, EReal.toReal_coe]

/-- The same for arrays whose entries are known to be reals, the real arrays being their real parts. -/
theorem normT_of_real (x1 x2 : (⟨S8192x256, .f32⟩ : BufTy).Contents (Elt Ideal))
    (h1 : ∀ i, ∃ r : ℝ, x1 i = (r : EReal)) (h2 : ∀ i, ∃ r : ℝ, x2 i = (r : EReal)) (j : Fin 16384) (d : Fin 256) :
    normT x1 x2 (ix2 j d)
      = (Cert.NormReal.nrm (catR (fun i => (x1 i).toReal) (fun i => (x2 i).toReal) j) d : EReal) := by
  have h := normT_coe (fun i => (x1 i).toReal) (fun i => (x2 i).toReal) j d
  rwa [← eq_coe_toReal (s := S8192x256) x1 h1, ← eq_coe_toReal (s := S8192x256) x2 h2] at h

end Cert.KernelIdeal.HostPre

end
-- ==== Proof.PreReal.lean ====
/-
  Every entry of the three argument arrays is a real, read out of the precondition.

  The precondition states that, for each of the three arrays, the conjunction over every entry x of |x| < +∞ holds,
  and that the three conjunctions hold together. At the extended reals |x| is max x (−x), which is +∞ exactly at the two
  infinities; so |x| < +∞ says x is neither, that is, x is a real.
-/
import proofs.«144956_j83760452206739_2_alg».proof.Pre_finite_inputs
import Idealize.ShloMosaic.PureOps.Ideal.Laws
import Idealize.ShloMosaic.Lib.ReduceAll
import Idealize.ShloMosaic.Lib.ValueIdx

namespace Cert.PreReal

open Idealize.ShloMosaic Cert.Pre_finite_inputs

/-- A shape of rank zero has one index. -/
instance : Subsingleton S_.Idx := ⟨fun a b => funext fun d => d.elim0⟩

/-- The f32 word 0x7F800000 is +∞. -/
theorem ofBits_pos_inf : Ideal.ofBits .f32 0x7F800000#32 = (⊤ : EReal) := by
  simp [Ideal.ofBits, Ideal.ieee]

/-- An extended real whose absolute value max x (−x) is below +∞ is a real: at +∞ the maximum is +∞, at −∞ its
    negative is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison the precondition makes at one entry, read back: if "|x| < +∞" came out true, x is a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  rw [Ideal.cmpf_def, Ideal.hostAbsf_def, Ideal.absf_def, Ideal.ofBits_def, ofBits_pos_inf] at h
  by_contra hn
  simp [Ideal.cmp, hn] at h

/-- From the precondition to "every entry of each of the three arrays is a real". -/
theorem real_of_pre [Facts] (x0 x1 x2 : FVec Ideal S8192x256 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn, andi] at h0
  obtain ⟨h01, h2⟩ := IntOp.andi_eq_one.1 h0
  obtain ⟨h0', h1⟩ := IntOp.andi_eq_one.1 h01
  refine ⟨fun i => ?_, fun i => ?_, fun i => ?_⟩
  · exact real_of_cmp (x0 i) (Host.reduce_andi_all _ _ _ _ _ h0' i)
  · exact real_of_cmp (x1 i) (Host.reduce_andi_all _ _ _ _ _ h1 i)
  · exact real_of_cmp (x2 i) (Host.reduce_andi_all _ _ _ _ _ h2 i)

end Cert.PreReal
-- ==== Proof.KiTileRow.lean ====
/-
  One anchor row of a row tile, from its first column tile to the stored result.

  Along row tile q the kernel meets the eight column tiles b = 0 … 7 in turn. With κ the inverse temperature and, for
  real anchor rows A and real target rows T, the real score s (b, j) = (∑ d, A r d · T b j d) · κ of anchor row r against
  row j of column tile b:

  * the running sum of exponentials starts at 0 and gains ∑ j, exp (s (b, j) − κ) at tile b, so after the eight tiles it
    is 0 + ∑ over all (b, j);
  * the running label term starts at 0 and changes only at tile q / 2, where it gains the scores masked to
    1024 q + r = 2048 (q / 2) + j, whose one solution in the tile is j = 1024 (q % 2) + r: it ends as that score;
  * the result is (κ + log of the first) − the second.
-/
import proofs.«144956_j83760452206739_2_alg».proof.Proof.KiTile
import proofs.«144956_j83760452206739_2_alg».proof.Proof.KiPayloads
import proofs.«144956_j83760452206739_2_alg».proof.Proof.LibLseShift
import proofs.«144956_j83760452206739_2_alg».proof.Proof.LibNormReal

noncomputable section

open scoped BigOperators

namespace Cert.KernelIdeal.TileRow

open Cert.KernelIdeal Cert.KernelIdeal.Gen Cert.KernelIdeal.Payloads Idealize.ShloMosaic Idealize.ShloMosaic.ValueIdx

/-- The inverse temperature, as a real. -/
abbrev κr : ℝ := 268435456 / 13421773

/-- The real score of anchor row r against target row p.2 of column tile p.1. -/
def sc (A : Fin 1024 → Fin 256 → ℝ) (T : Fin 8 → Fin 2048 → Fin 256 → ℝ) (r : Fin 1024) (p : Fin 8 × Fin 2048) : ℝ :=
  (∑ d, A r d * T p.1 p.2 d) * κr

/-- The summand of row r's sum of exponentials. -/
def ex (A : Fin 1024 → Fin 256 → ℝ) (T : Fin 8 → Fin 2048 → Fin 256 → ℝ) (r : Fin 1024) (p : Fin 8 × Fin 2048) : EReal :=
  Ideal.exp ((sc A T r p : EReal) - ((κr : ℝ) : EReal))

/-! ## The scores of real rows -/

/-- With real entries on both sides the kernel's score is the coerced real score. -/
theorem score_real (a : Vec Ideal S1024x256 .bf16) (xs : ℕ → Vec Ideal S2048x256 .bf16)
    (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (k : ℕ) (hk : k < 8) (r : Fin 1024) (j : Fin 2048) :
    k0_pay4 (F := Ideal) a (xs k) (ix2 r j) = ((sc A T r (⟨k, hk⟩, j) : ℝ) : EReal) := by
  have e : ∑ d : Fin 256, a (ix2 r d) * xs k (ix2 j d) = ∑ d : Fin 256, (A r d : EReal) * (T ⟨k, hk⟩ j d : EReal) :=
    Finset.sum_congr rfl fun d _ => congrArg₂ (· * ·) (ha r d) (hx ⟨k, hk⟩ j d)
  rw [pay4_apply, e, Cert.NormReal.dot_real (A r) (T ⟨k, hk⟩ j), ← EReal.coe_mul]
  rfl

/-! ## The running sum of exponentials on one row -/

/-- After the first column tile: 0 plus the tile's sum. -/
theorem accL_zero_row (a : Vec Ideal S1024x256 .bf16) (xs : ℕ → Vec Ideal S2048x256 .bf16)
    (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (r : Fin 1024) :
    Body.accL a xs 0 (ix2 r (0 : Fin 1)) = (0 : EReal) + ∑ j : Fin 2048, ex A T r (⟨0, by norm_num⟩, j) := by
  show k0_pay6 (F := Ideal) a (xs 0) (k0_pay1 (F := Ideal)) (ix2 r (0 : Fin 1)) = _
  rw [pay6_apply, pay1_apply]
  refine congrArg ((0 : EReal) + ·) (Finset.sum_congr rfl fun j _ => ?_)
  rw [score_real a xs A T ha hx 0 (by norm_num) r j]
  rfl

/-- Each later column tile adds its own sum. -/
theorem accL_succ_row (a : Vec Ideal S1024x256 .bf16) (xs : ℕ → Vec Ideal S2048x256 .bf16)
    (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (k : ℕ) (hk : k + 1 < 8) (r : Fin 1024) :
    Body.accL a xs (k + 1) (ix2 r (0 : Fin 1))
      = Body.accL a xs k (ix2 r (0 : Fin 1)) + ∑ j : Fin 2048, ex A T r (⟨k + 1, hk⟩, j) := by
  rw [Body.accL_succ, pay6_apply]
  refine congrArg (Body.accL a xs k (ix2 r (0 : Fin 1)) + ·) (Finset.sum_congr rfl fun j _ => ?_)
  rw [score_real a xs A T ha hx (k + 1) hk r j]
  rfl

/-- After the eight column tiles: the sum, from zero, over every (tile, row) pair. -/
theorem accL_row (a : Vec Ideal S1024x256 .bf16) (xs : ℕ → Vec Ideal S2048x256 .bf16)
    (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (r : Fin 1024) :
    Body.accL a xs 7 (ix2 r (0 : Fin 1)) = (0 : EReal) + ∑ p : Fin 8 × Fin 2048, ex A T r p := by
  show Body.accL a xs (6 + 1) (ix2 r (0 : Fin 1)) = _
  rw [accL_succ_row a xs A T ha hx 6 (by norm_num) r, accL_succ_row a xs A T ha hx 5 (by norm_num) r,
    accL_succ_row a xs A T ha hx 4 (by norm_num) r, accL_succ_row a xs A T ha hx 3 (by norm_num) r,
    accL_succ_row a xs A T ha hx 2 (by norm_num) r, accL_succ_row a xs A T ha hx 1 (by norm_num) r,
    accL_succ_row a xs A T ha hx 0 (by norm_num) r, accL_zero_row a xs A T ha hx r]
  exact Cert.LseShift.sum_acc8_blocks (fun b => ∑ j : Fin 2048, ex A T r (b, j)) (ex A T r) (fun b => (zero_add _).symm)

/-! ## The running label term on one row -/

/-- One column tile's effect on row r's label term: at tile q / 2 it gains the tile's scores masked to the global
    diagonal; elsewhere nothing. -/
def dstep (A : Fin 1024 → Fin 256 → ℝ) (T : Fin 8 → Fin 2048 → Fin 256 → ℝ) (q : ℕ) (hq : q < 8) (r : Fin 1024)
    (b : Fin 8) (acc : EReal) : EReal :=
  if b = ⟨q / 2, by omega⟩ then
    acc + ((0 : EReal) + ∑ j : Fin 2048,
      (if q * 1024 + r.val = q / 2 * 2048 + j.val then (sc A T r (⟨q / 2, by omega⟩, j) : EReal) else 0))
  else acc

/-- The first column tile, from the zero the label term starts at. -/
theorem accD_zero_row (q : ℕ) (hq : q < 8) (a : Vec Ideal S1024x256 .bf16) (xs : ℕ → Vec Ideal S2048x256 .bf16)
    (is : ℕ → grid0.Coords) (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (his : ∀ b : Fin 8, ((is b.val) 0).val = q ∧ ((is b.val) 1).val = b.val) (r : Fin 1024) :
    Body.accD is (q / 2) a xs 0 (ix2 r (0 : Fin 1)) = dstep A T q hq r ⟨0, by norm_num⟩ 0 := by
  unfold dstep
  by_cases h : 0 = q / 2
  · have e0 : ((is 0) 0).val = q := (his ⟨0, by norm_num⟩).1
    have e1 : ((is 0) 1).val = 0 := (his ⟨0, by norm_num⟩).2
    have hb : (⟨0, by norm_num⟩ : Fin 8) = ⟨q / 2, by omega⟩ := Fin.ext h
    rw [Body.accD_zero_eq is (q / 2) a xs h, if_pos hb,
      pay5_apply_nat (is 0) a (xs 0) _ r (by rw [e0]; exact hq) (by rw [e1]; norm_num), pay2_apply]
    refine congrArg ((0 : EReal) + ·) ?_
    refine Eq.trans ?_ (zero_add _).symm
    refine Finset.sum_congr rfl fun j _ => ?_
    rw [e0, e1, score_real a xs A T ha hx 0 (by norm_num) r j, hb, h]
  · rw [Body.accD_zero_ne is (q / 2) a xs h, if_neg (fun e => h (congrArg Fin.val e)), pay2_apply]

/-- Each later column tile. -/
theorem accD_succ_row (q : ℕ) (hq : q < 8) (a : Vec Ideal S1024x256 .bf16) (xs : ℕ → Vec Ideal S2048x256 .bf16)
    (is : ℕ → grid0.Coords) (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (his : ∀ b : Fin 8, ((is b.val) 0).val = q ∧ ((is b.val) 1).val = b.val) (k : ℕ) (hk : k + 1 < 8) (r : Fin 1024) :
    Body.accD is (q / 2) a xs (k + 1) (ix2 r (0 : Fin 1))
      = dstep A T q hq r ⟨k + 1, hk⟩ (Body.accD is (q / 2) a xs k (ix2 r (0 : Fin 1))) := by
  unfold dstep
  by_cases h : k + 1 = q / 2
  · have e0 : ((is (k + 1)) 0).val = q := (his ⟨k + 1, hk⟩).1
    have e1 : ((is (k + 1)) 1).val = k + 1 := (his ⟨k + 1, hk⟩).2
    have hb : (⟨k + 1, hk⟩ : Fin 8) = ⟨q / 2, by omega⟩ := Fin.ext h
    rw [Body.accD_succ_eq is (q / 2) a xs k h, if_pos hb,
      pay5_apply_nat (is (k + 1)) a (xs (k + 1)) _ r (by rw [e0]; exact hq) (by rw [e1]; exact hk)]
    refine congrArg (Body.accD is (q / 2) a xs k (ix2 r (0 : Fin 1)) + ·) ?_
    refine Eq.trans ?_ (zero_add _).symm
    refine Finset.sum_congr rfl fun j _ => ?_
    rw [e0, e1, score_real a xs A T ha hx (k + 1) hk r j, hb, h]
  · rw [Body.accD_succ_ne is (q / 2) a xs k h, if_neg (fun e => h (congrArg Fin.val e))]

/-- After the eight column tiles the label term is the score on the global diagonal. -/
theorem accD_row (q : ℕ) (hq : q < 8) (a : Vec Ideal S1024x256 .bf16) (xs : ℕ → Vec Ideal S2048x256 .bf16)
    (is : ℕ → grid0.Coords) (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (his : ∀ b : Fin 8, ((is b.val) 0).val = q ∧ ((is b.val) 1).val = b.val) (r : Fin 1024) :
    Body.accD is (q / 2) a xs 7 (ix2 r (0 : Fin 1))
      = (sc A T r (⟨q / 2, by omega⟩, ⟨1024 * (q % 2) + r.val, by omega⟩) : EReal) := by
  have hr := r.isLt
  show Body.accD is (q / 2) a xs (6 + 1) (ix2 r (0 : Fin 1)) = _
  rw [accD_succ_row q hq a xs is A T ha hx his 6 (by norm_num) r, accD_succ_row q hq a xs is A T ha hx his 5 (by norm_num) r,
    accD_succ_row q hq a xs is A T ha hx his 4 (by norm_num) r, accD_succ_row q hq a xs is A T ha hx his 3 (by norm_num) r,
    accD_succ_row q hq a xs is A T ha hx his 2 (by norm_num) r, accD_succ_row q hq a xs is A T ha hx his 1 (by norm_num) r,
    accD_succ_row q hq a xs is A T ha hx his 0 (by norm_num) r, accD_zero_row q hq a xs is A T ha hx his r]
  exact Cert.LseShift.diag_acc8 (dstep A T q hq r) ⟨q / 2, by omega⟩
    (fun j : Fin 2048 => q * 1024 + r.val = q / 2 * 2048 + j.val)
    (fun j : Fin 2048 => (sc A T r (⟨q / 2, by omega⟩, j) : EReal))
    ⟨1024 * (q % 2) + r.val, by omega⟩ (by show q * 1024 + r.val = q / 2 * 2048 + (1024 * (q % 2) + r.val); omega)
    (fun j hj => Fin.ext (by
      have hj' : q * 1024 + r.val = q / 2 * 2048 + j.val := hj
      show j.val = 1024 * (q % 2) + r.val
      omega))
    (fun b acc => rfl)

/-! ## The row's result -/

/-- Row r of row tile q, after its eight column tiles: κ plus the logarithm of the sum of exp (score − κ) over every
    target row of every column tile, less the score on the global diagonal. -/
theorem tile_row (q : ℕ) (hq : q < 8) (a : Vec Ideal S1024x256 .bf16) (xs : ℕ → Vec Ideal S2048x256 .bf16)
    (is : ℕ → grid0.Coords) (A : Fin 1024 → Fin 256 → ℝ) (T : Fin 8 → Fin 2048 → Fin 256 → ℝ)
    (ha : ∀ r d, a (ix2 r d) = (A r d : EReal)) (hx : ∀ (b : Fin 8) j d, xs b.val (ix2 j d) = (T b j d : EReal))
    (his : ∀ b : Fin 8, ((is b.val) 0).val = q ∧ ((is b.val) 1).val = b.val) (r : Fin 1024) :
    k0_pay7 (F := Ideal) (Body.accL a xs 7) (Body.accD is (q / 2) a xs 7) (ix2 r (0 : Fin 1))
      = (((κr : ℝ) : EReal)
          + Ideal.log ((0 : EReal) + ∑ p : Fin 8 × Fin 2048, Ideal.exp ((sc A T r p : EReal) - ((κr : ℝ) : EReal))))
        - (sc A T r (⟨q / 2, by omega⟩, ⟨1024 * (q % 2) + r.val, by omega⟩) : EReal) := by
  rw [pay7_apply, accL_row a xs A T ha hx r, accD_row q hq a xs is A T ha hx his r]
  rfl

end Cert.KernelIdeal.TileRow

end
-- ==== Proof.KiValue.lean ====
/-
  The kernel program's result as the loss of the specification.

  Row i of the array of row losses lies in row tile q = i / 1024 at position r = i mod 1024; the tile's last point
  writes (κ + log l) − d there, l the sum over the eight column blocks of the exponentials of the shifted scores and d
  the score on the diagonal. The tile's anchors are the normalised anchor rows 1024 q + r, its targets in block b the
  normalised target rows 2048 b + j, so the scores are the specification's; the eight blocks of 2048 columns are the
  16384 columns, and the diagonal column 2048 (q / 2) + 1024 (q mod 2) + r is column i.
-/
import proofs.«144956_j83760452206739_2_alg».proof.Proof.Spec
import proofs.«144956_j83760452206739_2_alg».proof.Proof.KiBlocks
import proofs.«144956_j83760452206739_2_alg».proof.Proof.KiPayloads
import proofs.«144956_j83760452206739_2_alg».proof.Proof.KiHostPre
import proofs.«144956_j83760452206739_2_alg».proof.Proof.PreReal
import proofs.«144956_j83760452206739_2_alg».proof.Proof.KiTileRow

set_option maxRecDepth 16384

noncomputable section

open scoped BigOperators

namespace Cert.KernelIdeal.Value'

open Cert.KernelIdeal
open Cert.KernelIdeal.Gen (V V0 iblk k0_pay1 k0_pay2 k0_pay3 k0_pay4 k0_pay5 k0_pay6 k0_pay7)
open Idealize.ShloMosaic Idealize.ShloMosaic.TcCoe Idealize.ShloMosaic.ValueIdx
open Cert.Spec (κr)

/-- The eight blocks of 2048 columns are the 16384 columns: (b, j) ↦ 2048 b + j. -/
def blockEquiv : Fin 8 × Fin 2048 ≃ Fin 16384 where
  toFun p := ⟨2048 * p.1.val + p.2.val, by have := p.1.isLt; have := p.2.isLt; omega⟩
  invFun j := (⟨j.val / 2048, by have := j.isLt; omega⟩, ⟨j.val % 2048, Nat.mod_lt _ (by norm_num)⟩)
  left_inv p := by
    rcases p with ⟨b, k⟩
    have hb := b.isLt
    have hk := k.isLt
    refine Prod.ext (Fin.ext ?_) (Fin.ext ?_)
    · show (2048 * b.val + k.val) / 2048 = b.val
      omega
    · show (2048 * b.val + k.val) % 2048 = k.val
      omega
  right_inv j := by
    refine Fin.ext ?_
    show 2048 * (j.val / 2048) + j.val % 2048 = j.val
    omega

variable (m : (ℓ : Loc nD τ sig) → Buf (Elt Ideal) ℓ) (c : Dev nD)

/-- The normalised anchors of row tile q at (r, d): the specification's normalised anchor row 1024 q + r. -/
theorem anchor_entry (x0 : (⟨S8192x256, .f32⟩ : BufTy).Contents (Elt Ideal)) (hx0 : m ((c : Thread nD τ).loc main_arg0) = x0)
    (h0 : ∀ i, ∃ r : ℝ, x0 i = (r : EReal)) (q : ℕ) (hq : q < 8) (r : Fin 1024) (d : Fin 256) :
    k0_pay3 (F := Ideal) (Body.blk0 m c (8 * q)) (ix2 r d)
      = (Cert.NormReal.nrm (Cert.Spec.anchR x0 h0 ⟨1024 * q + r.val, by have := r.isLt; omega⟩) d : EReal) := by
  have hn : 8 * q < cfg0.N := by rw [Body.N_eq]; omega
  have hb : ∀ k : Fin 256, Body.blk0 m c (8 * q) (ix2 r k)
      = (Cert.Spec.anchR x0 h0 ⟨1024 * q + r.val, by have := r.isLt; omega⟩ k : EReal) := by
    intro k
    rw [Body.blk0_of_lt m c (8 * q) hn,
      Body.iblk0_apply m c ⟨8 * q, hn⟩ (ix2 r k) (ix2 (⟨1024 * q + r.val, by have := r.isLt; omega⟩ : Fin 8192) k)
        (by show 1024 * q + r.val = 1024 * (8 * q / 8) + r.val; omega) rfl,
      Cert.KernelIdeal.Gen.V_main_arg0, hx0]
    exact Cert.Spec.realOf_spec x0 h0 _
  rw [Payloads.pay3_apply]
  simp only [hb]
  exact Cert.NormReal.div_norm _ d

/-- The targets of column block b at (j, d): the specification's normalised target row 2048 b + j. -/
theorem target_entry (x1 x2 : (⟨S8192x256, .f32⟩ : BufTy).Contents (Elt Ideal))
    (hx1 : m ((c : Thread nD τ).loc main_arg1) = x1) (hx2 : m ((c : Thread nD τ).loc main_arg2) = x2)
    (h1 : ∀ i, ∃ r : ℝ, x1 i = (r : EReal)) (h2 : ∀ i, ∃ r : ℝ, x2 i = (r : EReal))
    (q : ℕ) (hq : q < 8) (b : Fin 8) (j : Fin 2048) (d : Fin 256) :
    Body.blk1 m c (8 * q + b.val) (ix2 j d)
      = (Cert.NormReal.nrm (Cert.Spec.targR x1 x2 h1 h2 ⟨2048 * b.val + j.val, by have := b.isLt; have := j.isLt; omega⟩) d : EReal) := by
  have hb := b.isLt
  have hn : 8 * q + b.val < cfg0.N := by rw [Body.N_eq]; omega
  rw [Body.blk1_of_lt m c (8 * q + b.val) hn,
    Body.iblk1_apply m c ⟨8 * q + b.val, hn⟩ (ix2 j d)
      (ix2 (⟨2048 * b.val + j.val, by have := j.isLt; omega⟩ : Fin 16384) d)
      (by show 2048 * b.val + j.val = 2048 * ((8 * q + b.val) % 8) + j.val; omega) rfl,
    HostPre.V_main_v9, hx1, hx2, HostPre.normT_of_real x1 x2 h1 h2]
  rfl

/-- The coordinates of the point at column block b of row tile q are (q, b). -/
theorem coords_entry (q : ℕ) (hq : q < 8) (b : Fin 8) :
    ((Body.crd (8 * q + b.val)) 0).val = q ∧ ((Body.crd (8 * q + b.val)) 1).val = b.val := by
  have hb := b.isLt
  have hn : 8 * q + b.val < cfg0.N := by rw [Body.N_eq]; omega
  rw [Body.crd_of_lt _ hn]
  obtain ⟨e0, e1⟩ := Body.coords_facts ⟨8 * q + b.val, hn⟩
  refine ⟨e0.trans ?_, e1.trans ?_⟩
  · show (8 * q + b.val) / 8 = q
    omega
  · show (8 * q + b.val) % 8 = b.val
    omega

/-- Row y of the array of row losses the region leaves: the shifted log-sum-exp of row y's scores against all 16384
    targets, less the score at the label column. -/
theorem outG_apply_of (x0 x1 x2 : (⟨S8192x256, .f32⟩ : BufTy).Contents (Elt Ideal))
    (hx0 : m ((c : Thread nD τ).loc main_arg0) = x0) (hx1 : m ((c : Thread nD τ).loc main_arg1) = x1)
    (hx2 : m ((c : Thread nD τ).loc main_arg2) = x2)
    (h0 : ∀ i, ∃ r : ℝ, x0 i = (r : EReal)) (h1 : ∀ i, ∃ r : ℝ, x1 i = (r : EReal)) (h2 : ∀ i, ∃ r : ℝ, x2 i = (r : EReal))
    (y : S8192x1.Idx) :
    Body.outG m c y
      = (((κr : ℝ) : EReal) + Ideal.log ((0 : EReal) + ∑ j : Fin 16384,
            Ideal.exp ((Cert.Spec.S (Cert.Spec.anchR x0 h0) (Cert.Spec.targR x1 x2 h1 h2) (y 0) j : EReal) - ((κr : ℝ) : EReal))))
        - (Cert.Spec.S (Cert.Spec.anchR x0 h0) (Cert.Spec.targR x1 x2 h1 h2) (y 0) (Cert.Spec.dcol (y 0)) : EReal) := by
  have hy0 : (y 0).val < 8192 := (y 0).isLt
  have hq : (y 0).val / 1024 < 8 := by omega
  have hn : 8 * ((y 0).val / 1024) + 7 < cfg0.N := by rw [Body.N_eq]; omega
  have hrlt : (y 0).val % 1024 % 1024 < 1024 := Nat.mod_lt _ (by norm_num)
  have hi : ∀ hlt, (⟨1024 * ((y 0).val / 1024) + (y 0).val % 1024 % 1024, hlt⟩ : Fin 8192) = y 0 := fun hlt =>
    Fin.ext (by show 1024 * ((y 0).val / 1024) + (y 0).val % 1024 % 1024 = (y 0).val; omega)
  show Body.outN m c (8 * ((y 0).val / 1024) + 7) (ix2 (⟨(y 0).val % 1024 % 1024, hrlt⟩ : Fin 1024) (0 : Fin 1)) = _
  rw [Body.outN_of_lt m c _ hn, Body.out_tile m c ((y 0).val / 1024) hq hn,
    TileRow.tile_row ((y 0).val / 1024) hq _ _ _
      (fun r d => Cert.NormReal.nrm (Cert.Spec.anchR x0 h0 ⟨1024 * ((y 0).val / 1024) + r.val, by have := r.isLt; omega⟩) d)
      (fun b j d => Cert.NormReal.nrm (Cert.Spec.targR x1 x2 h1 h2 ⟨2048 * b.val + j.val, by have := b.isLt; have := j.isLt; omega⟩) d)
      (fun r d => anchor_entry m c x0 hx0 h0 _ hq r d)
      (fun b j d => target_entry m c x1 x2 hx1 hx2 h1 h2 _ hq b j d)
      (fun b => coords_entry _ hq b) ⟨(y 0).val % 1024 % 1024, hrlt⟩]
  have hsc : ∀ p : Fin 8 × Fin 2048,
      TileRow.sc
        (fun r d => Cert.NormReal.nrm (Cert.Spec.anchR x0 h0 ⟨1024 * ((y 0).val / 1024) + r.val, by have := r.isLt; omega⟩) d)
        (fun b j d => Cert.NormReal.nrm (Cert.Spec.targR x1 x2 h1 h2 ⟨2048 * b.val + j.val, by have := b.isLt; have := j.isLt; omega⟩) d)
        ⟨(y 0).val % 1024 % 1024, hrlt⟩ p
      = Cert.Spec.S (Cert.Spec.anchR x0 h0) (Cert.Spec.targR x1 x2 h1 h2) (y 0) (blockEquiv p) := by
    intro p
    unfold TileRow.sc Cert.Spec.S
    simp only [hi]
    rfl
  have hd : blockEquiv ((⟨(y 0).val / 1024 / 2, by omega⟩ : Fin 8),
      (⟨1024 * ((y 0).val / 1024 % 2) + (y 0).val % 1024 % 1024, by omega⟩ : Fin 2048)) = Cert.Spec.dcol (y 0) :=
    Fin.ext (by
      show 2048 * ((y 0).val / 1024 / 2) + (1024 * ((y 0).val / 1024 % 2) + (y 0).val % 1024 % 1024) = (y 0).val
      omega)
  simp only [hsc]
  rw [hd, Equiv.sum_comp blockEquiv (fun j => Ideal.exp
    ((Cert.Spec.S (Cert.Spec.anchR x0 h0) (Cert.Spec.targR x1 x2 h1 h2) (y 0) j : EReal) - ((κr : ℝ) : EReal)))]

/-- The same with the three arrays named as the program's argument arrays. -/
theorem outG_apply
    (h0 : ∀ i, ∃ r : ℝ, (m ((c : Thread nD τ).loc main_arg0) : S8192x256.Idx → EReal) i = (r : EReal))
    (h1 : ∀ i, ∃ r : ℝ, (m ((c : Thread nD τ).loc main_arg1) : S8192x256.Idx → EReal) i = (r : EReal))
    (h2 : ∀ i, ∃ r : ℝ, (m ((c : Thread nD τ).loc main_arg2) : S8192x256.Idx → EReal) i = (r : EReal))
    (y : S8192x1.Idx) :
    Body.outG m c y
      = (((κr : ℝ) : EReal) + Ideal.log ((0 : EReal) + ∑ j : Fin 16384,
            Ideal.exp ((Cert.Spec.S (Cert.Spec.anchR (m ((c : Thread nD τ).loc main_arg0)) h0)
                (Cert.Spec.targR (m ((c : Thread nD τ).loc main_arg1)) (m ((c : Thread nD τ).loc main_arg2)) h1 h2) (y 0) j : EReal)
              - ((κr : ℝ) : EReal))))
        - (Cert.Spec.S (Cert.Spec.anchR (m ((c : Thread nD τ).loc main_arg0)) h0)
            (Cert.Spec.targR (m ((c : Thread nD τ).loc main_arg1)) (m ((c : Thread nD τ).loc main_arg2)) h1 h2) (y 0)
            (Cert.Spec.dcol (y 0)) : EReal) :=
  outG_apply_of m c _ _ _ rfl rfl rfl h0 h1 h2 y

/-- The operations after the region, applied to the array of row losses: the sum of all row losses from zero, divided
    by 8192 — the specification's loss as the kernel's program reaches it. -/
theorem tailK_outG_of (x0 x1 x2 : (⟨S8192x256, .f32⟩ : BufTy).Contents (Elt Ideal))
    (hx0 : m ((c : Thread nD τ).loc main_arg0) = x0) (hx1 : m ((c : Thread nD τ).loc main_arg1) = x1)
    (hx2 : m ((c : Thread nD τ).loc main_arg2) = x2)
    (h0 : ∀ i, ∃ r : ℝ, x0 i = (r : EReal)) (h1 : ∀ i, ∃ r : ℝ, x1 i = (r : EReal)) (h2 : ∀ i, ∃ r : ℝ, x2 i = (r : EReal)) :
    Body.tailK (F := Ideal) (Body.outG m c)
      = fun _ => Cert.Spec.kernelLoss (Cert.Spec.anchR x0 h0) (Cert.Spec.targR x1 x2 h1 h2) := by
  funext i
  unfold Body.tailK
  show Ideal.div (Ideal.hostReduceAdd _ (Body.outG m c) (Ideal.ofBits .f32 0x00000000#32) i)
      (Ideal.ofBits .f32 0x46000000#32) = _
  rw [Ideal.hostReduceAdd_total _ (fun b => b.elim0), Ideal.ofBits_zero_f32]
  unfold Cert.Spec.kernelLoss
  refine congrArg (fun s => Ideal.div ((0 : EReal) + s) (Ideal.ofBits .f32 0x46000000#32)) ?_
  exact Finset.sum_congr rfl fun y _ => outG_apply_of m c x0 x1 x2 hx0 hx1 hx2 h0 h1 h2 y

/-- The same with the three arrays named as the program's argument arrays. -/
theorem tailK_outG
    (h0 : ∀ i, ∃ r : ℝ, (m ((c : Thread nD τ).loc main_arg0) : S8192x256.Idx → EReal) i = (r : EReal))
    (h1 : ∀ i, ∃ r : ℝ, (m ((c : Thread nD τ).loc main_arg1) : S8192x256.Idx → EReal) i = (r : EReal))
    (h2 : ∀ i, ∃ r : ℝ, (m ((c : Thread nD τ).loc main_arg2) : S8192x256.Idx → EReal) i = (r : EReal)) :
    Body.tailK (F := Ideal) (Body.outG m c)
      = fun _ => Cert.Spec.kernelLoss (Cert.Spec.anchR (m ((c : Thread nD τ).loc main_arg0)) h0)
          (Cert.Spec.targR (m ((c : Thread nD τ).loc main_arg1)) (m ((c : Thread nD τ).loc main_arg2)) h1 h2) :=
  tailK_outG_of m c _ _ _ rfl rfl rfl h0 h1 h2

end Cert.KernelIdeal.Value'

end
-- ==== Proof.RefTerms.lean ====
/-
  What the reference computes, as named terms of its three argument arrays.

  The loss is the mean over the 8192 anchor rows of minus the log-probability of the row's own positive among
  the 16384 stacked positives and negatives: the rows of the anchors and of the stacked targets are divided by
  their Euclidean norms (floored at 1e-12), `scores` is their matrix of inner products divided by the
  temperature, `logp` its row-wise log-softmax (shifted by the row maximum), `picked` the entry of row `i` at
  column `i` (the gather at the labels `0 … 8191`, with the library's index normalisation and bounds test
  around it), and `loss` minus the sum of that column divided by 8192. Each definition is the composition of
  the operations as the program names them, nothing simplified.
-/
import proofs.«144956_j83760452206739_2_alg».proof.Proof.Gen.ReferenceIdeal

noncomputable section

namespace Cert.ReferenceIdeal.HandRun

open Cert.ReferenceIdeal Cert.ReferenceIdeal.Gen Idealize.ShloMosaic

variable {F : FTy → Type} [FloatOps F]

/-- The positives stacked over the negatives: 16384 rows. -/
def targets (p n : FVec F S8192x256 .f32) : FVec F S16384x256 .f32 :=
  concatenate S16384x256 0 [⟨S8192x256, p⟩, ⟨S8192x256, n⟩] concatenates_S8192x256_S8192x256_S16384x256_d0

/-- The floor of a row's norm, `max(sqrt(Σ x²), 1e-12)`, as a column: 8192 rows. -/
def normCol8192 (a : FVec F S8192x256 .f32) : FVec F S8192x1 .f32 :=
  maximumf
    (Host.sqrt (broadcastInDim S8192x1 ![0] bcast_S8192_S8192x1_0
      (Host.reduceAdd (mulf a a) (constant (F := F) S_ .f32 0x00000000#32) reducesTo_S8192x256_S8192_d1 h_S_)))
    (broadcastInDim S8192x1 ![] bcast_S_S8192x1 (constant (F := F) S_ .f32 0x2B8CBCCC#32))

/-- Each of the 8192 rows divided by the floor of its norm. -/
def unit8192 (a : FVec F S8192x256 .f32) : FVec F S8192x256 .f32 :=
  Host.divf a (broadcastInDim S8192x256 ![0, 1] bcast_S8192x1_S8192x256_0_1 (normCol8192 a))

/-- The floor of a row's norm as a column: 16384 rows. -/
def normCol16384 (t : FVec F S16384x256 .f32) : FVec F S16384x1 .f32 :=
  maximumf
    (Host.sqrt (broadcastInDim S16384x1 ![0] bcast_S16384_S16384x1_0
      (Host.reduceAdd (mulf t t) (constant (F := F) S_ .f32 0x00000000#32) reducesTo_S16384x256_S16384_d1 h_S_)))
    (broadcastInDim S16384x1 ![] bcast_S_S16384x1 (constant (F := F) S_ .f32 0x2B8CBCCC#32))

/-- Each of the 16384 rows divided by the floor of its norm. -/
def unit16384 (t : FVec F S16384x256 .f32) : FVec F S16384x256 .f32 :=
  Host.divf t (broadcastInDim S16384x256 ![0, 1] bcast_S16384x1_S16384x256_0_1 (normCol16384 t))

/-- The scores: the unit anchors against the unit targets (contracted over the 256 features), divided by the
    temperature (the f32 word nearest 0.05). -/
def scores (a p n : FVec F S8192x256 .f32) : FVec F S8192x16384 .f32 :=
  Host.divf
    (Host.dotGeneral dot_S8192x256_S256x16384_S8192x16384_1_0_0_1_n_n none (unit8192 a)
      (transpose S256x16384 [1, 0] (unit16384 (targets p n)) transposes_S16384x256_S256x16384_1_0))
    (broadcastInDim S8192x16384 ![] bcast_S_S8192x16384 (constant (F := F) S_ .f32 0x3D4CCCCD#32))

/-- A row's maximum (from minus infinity, and once more against minus infinity), as a vector over the rows. -/
def rowMax (s : FVec F S8192x16384 .f32) : FVec F S8192 .f32 :=
  maximumf (broadcastInDim S8192 ![] bcast_S_S8192 (constant (F := F) S_ .f32 0xFF800000#32))
    (Host.reduce FloatOps.maximumf s (constant (F := F) S_ .f32 0xFF800000#32) reducesTo_S8192x16384_S8192_d1 h_S_)

/-- The scores minus their row's maximum. -/
def shifted (s : FVec F S8192x16384 .f32) : FVec F S8192x16384 .f32 :=
  subf s (broadcastInDim S8192x16384 ![0, 1] bcast_S8192x1_S8192x16384_0_1
    (broadcastInDim S8192x1 ![0] bcast_S8192_S8192x1_0 (rowMax s)))

/-- The logarithm of a row's sum of exponentials of the shifted scores, as a column. -/
def logSumExp (s : FVec F S8192x16384 .f32) : FVec F S8192x1 .f32 :=
  Host.log (broadcastInDim S8192x1 ![0] bcast_S8192_S8192x1_0
    (Host.reduceAdd (Host.exp (shifted s)) (constant (F := F) S_ .f32 0x00000000#32) reducesTo_S8192x16384_S8192_d1 h_S_))

/-- The row-wise log-softmax of the scores. -/
def logp (s : FVec F S8192x16384 .f32) : FVec F S8192x16384 .f32 :=
  subf (shifted s) (broadcastInDim S8192x16384 ![0, 1] bcast_S8192x1_S8192x16384_0_1 (logSumExp s))

/-- The labels: row `i`'s is `i`, as a column. -/
def labels : IVec S8192x1 32 :=
  broadcastInDim S8192x1 ![0] bcast_S8192_S8192x1_0 (iotaInDim S8192 32 0)

/-- The labels as gather indices: a negative one moved up by 16384 (none is), reshaped to `8192×1×1`. -/
def gatherIdx : IVec S8192x1x1 32 :=
  shapeCast S8192x1x1
    (select (cmpi .slt labels (broadcastInDim S8192x1 ![] bcast_S_S8192x1 (constantI S_ 32 0#32)))
      (addi labels (broadcastInDim S8192x1 ![] bcast_S_S8192x1 (constantI S_ 32 16384#32)))
      labels)
    shapeCasts_S8192x1_S8192x1x1

/-- Whether a row's index is within `0 … 16383` (every one is). -/
def inBounds : IVec S8192x1 1 :=
  Host.reduce IntOp.andi
    (andi (cmpi .sge gatherIdx (broadcastInDim S8192x1x1 ![] bcast_S_S8192x1x1 (constantI S_ 32 0#32)))
      (cmpi .sle gatherIdx
        (broadcastInDim S8192x1x1 ![0, 1, 2] bcast_S1x1x1_S8192x1x1_0_1_2
          (broadcastInDim S1x1x1 ![2] bcast_S1_S1x1x1_2 (constantI S1 32 16383#32)))))
    (constantI S_ 1 1#1) reducesTo_S8192x1x1_S8192x1_d2 h_S_

/-- Row `i`'s entry at its label, or the not-a-number filler where the index is out of bounds. -/
def picked (lp : FVec F S8192x16384 .f32) : FVec F S8192x1 .f32 :=
  select inBounds
    (Host.gather gather_S8192x16384_S8192x1x1_S8192x1_n_1_0_0_1_2_11 lp gatherIdx)
    (broadcastInDim S8192x1 ![] bcast_S_S8192x1 (constant (F := F) S_ .f32 0x7FC00000#32))

/-- Minus the mean of the picked column: its sum divided by 8192, negated. -/
def loss (pk : FVec F S8192x1 .f32) : FVec F S_ .f32 :=
  Host.negf
    (Host.divf (Host.reduceAdd pk (constant (F := F) S_ .f32 0x00000000#32) reducesTo_S8192x1_S_d0_1 h_S_)
      (constant (F := F) S_ .f32 0x46000000#32))

/-- The reference's result as a function of its three argument arrays. -/
def result (a p n : FVec F S8192x256 .f32) : FVec F S_ .f32 :=
  loss (picked (logp (scores a p n)))

end Cert.ReferenceIdeal.HandRun

end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.RefStages.lean ====
/-
  The reference's run with its result named, read back in four stages.

  The seventy operations are cut where the program's own structure cuts them: the twenty-six that end at the
  scores, the fifteen of the log-softmax, the twenty-four that end at the picked column (the labels and the
  gather at them), the five of the mean and the negation. The contents a line leaves are the fold of its
  operations' results, so the whole line's are the last stage's from what the third leaves, and so on back to the
  launch contents; each stage is read back once, from ARBITRARY contents, at the one buffer the next stage reads,
  as the named term of RefTerms: no term is deeper than one stage.
-/
import proofs.«144956_j83760452206739_2_alg».proof.Proof.RefRun
import proofs.«144956_j83760452206739_2_alg».proof.Proof.RefTerms
import proofs.«144956_j83760452206739_2_alg».proof.Proof.LibStages

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- Operations 1–26: the rows' norms, the unit rows, their inner products, the division by the temperature. -/
abbrev opsA : List (HloOp τ sig (Elt F)) :=
  [ binary main_arg1 main_arg2 main_v0 (fun a b => concatenate S16384x256 0 [⟨S8192x256, a⟩, ⟨S8192x256, b⟩] concatenates_S8192x256_S8192x256_S16384x256_d0),
    binary main_arg0 main_arg0 main_v1 mulf,
    nullary main_cst (constant S_ .f32 0x00000000#32),
    binary main_v1 main_cst main_v2 (fun x v => Host.reduceAdd x v reducesTo_S8192x256_S8192_d1 h_S_),
    unary main_v2 main_v3 (broadcastInDim S8192x1 ![0] bcast_S8192_S8192x1_0),
    unary main_v3 main_v4 Host.sqrt,
    nullary main_cst_0 (constant S_ .f32 0x2B8CBCCC#32),
    unary main_cst_0 main_v5 (broadcastInDim S8192x1 ![] bcast_S_S8192x1),
    binary main_v4 main_v5 main_v6 maximumf,
    unary main_v6 main_v7 (broadcastInDim S8192x256 ![0, 1] bcast_S8192x1_S8192x256_0_1),
    binary main_arg0 main_v7 main_v8 Host.divf,
    binary main_v0 main_v0 main_v9 mulf,
    nullary main_cst_1 (constant S_ .f32 0x00000000#32),
    binary main_v9 main_cst_1 main_v10 (fun x v => Host.reduceAdd x v reducesTo_S16384x256_S16384_d1 h_S_),
    unary main_v10 main_v11 (broadcastInDim S16384x1 ![0] bcast_S16384_S16384x1_0),
    unary main_v11 main_v12 Host.sqrt,
    nullary main_cst_2 (constant S_ .f32 0x2B8CBCCC#32),
    unary main_cst_2 main_v13 (broadcastInDim S16384x1 ![] bcast_S_S16384x1),
    binary main_v12 main_v13 main_v14 maximumf,
    unary main_v14 main_v15 (broadcastInDim S16384x256 ![0, 1] bcast_S16384x1_S16384x256_0_1),
    binary main_v0 main_v15 main_v16 Host.divf,
    unary main_v16 main_v17 (transpose S256x16384 [1, 0] · transposes_S16384x256_S256x16384_1_0),
    binary main_v8 main_v17 main_v18 (fun l r => Host.dotGeneral dot_S8192x256_S256x16384_S8192x16384_1_0_0_1_n_n none l r),
    nullary main_cst_3 (constant S_ .f32 0x3D4CCCCD#32),
    unary main_cst_3 main_v19 (broadcastInDim S8192x16384 ![] bcast_S_S8192x16384),
    binary main_v18 main_v19 main_v20 Host.divf ]

/-- Operations 27–41: `log_softmax` of the scores over its call's buffers. -/
abbrev opsB : List (HloOp τ sig (Elt F)) :=
  [ TRef.nullary main_call0.cst (constant S_ .f32 0xFF800000#32),
    TRef.binary (.of (T := ⟨S8192x16384, .f32⟩) main_v20) main_call0.cst main_call0.v0 (fun x v => Host.reduce FloatOps.maximumf x v reducesTo_S8192x16384_S8192_d1 h_S_),
    TRef.nullary main_call0.cst_0 (constant S_ .f32 0xFF800000#32),
    TRef.unary main_call0.cst_0 main_call0.v1 (broadcastInDim S8192 ![] bcast_S_S8192),
    TRef.binary main_call0.v1 main_call0.v0 main_call0.v2 maximumf,
    TRef.unary main_call0.v2 main_call0.v3 (broadcastInDim S8192x1 ![0] bcast_S8192_S8192x1_0),
    TRef.unary main_call0.v3 main_call0.v4 (broadcastInDim S8192x16384 ![0, 1] bcast_S8192x1_S8192x16384_0_1),
    TRef.binary (.of (T := ⟨S8192x16384, .f32⟩) main_v20) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8192x16384_S8192_d1 h_S_),
    TRef.unary main_call0.v7 main_call0.v8 (broadcastInDim S8192x1 ![0] bcast_S8192_S8192x1_0),
    TRef.unary main_call0.v8 main_call0.v9 Host.log,
    TRef.unary main_call0.v9 main_call0.v10 (broadcastInDim S8192x16384 ![0, 1] bcast_S8192x1_S8192x16384_0_1),
    TRef.binary main_call0.v5 main_call0.v10 main_call0.v11 subf ]

/-- Operations 42–65: the labels, and `take_along_axis` of the log-probabilities at them over its call's buffers. -/
abbrev opsC : List (HloOp τ sig (Elt F)) :=
  [ nullary main_v22 (iotaInDim S8192 32 0),
    unary main_v22 main_v23 (broadcastInDim S8192x1 ![0] bcast_S8192_S8192x1_0),
    TRef.nullary main_call1.c (constantI S_ 32 0#32),
    TRef.unary main_call1.c main_call1.v0 (broadcastInDim S8192x1 ![] bcast_S_S8192x1),
    TRef.binary (.of (T := ⟨S8192x1, .i32⟩) main_v23) main_call1.v0 main_call1.v1 (cmpi .slt),
    TRef.nullary main_call1.c_0 (constantI S_ 32 16384#32),
    TRef.unary main_call1.c_0 main_call1.v2 (broadcastInDim S8192x1 ![] bcast_S_S8192x1),
    TRef.binary (.of (T := ⟨S8192x1, .i32⟩) main_v23) main_call1.v2 main_call1.v3 addi,
    TRef.ternary main_call1.v1 main_call1.v3 (.of (T := ⟨S8192x1, .i32⟩) main_v23) main_call1.v4 select,
    TRef.reshape main_call1.v4 main_call1.v5 rfl shapeCasts_S8192x1_S8192x1x1,
    TRef.nullary main_call1.c_1 (constantI S1 32 16383#32),
    TRef.nullary main_call1.c_2 (constantI S_ 32 0#32),
    TRef.unary main_call1.c_2 main_call1.v6 (broadcastInDim S8192x1x1 ![] bcast_S_S8192x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8192x1x1 ![0, 1, 2] bcast_S1x1x1_S8192x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1x1_S8192x1_d2 h_S_),
    TRef.binary (.of (T := ⟨S8192x16384, .f32⟩) main_v21) main_call1.v5 main_call1.v13 (fun x i => Host.gather gather_S8192x16384_S8192x1x1_S8192x1_n_1_0_0_1_2_11 x i),
    TRef.nullary main_call1.cst (constant S_ .f32 0x7FC00000#32),
    TRef.unary main_call1.cst main_call1.v14 (broadcastInDim S8192x1 ![] bcast_S_S8192x1),
    TRef.ternary main_call1.v12 main_call1.v13 main_call1.v14 main_call1.v15 select ]

/-- Operations 66–70: the picked column's sum, its division by the batch size, the negation. -/
abbrev opsD : List (HloOp τ sig (Elt F)) :=
  [ nullary main_cst_4 (constant S_ .f32 0x00000000#32),
    binary main_v24 main_cst_4 main_v25 (fun x v => Host.reduceAdd x v reducesTo_S8192x1_S_d0_1 h_S_),
    nullary main_cst_5 (constant S_ .f32 0x46000000#32),
    binary main_v25 main_cst_5 main_v26 Host.divf,
    unary main_v26 main_v27 Host.negf ]

/-- The line is its four stages in order. -/
theorem ops_split : (ops : List (HloOp τ sig (Elt F))) = opsA ++ (opsB ++ (opsC ++ opsD)) := rfl

/-- The contents the whole line leaves: each stage's, from what the stage before leaves. -/
theorem after_ops (V : Valuation τ sig (Elt F)) :
    after ops V = after opsD (after opsC (after opsB (after opsA V))) := by
  rw [ops_split, after_append, after_append, after_append]

/-! ### Typed references' transports

A callee's operation reads an operand's contents at the tensor value's type and writes its result back at the
buffer's own: two transports along the equation "the buffer's type is the value's". Written then read at one
reference they cancel (`ofBuf_toBuf`, for any reference); at a literal reference each is the identity, stated
below for the few that stand alone at a stage's ends (over a variable, so that nothing is compared but the
reference's type). -/

theorem ofBuf_toBuf {T : BufTy} (x : TRef sig T) (v : T.Contents (Elt F)) :
    x.ofBuf (x.toBuf (Val := Elt F) v) = v := by
  obtain ⟨r, rfl, h2, h3⟩ := x
  rfl

theorem ofBuf_v20 (v : (main_v20 : DevRef τ sig).ty.Contents (Elt F)) :
    (TRef.of (T := ⟨S8192x16384, .f32⟩) main_v20).ofBuf v = v := rfl
theorem ofBuf_v21 (v : (main_v21 : DevRef τ sig).ty.Contents (Elt F)) :
    (TRef.of (T := ⟨S8192x16384, .f32⟩) main_v21).ofBuf v = v := rfl
theorem ofBuf_v23 (v : (main_v23 : DevRef τ sig).ty.Contents (Elt F)) :
    (TRef.of (T := ⟨S8192x1, .i32⟩) main_v23).ofBuf v = v := rfl
theorem toBuf_v21 (y : FVec F S8192x16384 .f32) : (main_call0.v11).toBuf (Val := Elt F) y = y := rfl
theorem toBuf_v24 (y : FVec F S8192x1 .f32) : (main_call1.v15).toBuf (Val := Elt F) y = y := rfl
theorem toBuf_call1_v4 (y : IVec S8192x1 32) : (main_call1.v4).toBuf (Val := Elt F) y = y := rfl
theorem ofBuf_call1_v5 (v : (main_call1_v5 : DevRef τ sig).ty.Contents (Elt F)) :
    (main_call1.v5).ofBuf v = v := rfl

/-- The first stage leaves the scores of the three argument arrays at `%20`'s buffer. -/
theorem stageA (V : Valuation τ sig (Elt F)) :
    after opsA V (main_v20 : DevRef τ sig)
      = scores (V (main_arg0 : DevRef τ sig)) (V (main_arg1 : DevRef τ sig)) (V (main_arg2 : DevRef τ sig)) := by
  after_results_simp
  rfl

/-- The second stage leaves the log-softmax of what `%20`'s buffer held at `%21`'s. -/
theorem stageB (W : Valuation τ sig (Elt F)) :
    after opsB W (main_v21 : DevRef τ sig) = logp (W (main_v20 : DevRef τ sig)) := by
  after_results_simp
  simp only [ofBuf_toBuf]
  rw [toBuf_v21]
  simp only [ofBuf_v20]
  rfl

/-- The third stage leaves, at `%24`'s buffer, the entries at the labels of what `%21`'s held. -/
theorem stageC (W : Valuation τ sig (Elt F)) :
    after opsC W (main_v24 : DevRef τ sig) = picked (W (main_v21 : DevRef τ sig)) := by
  after_results_simp
  simp only [ofBuf_toBuf]
  rw [toBuf_v24]
  simp only [ofBuf_v21, ofBuf_v23, toBuf_call1_v4, ofBuf_call1_v5]
  rfl

/-- The last stage leaves, at the result's buffer, minus the mean of what `%24`'s held. -/
theorem stageD (W : Valuation τ sig (Elt F)) :
    after opsD W (main_v27 : DevRef τ sig) = loss (W (main_v24 : DevRef τ sig)) := by
  after_results_simp
  rfl

/-- The whole line leaves `result` of the three argument arrays at the result's buffer. -/
theorem result_eq (V : Valuation τ sig (Elt F)) :
    after ops V (main_v27 : DevRef τ sig)
      = result (V (main_arg0 : DevRef τ sig)) (V (main_arg1 : DevRef τ sig)) (V (main_arg2 : DevRef τ sig)) := by
  rw [after_ops, stageD, stageC, stageB, stageA]
  rfl

/-- The reference's result on device `c` from the launch memory `m`: `result` of the three arguments' launch
    contents. -/
def res (m : (ℓ : Loc nD τ sig) → Buf (Elt F) ℓ) (c : Dev nD) : FVec F S_ .f32 :=
  result (m ((c.tc : Thread nD τ).loc main_arg0)) (m ((c.tc : Thread nD τ).loc main_arg1))
    (m ((c.tc : Thread nD τ).loc main_arg2))

/-- For any float values, from any memory with zero counters: every weakly fair execution of @main terminates
    with the result buffer at `res m c` and the three arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v27) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v27).trans (result_eq _), (h c main_arg0).trans (arg0_eq _), (h c main_arg1).trans (arg1_eq _),
        (h c main_arg2).trans (arg2_eq _)⟩)
    (run_main m ρ)

end Cert.ReferenceIdeal.HandRun

end
-- ==== Proof.RefValue.lean ====
import proofs.«144956_j83760452206739_2_alg».proof.Proof.RefStages
import proofs.«144956_j83760452206739_2_alg».proof.Proof.Spec
import Idealize.ShloMosaic.PureOps.Ideal.Laws
import Idealize.ShloMosaic.Lib.ValueIdx

set_option maxRecDepth 16384

noncomputable section

/-! # The reference's result from its stages

Given the scores as coerced reals, the log-softmax stage entry by entry and the gathered column of each row, the
reference's result is the negated mean over the rows of `(S i i − M_i) − log Σ_j exp (S i j − M_i)`. -/

namespace Cert.ReferenceIdeal.HandRun

open Cert.ReferenceIdeal Idealize.ShloMosaic Idealize.ShloMosaic.ValueIdx
open Facts₀ Facts

/-- The last five operations: the sum of the gathered entries, divided by their number, negated. -/
theorem loss_apply (pk : FVec Ideal S8192x1 .f32) :
    loss (F := Ideal) pk = fun _ => -(Ideal.div ((0 : EReal) + ∑ y : S8192x1.Idx, pk y) (Ideal.ofBits .f32 0x46000000#32)) := by
  funext i
  unfold loss
  show -(Ideal.div (Ideal.hostReduceAdd reducesTo_S8192x1_S_d0_1 pk (Ideal.ofBits .f32 0x00000000#32) i) (Ideal.ofBits .f32 0x46000000#32)) = _
  rw [Ideal.hostReduceAdd_total reducesTo_S8192x1_S_d0_1 (fun b => b.elim0), Ideal.ofBits_zero_f32]

/-- The stages composed: with the scores the coerced reals `S i j`, the result is the reference's form of the loss. -/
theorem result_refLoss_of
    (a p n : FVec Ideal S8192x256 .f32) (h0 : ∀ i, ∃ r : ℝ, a i = (r : EReal)) (h1 : ∀ i, ∃ r : ℝ, p i = (r : EReal)) (h2 : ∀ i, ∃ r : ℝ, n i = (r : EReal))
    (hS : ∀ (i : Fin 8192) (j : Fin 16384), scores (F := Ideal) a p n (ix2 i j) = (Cert.Spec.S (Cert.Spec.anchR a h0) (Cert.Spec.targR p n h1 h2) i j : EReal))
    (hL : ∀ (sc : FVec Ideal S8192x16384 .f32) (i : Fin 8192) (j : Fin 16384), logp (F := Ideal) sc (ix2 i j)
      = (sc (ix2 i j) - max (⊥ : EReal) ((Finset.univ : Finset (Fin 16384)).fold max (⊥ : EReal) (fun j' => sc (ix2 i j'))))
        - Ideal.log ((0 : EReal) + ∑ j' : Fin 16384, Ideal.exp (sc (ix2 i j') - max (⊥ : EReal) ((Finset.univ : Finset (Fin 16384)).fold max (⊥ : EReal) (fun j' => sc (ix2 i j'))))))
    (hP : ∀ (lp : FVec Ideal S8192x16384 .f32) (i : Fin 8192) (z : Fin 1), picked (F := Ideal) lp (ix2 i z) = lp (ix2 i (Cert.Spec.dcol i))) :
    result (F := Ideal) a p n = fun _ => Cert.Spec.refLoss (Cert.Spec.anchR a h0) (Cert.Spec.targR p n h1 h2) := by
  unfold result
  rw [loss_apply]
  funext _
  unfold Cert.Spec.refLoss
  refine congrArg (fun s => -(Ideal.div ((0 : EReal) + s) (Ideal.ofBits .f32 0x46000000#32))) ?_
  refine Finset.sum_congr rfl fun y _ => ?_
  obtain ⟨i, z, rfl⟩ : ∃ (i : Fin 8192) (z : Fin 1), y = ix2 i z := ⟨y 0, y 1, eq_ix2 y⟩
  have hrow : (fun j' : Fin 16384 => scores (F := Ideal) a p n (ix2 i j')) = fun j' => (Cert.Spec.S (Cert.Spec.anchR a h0) (Cert.Spec.targR p n h1 h2) i j' : EReal) :=
    funext fun j' => hS i j'
  rw [hP, hL, hrow]
  simp only [hS]

end Cert.ReferenceIdeal.HandRun

end
-- ==== Proof.RefUnits.lean ====
/-
  The reference's unit rows on the extended reals: every entry of the anchors and of the stacked targets, divided by
  the floor of its row's Euclidean norm, is the real x_d / max (√(∑ x²), floor) of the specification's row.
-/
import proofs.«144956_j83760452206739_2_alg».proof.Proof.RefTerms
import proofs.«144956_j83760452206739_2_alg».proof.Proof.Spec
import Idealize.ShloMosaic.PureOps.Ideal.Laws
import Idealize.ShloMosaic.Lib.Pipeline.Value
import Idealize.ShloMosaic.Lib.ValueIdx

set_option maxRecDepth 16384

noncomputable section

open scoped BigOperators

namespace Cert.ReferenceIdeal.HandRun

open Cert.ReferenceIdeal Idealize.ShloMosaic Idealize.ShloMosaic.ValueIdx

/-! ## Rows of 8192 -/

/-- The sum over the columns, from zero, of a 8192 × 256 array, read at row i. -/
theorem reduceAdd_rows8192_apply (v : FVec Ideal S8192x256 .f32) (h' : S8192x256.ReducesTo [1] S8192)
    (hu : 0 < S_.numel) (i : Fin 8192) :
    Host.reduceAdd v (constant (F := Ideal) S_ .f32 0x00000000#32) h' hu (ix1 i)
      = (0 : EReal) + ∑ d' : Fin 256, v (ix2 i d') := by
  have h : S8192x256.Reduces [1] S8192 := by decide
  show Ideal.hostReduceAdd h' v (Ideal.ofBits .f32 0x00000000#32) (ix1 i) = _
  rw [Ideal.hostReduceAdd_single h' h, Ideal.ofBits_zero_f32]
  refine congrArg ((0 : EReal) + ·) (Finset.sum_congr rfl fun k _ => congrArg v ?_)
  funext a
  fin_cases a <;> rfl

/-- A vector of 8192 entries read as a 8192 × 1 column. -/
theorem bcast_col8192_apply (u : FVec Ideal S8192 .f32) (h : S8192.BroadcastsInDim S8192x1 ![0]) (i : Fin 8192) (z : Fin 1) :
    broadcastInDim S8192x1 ![0] h u (ix2 i z) = u (ix1 i) := by
  refine broadcastInDim_apply ![0] h u (ix2 i z) (ix1 i) ?_
  intro a
  fin_cases a
  show i.val = if (8192 : ℕ) = 1 then 0 else i.val
  rw [if_neg (by decide)]

/-- A 8192 × 1 column broadcast along the 256 columns. -/
theorem bcast_rows8192_apply (u : FVec Ideal S8192x1 .f32) (h : S8192x1.BroadcastsInDim S8192x256 ![0, 1]) (i : Fin 8192)
    (d : Fin 256) : broadcastInDim S8192x256 ![0, 1] h u (ix2 i d) = u (ix2 i (0 : Fin 1)) := by
  refine broadcastInDim_apply ![0, 1] h u (ix2 i d) (ix2 i (0 : Fin 1)) ?_
  intro a
  fin_cases a
  · show i.val = if (8192 : ℕ) = 1 then 0 else i.val
    rw [if_neg (by decide)]
  · show (0 : ℕ) = if (1 : ℕ) = 1 then 0 else d.val
    rw [if_pos rfl]

/-- A scalar constant broadcast to a 8192 × 1 column reads the constant's value everywhere. -/
theorem bcast_const8192_apply (h : S_.BroadcastsInDim S8192x1 ![]) (b : BitVec 32) (i : S8192x1.Idx) :
    broadcastInDim S8192x1 ![] h (constant (F := Ideal) S_ .f32 b) i = Ideal.ofBits .f32 b := rfl

/-- A row divided by the floor of its norm, read at (i, d): the entry divided by the maximum of the square root of the
    row's sum of squares (taken from zero) and the floor word. -/
theorem unit8192_apply (a : FVec Ideal S8192x256 .f32) (i : Fin 8192) (d : Fin 256) :
    unit8192 (F := Ideal) a (ix2 i d)
      = Ideal.div (a (ix2 i d))
          (max (Ideal.sqrt ((0 : EReal) + ∑ d' : Fin 256, a (ix2 i d') * a (ix2 i d')))
            (Ideal.ofBits .f32 0x2B8CBCCC#32)) := by
  unfold unit8192
  simp only [Host.divf, Ideal.hostDivf_def]
  rw [bcast_rows8192_apply]
  unfold normCol8192
  simp only [maximumf, Host.sqrt, Ideal.maximumf_def, Ideal.hostUnary_sqrt_def]
  rw [bcast_col8192_apply, reduceAdd_rows8192_apply, bcast_const8192_apply]
  simp only [mulf, Ideal.mulf_def]

/-- On anchors whose entries are reals, the unit anchor row i at d is the real normalised entry of the specification's
    anchor row i. -/
theorem unit8192_real (a : FVec Ideal S8192x256 .f32) (h0 : ∀ i, ∃ r : ℝ, a i = (r : EReal)) (i : Fin 8192) (d : Fin 256) :
    unit8192 (F := Ideal) a (ix2 i d) = (Cert.NormReal.nrm (Cert.Spec.anchR a h0 i) d : EReal) := by
  have hb : ∀ d' : Fin 256, a (ix2 i d') = (Cert.Spec.anchR a h0 i d' : EReal) := fun d' =>
    Cert.Spec.realOf_spec a h0 _
  rw [unit8192_apply]
  simp only [hb]
  exact Cert.NormReal.div_norm_zero_add (Cert.Spec.anchR a h0 i) d

/-! ## Rows of 16384 -/

/-- The sum over the columns, from zero, of a 16384 × 256 array, read at row i. -/
theorem reduceAdd_rows16384_apply (v : FVec Ideal S16384x256 .f32) (h' : S16384x256.ReducesTo [1] S16384)
    (hu : 0 < S_.numel) (i : Fin 16384) :
    Host.reduceAdd v (constant (F := Ideal) S_ .f32 0x00000000#32) h' hu (ix1 i)
      = (0 : EReal) + ∑ d' : Fin 256, v (ix2 i d') := by
  have h : S16384x256.Reduces [1] S16384 := by decide
  show Ideal.hostReduceAdd h' v (Ideal.ofBits .f32 0x00000000#32) (ix1 i) = _
  rw [Ideal.hostReduceAdd_single h' h, Ideal.ofBits_zero_f32]
  refine congrArg ((0 : EReal) + ·) (Finset.sum_congr rfl fun k _ => congrArg v ?_)
  funext a
  fin_cases a <;> rfl

/-- A vector of 16384 entries read as a 16384 × 1 column. -/
theorem bcast_col16384_apply (u : FVec Ideal S16384 .f32) (h : S16384.BroadcastsInDim S16384x1 ![0]) (i : Fin 16384) (z : Fin 1) :
    broadcastInDim S16384x1 ![0] h u (ix2 i z) = u (ix1 i) := by
  refine broadcastInDim_apply ![0] h u (ix2 i z) (ix1 i) ?_
  intro a
  fin_cases a
  show i.val = if (16384 : ℕ) = 1 then 0 else i.val
  rw [if_neg (by decide)]

/-- A 16384 × 1 column broadcast along the 256 columns. -/
theorem bcast_rows16384_apply (u : FVec Ideal S16384x1 .f32) (h : S16384x1.BroadcastsInDim S16384x256 ![0, 1]) (i : Fin 16384)
    (d : Fin 256) : broadcastInDim S16384x256 ![0, 1] h u (ix2 i d) = u (ix2 i (0 : Fin 1)) := by
  refine broadcastInDim_apply ![0, 1] h u (ix2 i d) (ix2 i (0 : Fin 1)) ?_
  intro a
  fin_cases a
  · show i.val = if (16384 : ℕ) = 1 then 0 else i.val
    rw [if_neg (by decide)]
  · show (0 : ℕ) = if (1 : ℕ) = 1 then 0 else d.val
    rw [if_pos rfl]

/-- A scalar constant broadcast to a 16384 × 1 column reads the constant's value everywhere. -/
theorem bcast_const16384_apply (h : S_.BroadcastsInDim S16384x1 ![]) (b : BitVec 32) (i : S16384x1.Idx) :
    broadcastInDim S16384x1 ![] h (constant (F := Ideal) S_ .f32 b) i = Ideal.ofBits .f32 b := rfl

/-- A row divided by the floor of its norm, read at (i, d): the entry divided by the maximum of the square root of the
    row's sum of squares (taken from zero) and the floor word. -/
theorem unit16384_apply (a : FVec Ideal S16384x256 .f32) (i : Fin 16384) (d : Fin 256) :
    unit16384 (F := Ideal) a (ix2 i d)
      = Ideal.div (a (ix2 i d))
          (max (Ideal.sqrt ((0 : EReal) + ∑ d' : Fin 256, a (ix2 i d') * a (ix2 i d')))
            (Ideal.ofBits .f32 0x2B8CBCCC#32)) := by
  unfold unit16384
  simp only [Host.divf, Ideal.hostDivf_def]
  rw [bcast_rows16384_apply]
  unfold normCol16384
  simp only [maximumf, Host.sqrt, Ideal.maximumf_def, Ideal.hostUnary_sqrt_def]
  rw [bcast_col16384_apply, reduceAdd_rows16384_apply, bcast_const16384_apply]
  simp only [mulf, Ideal.mulf_def]

/-- The stacked targets at (j, d), on arrays whose entries are reals: the specification's target row j at d. -/
theorem targets_real (p n : FVec Ideal S8192x256 .f32) (h1 : ∀ i, ∃ r : ℝ, p i = (r : EReal))
    (h2 : ∀ i, ∃ r : ℝ, n i = (r : EReal)) (j : Fin 16384) (d : Fin 256) :
    targets (F := Ideal) p n (ix2 j d) = (Cert.Spec.targR p n h1 h2 j d : EReal) := by
  unfold targets Cert.Spec.targR
  by_cases hj : j.val < 8192
  · rw [dif_pos hj]
    refine (concatenate_pair_apply_left (0 : Fin 2) p n _ (ix2 j d) rfl (ix2 ⟨j.val, hj⟩ d) ?_).trans
      (Cert.Spec.realOf_spec p h1 _)
    intro b
    fin_cases b <;> rfl
  · rw [dif_neg hj]
    refine (concatenate_pair_apply_right (0 : Fin 2) p n _ (ix2 j d) rfl rfl
      (ix2 ⟨j.val - 8192, by have := j.isLt; omega⟩ d) ?_ ?_).trans (Cert.Spec.realOf_spec n h2 _)
    · intro b hb
      fin_cases b
      · exact absurd rfl hb
      · rfl
    · show j.val - 8192 + 8192 = j.val
      omega

/-- On targets whose entries are reals, the unit target row j at d is the real normalised entry of the specification's
    target row j. -/
theorem unit16384_real (p n : FVec Ideal S8192x256 .f32) (h1 : ∀ i, ∃ r : ℝ, p i = (r : EReal))
    (h2 : ∀ i, ∃ r : ℝ, n i = (r : EReal)) (j : Fin 16384) (d : Fin 256) :
    unit16384 (F := Ideal) (targets (F := Ideal) p n) (ix2 j d)
      = (Cert.NormReal.nrm (Cert.Spec.targR p n h1 h2 j) d : EReal) := by
  rw [unit16384_apply]
  simp only [targets_real p n h1 h2]
  exact Cert.NormReal.div_norm_zero_add (Cert.Spec.targR p n h1 h2 j) d

end Cert.ReferenceIdeal.HandRun

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.RefScores.lean ====
/-
  The scores read at an index on the extended reals.

  Once every entry of the unit anchors and of the unit targets is known to be a real (the normalised entry of a real
  row), the score of anchor row i against target row j is a real too: the transpose reads the unit targets at
  (j, d); the contraction over the 256 features is the textbook sum of products, a real dot product; dividing by
  the temperature word 13421773 / 2²⁸ is multiplying by its reciprocal.
-/
import proofs.«144956_j83760452206739_2_alg».proof.Proof.RefTerms
import proofs.«144956_j83760452206739_2_alg».proof.Proof.RefUnits
import proofs.«144956_j83760452206739_2_alg».proof.Proof.LibNormReal
import proofs.«144956_j83760452206739_2_alg».proof.Proof.LibLseShift
import proofs.«144956_j83760452206739_2_alg».proof.Proof.LibPlainDot
import proofs.«144956_j83760452206739_2_alg».proof.Proof.Spec
import Idealize.ShloMosaic.PureOps.Ideal.Laws
import Idealize.ShloMosaic.Lib.ValueIdx
import Idealize.ShloMosaic.Lib.ValueLayout

noncomputable section

namespace Cert.ReferenceIdeal.HandRun

open Cert.ReferenceIdeal Cert.ReferenceIdeal.Gen Idealize.ShloMosaic Idealize.ShloMosaic.ValueIdx
open scoped BigOperators

/-- The program's dimension numbers are the plain ones: rows by features times features by columns. -/
theorem dot_eq_plain :
    dot_S8192x256_S256x16384_S8192x16384_1_0_0_1_n_n = DotDims.plain 8192 256 16384 := rfl

/-- The scores at (i, j), given the unit anchors' and the unit targets' entries as normalised real rows `A i`, `T j`:
    the real dot product of the two normalised rows times the reciprocal of the temperature. -/
theorem scores_of_units (a p n : FVec Ideal S8192x256 .f32) (A : Fin 8192 → Fin 256 → ℝ) (T : Fin 16384 → Fin 256 → ℝ)
    (hA : ∀ i d, unit8192 (F := Ideal) a (ix2 i d) = (Cert.NormReal.nrm (A i) d : EReal))
    (hT : ∀ j d, unit16384 (F := Ideal) (targets (F := Ideal) p n) (ix2 j d) = (Cert.NormReal.nrm (T j) d : EReal))
    (i : Fin 8192) (j : Fin 16384) :
    scores (F := Ideal) a p n (ix2 i j) = (Cert.Spec.S A T i j : EReal) := by
  unfold scores
  show Ideal.div
      (FloatOps.dotGeneral dot_S8192x256_S256x16384_S8192x16384_1_0_0_1_n_n none .single (unit8192 (F := Ideal) a)
        (transpose S256x16384 [1, 0] (unit16384 (F := Ideal) (targets (F := Ideal) p n)) transposes_S16384x256_S256x16384_1_0)
        (ix2 i j))
      (Ideal.ofBits .f32 0x3D4CCCCD#32) = _
  rw [Cert.LseShift.div_temperature, dot_eq_plain, Cert.Proof.PlainDot.dotGeneral_plain]
  have hterm : ∀ k : Fin 256,
      unit8192 (F := Ideal) a (ix2 ((ix2 i j : S8192x16384.Idx) 0) k)
        * transpose S256x16384 [1, 0] (unit16384 (F := Ideal) (targets (F := Ideal) p n))
            transposes_S16384x256_S256x16384_1_0 (ix2 k ((ix2 i j : S8192x16384.Idx) 1))
      = (Cert.NormReal.nrm (A i) k : EReal) * (Cert.NormReal.nrm (T j) k : EReal) := fun k => by
    show unit8192 (F := Ideal) a (ix2 i k)
        * transpose S256x16384 [1, 0] (unit16384 (F := Ideal) (targets (F := Ideal) p n))
            transposes_S16384x256_S256x16384_1_0 (ix2 k j) = _
    rw [hA, transpose_ix2_apply, hT]
  rw [Finset.sum_congr rfl fun k _ => hterm k, Cert.NormReal.dot_real, ← EReal.coe_mul]
  rfl

/-- The scores of real argument arrays: at (i, j) the real score `Spec.S` of the real anchor rows against the real
    target rows. -/
theorem scores_real (a p n : FVec Ideal S8192x256 .f32) (h0 : ∀ i, ∃ r : ℝ, a i = (r : EReal))
    (h1 : ∀ i, ∃ r : ℝ, p i = (r : EReal)) (h2 : ∀ i, ∃ r : ℝ, n i = (r : EReal)) (i : Fin 8192) (j : Fin 16384) :
    scores (F := Ideal) a p n (ix2 i j)
      = (Cert.Spec.S (Cert.Spec.anchR a h0) (Cert.Spec.targR p n h1 h2) i j : EReal) :=
  scores_of_units a p n (Cert.Spec.anchR a h0) (Cert.Spec.targR p n h1 h2)
    (fun i d => unit8192_real a h0 i d) (fun j d => unit16384_real p n h1 h2 j d) i j

end Cert.ReferenceIdeal.HandRun

end
-- ==== Proof.RefBcast.lean ====
/-
  Two broadcasts and one lifted index of the reference's 8192 × 16384 score matrix, read at literal coordinates.

  A vector over the 8192 rows becomes a column (its entry of row i at (i, 0)); a column is spread along the 16384
  columns (its entry of row i at every (i, j)); and the index of the matrix that reduces along the columns to row i,
  with column k put back, is (i, k).
-/
import proofs.«144956_j83760452206739_2_alg».proof.Proof.Gen.ReferenceIdeal
import Idealize.ShloMosaic.PureOps.Ideal.Laws
import Idealize.ShloMosaic.Lib.ValueIdx
import Idealize.ShloMosaic.Lib.Pipeline.Value

noncomputable section

namespace Cert.ReferenceIdeal.HandRun

open Cert.ReferenceIdeal Cert.ReferenceIdeal.Gen Idealize.ShloMosaic Idealize.ShloMosaic.ValueIdx

variable {α : Type}

/-- A vector over the 8192 rows read as an 8192 × 1 column. -/
theorem bcast_col_apply (u : S8192.Idx → α) (h : S8192.BroadcastsInDim S8192x1 ![0]) (i : Fin 8192) (z : Fin 1) :
    broadcastInDim S8192x1 ![0] h u (ix2 i z) = u (ix1 i) := by
  refine broadcastInDim_apply ![0] h u (ix2 i z) (ix1 i) ?_
  intro a
  fin_cases a
  show i.val = if (8192 : ℕ) = 1 then 0 else i.val
  rw [if_neg (by decide)]

/-- An 8192 × 1 column spread along the 16384 columns. -/
theorem bcast_rows_apply (u : S8192x1.Idx → α) (h : S8192x1.BroadcastsInDim S8192x16384 ![0, 1]) (i : Fin 8192)
    (j : Fin 16384) : broadcastInDim S8192x16384 ![0, 1] h u (ix2 i j) = u (ix2 i (0 : Fin 1)) := by
  refine broadcastInDim_apply ![0, 1] h u (ix2 i j) (ix2 i (0 : Fin 1)) ?_
  intro a
  fin_cases a
  · show i.val = if (8192 : ℕ) = 1 then 0 else i.val
    rw [if_neg (by decide)]
  · show (0 : ℕ) = if (1 : ℕ) = 1 then 0 else j.val
    rw [if_pos rfl]

/-- Over row i, the matrix index whose column is k. -/
theorem lift_row (h : S8192x16384.Reduces [1] S8192) (i : Fin 8192) (k : Fin 16384) : h.lift (ix1 i) k = ix2 i k := by
  funext a
  fin_cases a <;> rfl

end Cert.ReferenceIdeal.HandRun

end
-- ==== Proof.RefLogp.lean ====
/-
  The reference's row-wise log-softmax, read at one entry on the extended reals.

  For the score matrix s, row i's maximum is taken from −∞ over the 16384 columns and once more against −∞:
  M i = max ⊥ (fold of max from ⊥ over j of s (i, j)). The shifted scores are s (i, j) − M i, the logarithm of the row's
  sum of their exponentials is taken from zero, log (0 + ∑ j, exp (s (i, j) − M i)), and the log-softmax is the
  shifted score less that logarithm. Every step is a reading of one operation at an index; nothing is assumed of the
  entries.
-/
import proofs.«144956_j83760452206739_2_alg».proof.Proof.RefTerms
import proofs.«144956_j83760452206739_2_alg».proof.Proof.RefBcast
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.HandRun

open Cert.ReferenceIdeal Cert.ReferenceIdeal.Gen Idealize.ShloMosaic Idealize.ShloMosaic.ValueIdx

/-- The f32 word 0xFF800000 is −∞. -/
theorem ofBits_neg_inf : Ideal.ofBits .f32 0xFF800000#32 = (⊥ : EReal) := by
  simp [Ideal.ofBits, Ideal.ieee]

/-- The host's logarithm at an index is the ideal logarithm of the entry. -/
theorem hostLog_apply {s : Shape} {φ : FTy} (x : FVec Ideal s φ) (i : s.Idx) : Host.log x i = Ideal.log (x i) := rfl

/-- The host's exponential at an index is the ideal exponential of the entry. -/
theorem hostExp_apply {s : Shape} {φ : FTy} (x : FVec Ideal s φ) (i : s.Idx) : Host.exp x i = Ideal.exp (x i) := rfl

/-- Row i's maximum: from −∞ over the columns, then once more against −∞. -/
theorem rowMax_apply (s : FVec Ideal S8192x16384 .f32) (i : Fin 8192) :
    rowMax s (ix1 i)
      = max (⊥ : EReal) ((Finset.univ : Finset (Fin 16384)).fold max (⊥ : EReal) (fun j => s (ix2 i j))) := by
  have h : S8192x16384.Reduces [1] S8192 := by decide
  have e : (s ∘ h.lift (ix1 i)) = fun j : Fin 16384 => s (ix2 i j) := funext fun k => congrArg s (lift_row h i k)
  unfold rowMax
  refine (maximumf_apply _ _ (ix1 i)).trans ?_
  refine congrArg₂ max ofBits_neg_inf ?_
  refine (Host.reduce_eq_fold_single FloatOps.maximumf s _ reducesTo_S8192x16384_S8192_d1 h h_S_ (ix1 i)).trans ?_
  exact (congrArg (fun f => (Finset.univ : Finset (Fin 16384)).fold max (Ideal.ofBits .f32 0xFF800000#32) f) e).trans
    (congrArg (fun b => (Finset.univ : Finset (Fin 16384)).fold max b (fun j => s (ix2 i j))) ofBits_neg_inf)

/-- The shifted score: the score less its row's maximum. -/
theorem shifted_apply (s : FVec Ideal S8192x16384 .f32) (i : Fin 8192) (j : Fin 16384) :
    shifted s (ix2 i j) = s (ix2 i j) - rowMax s (ix1 i) := by
  unfold shifted
  generalize rowMax s = v
  refine (subf_apply _ _ (ix2 i j)).trans ?_
  refine congrArg (s (ix2 i j) - ·) ?_
  refine (bcast_rows_apply _ _ i j).trans ?_
  exact bcast_col_apply v _ i (0 : Fin 1)

/-- The logarithm of row i's sum, from zero, of the exponentials of the shifted scores. -/
theorem logSumExp_apply (s : FVec Ideal S8192x16384 .f32) (i : Fin 8192) (z : Fin 1) :
    logSumExp s (ix2 i z) = Ideal.log ((0 : EReal) + ∑ j : Fin 16384, Ideal.exp (shifted s (ix2 i j))) := by
  have h : S8192x16384.Reduces [1] S8192 := by decide
  unfold logSumExp
  generalize shifted s = w
  refine (hostLog_apply _ (ix2 i z)).trans ?_
  refine congrArg Ideal.log ?_
  refine (bcast_col_apply _ _ i z).trans ?_
  refine (hostReduceAdd_apply (Host.exp w) _ reducesTo_S8192x16384_S8192_d1 h_S_ (ix1 i)).trans ?_
  rw [Ideal.hostReduceAdd_single reducesTo_S8192x16384_S8192_d1 h, constant_apply, Ideal.ofBits_zero_f32]
  refine congrArg ((0 : EReal) + ·) (Finset.sum_congr rfl fun k _ => ?_)
  refine (hostExp_apply w _).trans ?_
  exact congrArg (fun y => Ideal.exp (w y)) (lift_row h i k)

/-- The log-softmax at (i, j): the score less the row's maximum, less the logarithm of the row's sum of exponentials of
    the scores less that maximum. -/
theorem logp_apply (sc : FVec Ideal S8192x16384 .f32) (i : Fin 8192) (j : Fin 16384) :
    logp sc (ix2 i j)
      = (sc (ix2 i j) - max (⊥ : EReal) ((Finset.univ : Finset (Fin 16384)).fold max (⊥ : EReal) (fun j' => sc (ix2 i j'))))
        - Ideal.log ((0 : EReal) + ∑ j' : Fin 16384, Ideal.exp (sc (ix2 i j')
            - max (⊥ : EReal) ((Finset.univ : Finset (Fin 16384)).fold max (⊥ : EReal) (fun j'' => sc (ix2 i j''))))) := by
  unfold logp
  refine (subf_apply _ _ (ix2 i j)).trans ?_
  rw [bcast_rows_apply, logSumExp_apply]
  simp only [shifted_apply, rowMax_apply]

end Cert.ReferenceIdeal.HandRun

end
-- ==== Proof.LibGatherAlong.lean ====
import Idealize.ShloMosaic.Lib.ValueIdx
import Idealize.ShloMosaic.PureOps

noncomputable section

/-! # A gather along the rows of a matrix, read at an index

`take_along_axis (x, idx, axis = 1)` with one index per row lowers to a gather whose operand `[R, C]` and start indices
`[R, 1, 1]` share the batching axis 0, whose start index names operand axis 1, and whose slices are single elements:
the result at `(i, 0)` is the operand at row `i` and at the column the row's start index names, read signed and clamped
into `[0, C − 1]`. -/

namespace Cert.GatherAlong

open Idealize.ShloMosaic Idealize.ShloMosaic.ValueIdx

variable {α : Type}

/-- Those dimension numbers; their conditions are decided on a program's literal shapes. -/
abbrev alongDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The start-indices index `[i, z, 0]` of result index `(i, z)`. -/
abbrev alongIdx {R : Nat} (y : (⟨2, ![R, 1]⟩ : Shape).Idx) : (⟨3, ![R, 1, 1]⟩ : Shape).Idx :=
  fun a => match a with | ⟨0, _⟩ => ⟨(y 0).val, (y 0).isLt⟩ | ⟨1, _⟩ => ⟨(y 1).val, (y 1).isLt⟩ | ⟨2, _⟩ => ⟨0, Nat.one_pos⟩

/-- The gather read at `(i, z)`: the operand at row `i`, column the start index `idx[i, z, 0]` read signed and clamped
    into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (y : (⟨2, ![R, 1]⟩ : Shape).Idx) :
    Host.gather (alongDims R C wf) x idx y
      = x (ix2 (⟨(y 0).val, (y 0).isLt⟩ : Fin R) (⟨min (idx (alongIdx y)).toInt.toNat (C - 1), by omega⟩ : Fin C)) := by
  unfold Host.gather
  congr 1
  funext a
  refine Fin.ext ?_
  show (alongDims R C wf).start y idx a + (alongDims R C wf).batchCoord y a + (alongDims R C wf).offCoord y a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (alongDims R C wf).start y idx (1 : Fin 2) + (alongDims R C wf).batchCoord y (1 : Fin 2) + (alongDims R C wf).offCoord y (1 : Fin 2) = _
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx y ⟨List.idxOf (1 : Fin 2) (alongDims R C wf).startIndexMap,
        List.idxOf_lt_length_iff.2 (List.mem_singleton.mpr rfl)⟩ = alongIdx y := by
      funext b; refine Fin.ext ?_
      match b with
      | ⟨0, _⟩ => rfl
      | ⟨1, _⟩ => rfl
      | ⟨2, _⟩ => rfl
    rw [hsi]
    rfl

end Cert.GatherAlong

end
-- ==== Proof.LibIndexWrap.lean ====
/-
  Integer index arrays: what a signed "non-negative" test says at an index, and that the normalisation of a
  negative index leaves a non-negative index as it is.

  An index array v is normalised as  where (v < 0) (v + n) v  (n the extent of the axis indexed), so that -1
  names the last position. Where the index is already non-negative the normalised index is the index itself;
  a program that normalises and one that does not then read, and write, the same positions. The facts are
  stated at one index of arrays of any shape and width: the comparand only has to be the zero word THERE,
  which a broadcast zero is everywhere.
-/
import Idealize.ShloMosaic.Lib.ValueIdx
import Idealize.ShloMosaic.Lib.Affine

namespace Cert.IndexWrap

open Idealize.ShloMosaic

variable {s : Shape} {w : Nat}

/-- The signed test  v ≥ z  holding at an index where z is the zero word says the index there, read signed,
    is non-negative. -/
theorem nonneg_of_sge (v z : IVec s w) (i : s.Idx) (hz : z i = 0#w) (h : cmpi .sge v z i = 1#1) :
    0 ≤ (v i).toInt := by
  have h' : (z i).toInt ≤ (v i).toInt := IntOp.cmpi_sge.1 h
  rw [hz, BitVec.toInt_zero] at h'
  exact h'

/-- The signed test  v < z  at an index where z is the zero word and v is non-negative is the word 0. -/
theorem slt_eq_zero_of_nonneg (v z : IVec s w) (i : s.Idx) (hz : z i = 0#w) (hv : 0 ≤ (v i).toInt) :
    cmpi .slt v z i = 0#1 := by
  rcases BitVec.eq_zero_or_eq_one (cmpi .slt v z i) with h0 | h1
  · exact h0
  · have h' : (v i).toInt < (z i).toInt := IntOp.cmpi_slt.1 h1
    rw [hz, BitVec.toInt_zero] at h'
    omega

/-- THE NORMALISATION OF A NON-NEGATIVE INDEX IS THE INDEX:  where (v < 0) (v + n) v  at an index where v,
    read signed, is non-negative, is v there — whatever n is. -/
theorem wrap_of_nonneg (v z n : IVec s w) (i : s.Idx) (hz : z i = 0#w) (hv : 0 ≤ (v i).toInt) :
    select (cmpi .slt v z) (addi v n) v i = v i := by
  show Scalar.select (cmpi .slt v z i) (addi v n i) (v i) = v i
  rw [slt_eq_zero_of_nonneg v z i hz hv]
  exact if_neg (by decide)

/-- The same for the whole array, when the comparand is zero and the index non-negative everywhere. -/
theorem wrap_eq_self (v z n : IVec s w) (hz : ∀ i, z i = 0#w) (hv : ∀ i, 0 ≤ (v i).toInt) :
    select (cmpi .slt v z) (addi v n) v = v :=
  funext fun i => wrap_of_nonneg v z n i (hz i) (hv i)

end Cert.IndexWrap
-- ==== Proof.RefPick.lean ====
/-
  The reference's pick of each row's own column, read at an index.

  Row i's label is the word of i; the index normalisation (a negative index moved up by 16384) leaves it alone, because
  it is not negative; as a gather index of shape 8192 × 1 × 1 it is still the word of i; it lies in 0 … 16383, so the
  bounds test, and its and-reduction over the unit axis, is the bit 1; the gather along the rows then reads the operand
  at row i and at the column the index names, i itself; and the select on the bounds test keeps that value.
-/
import proofs.«144956_j83760452206739_2_alg».proof.Proof.RefTerms
import proofs.«144956_j83760452206739_2_alg».proof.Proof.RefBcast
import proofs.«144956_j83760452206739_2_alg».proof.Proof.LibGatherAlong
import proofs.«144956_j83760452206739_2_alg».proof.Proof.LibIndexWrap
import proofs.«144956_j83760452206739_2_alg».proof.Proof.Spec
import Idealize.ShloMosaic.PureOps.Reduce
import Idealize.ShloMosaic.Lib.ValueIdx
import Idealize.ShloMosaic.Lib.Affine
import Idealize.ShloMosaic.Lib.Pipeline.Value

noncomputable section

namespace Cert.ReferenceIdeal.HandRun

open Cert.ReferenceIdeal Cert.ReferenceIdeal.Gen Idealize.ShloMosaic Idealize.ShloMosaic.ValueIdx

/-! ## Words -/

/-- The 32-bit word of a natural below 2³¹ reads, signed, as that natural. -/
theorem toInt_ofNat_small (n : ℕ) (hn : n < 2147483648) : (BitVec.ofNat 32 n).toInt = (n : ℤ) := by
  have h1 : (BitVec.ofNat 32 n).toNat = n := by rw [BitVec.toNat_ofNat]; omega
  rw [BitVec.toInt_eq_toNat_of_lt (by rw [h1]; omega), h1]

/-- A conjunction, from the bit 1, of bits that are all 1 is 1. -/
theorem fold_andi_one {ι : Type} [DecidableEq ι] (s : Finset ι) (f : ι → BitVec 1) (hf : ∀ k ∈ s, f k = 1#1) :
    s.fold IntOp.andi 1#1 f = 1#1 := by
  induction s using Finset.induction_on with
  | empty => rfl
  | insert a s ha ih =>
    rw [Finset.fold_insert ha, hf a (Finset.mem_insert_self a s), ih fun k hk => hf k (Finset.mem_insert_of_mem hk)]
    decide

/-! ## The labels and the gather indices -/

/-- Row i's label is the word of i. -/
theorem labels_apply (i : Fin 8192) (z : Fin 1) : labels (ix2 i z) = BitVec.ofNat 32 i.val := by
  unfold labels
  exact bcast_col_apply _ _ i z

/-- Row i's gather index is still the word of i: the label is not negative, so the normalisation keeps it, and the
    reshape to 8192 × 1 × 1 keeps the row. -/
theorem gatherIdx_apply (i : Fin 8192) (z1 z2 : Fin 1) : gatherIdx (ix3 i z1 z2) = BitVec.ofNat 32 i.val := by
  have hi := i.isLt
  unfold gatherIdx
  refine (shapeCast_apply _ shapeCasts_S8192x1_S8192x1x1 (ix3 i z1 z2) (ix2 i (0 : Fin 1)) ?_).trans ?_
  · rw [Shape.rowMajor_val_two, Shape.rowMajor_val_three]
    show i.val * 1 + 0 = (i.val * 1 + z1.val) * 1 + z2.val
    omega
  · refine (Cert.IndexWrap.wrap_of_nonneg labels _ _ (ix2 i (0 : Fin 1)) rfl ?_).trans (labels_apply i 0)
    rw [labels_apply, toInt_ofNat_small _ (by omega)]
    omega

/-! ## The bounds test -/

/-- Every gather index lies in 0 … 16383: the test's bit is 1 at every index. -/
theorem boundsBit_apply (y : S8192x1x1.Idx) :
    andi (cmpi .sge gatherIdx (broadcastInDim S8192x1x1 ![] bcast_S_S8192x1x1 (constantI S_ 32 0#32)))
      (cmpi .sle gatherIdx
        (broadcastInDim S8192x1x1 ![0, 1, 2] bcast_S1x1x1_S8192x1x1_0_1_2
          (broadcastInDim S1x1x1 ![2] bcast_S1_S1x1x1_2 (constantI S1 32 16383#32)))) y = 1#1 := by
  obtain ⟨a, b, c, rfl⟩ : ∃ (a : Fin 8192) (b c : Fin 1), y = ix3 a b c := ⟨y 0, y 1, y 2, eq_ix3 y⟩
  have ha := a.isLt
  have hg : (gatherIdx (ix3 a b c)).toInt = (a.val : ℤ) := by
    rw [gatherIdx_apply, toInt_ofNat_small _ (by omega)]
  refine IntOp.andi_eq_one.2 ⟨IntOp.cmpi_sge.2 ?_, IntOp.cmpi_sle.2 ?_⟩
  · show (0#32 : BitVec 32).toInt ≤ (gatherIdx (ix3 a b c)).toInt
    rw [hg, show (0#32 : BitVec 32).toInt = 0 by decide]
    omega
  · show (gatherIdx (ix3 a b c)).toInt ≤ (16383#32 : BitVec 32).toInt
    rw [hg, show (16383#32 : BitVec 32).toInt = 16383 by decide]
    omega

/-- So its and-reduction over the unit axis is 1 in every row. -/
theorem inBounds_apply (i : Fin 8192) (z : Fin 1) : inBounds (ix2 i z) = 1#1 := by
  have h : S8192x1x1.Reduces [2] S8192x1 := by decide
  classical
  unfold inBounds
  refine (Host.reduce_eq_fold_single IntOp.andi _ _ reducesTo_S8192x1x1_S8192x1_d2 h h_S_ (ix2 i z)).trans ?_
  exact fold_andi_one _ _ fun k _ => boundsBit_apply _

/-! ## The pick -/

/-- Row i's pick is the operand at row i, column i. -/
theorem picked_apply (lp : FVec Ideal S8192x16384 .f32) (i : Fin 8192) (z : Fin 1) :
    picked lp (ix2 i z) = lp (ix2 i (Cert.Spec.dcol i)) := by
  have hi := i.isLt
  have e : Cert.GatherAlong.alongIdx (ix2 i z) = ix3 i z (0 : Fin 1) := by
    funext a
    match a with
    | ⟨0, _⟩ => rfl
    | ⟨1, _⟩ => rfl
    | ⟨2, _⟩ => rfl
  unfold picked
  refine (select_apply _ _ _ (ix2 i z)).trans ?_
  rw [inBounds_apply, select_one]
  refine (Cert.GatherAlong.gather_along_apply (R := 8192) (C := 16384) (by norm_num)
    gather_S8192x16384_S8192x1x1_S8192x1_n_1_0_0_1_2_11_wf lp gatherIdx (ix2 i z)).trans ?_
  refine congrArg lp (funext fun a => Fin.ext ?_)
  match a with
  | ⟨0, _⟩ => rfl
  | ⟨1, _⟩ =>
    show min (gatherIdx (Cert.GatherAlong.alongIdx (ix2 i z))).toInt.toNat (16384 - 1) = i.val
    rw [e, gatherIdx_apply, toInt_ofNat_small _ (by omega), Int.toNat_natCast]
    omega

end Cert.ReferenceIdeal.HandRun

end
-- ==== Proof.Algebraic.lean ====
import proofs.«144956_j83760452206739_2_alg».proof.Defs
import proofs.«144956_j83760452206739_2_alg».proof.Proof.KiValue
import proofs.«144956_j83760452206739_2_alg».proof.Proof.RefValue
import proofs.«144956_j83760452206739_2_alg».proof.Proof.RefScores
import proofs.«144956_j83760452206739_2_alg».proof.Proof.RefLogp
import proofs.«144956_j83760452206739_2_alg».proof.Proof.RefPick
import proofs.«144956_j83760452206739_2_alg».proof.Proof.PreReal
import proofs.«144956_j83760452206739_2_alg».proof.Proof.Spec
import proofs.«144956_j83760452206739_2_alg».proof.Proof.Gen.Pre_finite_inputs

set_option maxRecDepth 16384

noncomputable section

/-! # The two programs compute one loss

Under the precondition every entry of the three argument arrays is a real. The kernel's program ends with the mean of
`shift + log Σ_j exp (S i j − shift) − S i i` over the rows, the reference's with the negated mean of
`(S i i − M_i) − log Σ_j exp (S i j − M_i)`, over the same scores `S`; the two are one number. -/

namespace Cert.Proof

open Idealize.ShloMosaic Idealize.SL.Sem

theorem algebraic : Cert.algebraic_KernelIdeal_ReferenceIdeal := by
  intro m g m' g' hpre hagree
  refine ⟨fun c => Cert.KernelIdeal.Body.tailK (Cert.KernelIdeal.Body.outG m c), Cert.KernelIdeal.Body.run_value (F := Ideal) m g, ?_⟩
  refine (θ_run Cert.ReferenceIdeal.defs _ _).mono (fun _ h c => ⟨(h c).1.trans ?_, (h c).2⟩)
    (Cert.ReferenceIdeal.HandRun.run (F := Ideal) m' g')
  obtain ⟨h0, h1, h2⟩ := Cert.PreReal.real_of_pre _ _ _ (hpre c)
  show Cert.ReferenceIdeal.HandRun.result (F := Ideal) _ _ _ = _
  rw [(hagree c).1, (hagree c).2.1, (hagree c).2.2]
  rw [Cert.ReferenceIdeal.HandRun.result_refLoss_of _ _ _ h0 h1 h2
    (Cert.ReferenceIdeal.HandRun.scores_real _ _ _ h0 h1 h2) Cert.ReferenceIdeal.HandRun.logp_apply Cert.ReferenceIdeal.HandRun.picked_apply]
  show _ = Cert.KernelIdeal.Body.tailK (Cert.KernelIdeal.Body.outG m c)
  rw [Cert.KernelIdeal.Value'.tailK_outG m c h0 h1 h2]
  funext _
  exact (Cert.Spec.kernelLoss_eq_refLoss _ _).symm

end Cert.Proof

end
-- ==== Proof.lean ====
/- The certificate of a flash-style InfoNCE kernel against its reference.

   The kernel walks an 8 × 8 grid (row tiles of 1024 anchors, column tiles of 2048 targets) keeping per row tile a
   running sum of exponentials, a running diagonal score and the normalised anchor rows; the reference forms the whole
   8192 × 16384 score matrix and applies log-softmax. The frames run each program to its end with its arguments
   unchanged; the value claim reads both results as the same mean of `log Σ_j exp (S i j) − S i i`, the kernel's scale
   constant read as the reciprocal of the reference's temperature word. -/
import proofs.«144956_j83760452206739_2_alg».proof.Defs
import proofs.«144956_j83760452206739_2_alg».proof.Proof.KFrame
import proofs.«144956_j83760452206739_2_alg».proof.Proof.KiFrame
import proofs.«144956_j83760452206739_2_alg».proof.Proof.RefRun
import proofs.«144956_j83760452206739_2_alg».proof.Proof.Algebraic
import proofs.«144956_j83760452206739_2_alg».proof.Proof.Gen.Kernel
import proofs.«144956_j83760452206739_2_alg».proof.Proof.Gen.KernelIdeal
import proofs.«144956_j83760452206739_2_alg».proof.Proof.Gen.ReferenceIdeal
import proofs.«144956_j83760452206739_2_alg».proof.Proof.Gen.Pre_finite_inputs
import Idealize.ShloMosaic.Adequacy
import Idealize.ShloMosaic.Init

noncomputable section

namespace Cert.Proof

open Idealize.ShloMosaic Idealize.SL.Sem

/-- The word-level kernel runs to its end and leaves its arguments as launched. -/
theorem frame_k : Cert.frame_Kernel := fun m ρ _ => Cert.Kernel.Body.frame (F := Bits) m ρ
/-- So does the idealised kernel. -/
theorem frame_ki : Cert.frame_KernelIdeal := fun m ρ _ => Cert.KernelIdeal.Body.frame (F := Ideal) m ρ
/-- The reference is host operations only: it runs to its end, and none writes an argument. -/
theorem frame_ri : Cert.frame_ReferenceIdeal := fun m ρ _ => Cert.ReferenceIdeal.HandRun.frame (F := Ideal) m ρ

/-- The three places where the kernel's scale 20 is read as 268435456 / 13421773: the table gives the name that value. -/
theorem preserves : Cert.preserves_Kernel_KernelIdeal :=
  ⟨IdealRules.named_const.statement Cert.KernelIdeal.κ "inv_temperature" .f32 0x41A00000#32 ((268435456 / 13421773 : ℝ) : EReal) rfl,
   IdealRules.named_const.statement Cert.KernelIdeal.κ "inv_temperature" .f32 0x41A00000#32 ((268435456 / 13421773 : ℝ) : EReal) rfl,
   IdealRules.named_const.statement Cert.KernelIdeal.κ "inv_temperature" .f32 0x41A00000#32 ((268435456 / 13421773 : ℝ) : EReal) rfl⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
